-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v172)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v172) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v289) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000x8000 : Shape := ⟨2, ![4000, 8000]⟩
abbrev S4000x20000 : Shape := ⟨2, ![4000, 20000]⟩
abbrev S8000x20000 : Shape := ⟨2, ![8000, 20000]⟩
abbrev S4000x3 : Shape := ⟨2, ![4000, 3]⟩
abbrev S8000x3 : Shape := ⟨2, ![8000, 3]⟩
abbrev S20000x3 : Shape := ⟨2, ![20000, 3]⟩
abbrev S3x3 : Shape := ⟨2, ![3, 3]⟩
abbrev S1x8000 : Shape := ⟨2, ![1, 8000]⟩
abbrev S1x20000 : Shape := ⟨2, ![1, 20000]⟩
abbrev S4000x1 : Shape := ⟨2, ![4000, 1]⟩
abbrev S1200 : Shape := ⟨1, ![1200]⟩
abbrev S2400 : Shape := ⟨1, ![2400]⟩
abbrev S6000 : Shape := ⟨1, ![6000]⟩
abbrev S_ : Shape := ⟨0, ![]⟩

class Facts : Prop where
  bcast_S_S4000x8000 : S_.BroadcastsInDim S4000x8000 (![] : Fin 0 → Fin S4000x8000.rank)
  reducesTo_S4000x8000_S_d0_1 : S4000x8000.ReducesTo [0, 1] S_
  h_S_ : 0 < S_.numel
  bcast_S_S4000x20000 : S_.BroadcastsInDim S4000x20000 (![] : Fin 0 → Fin S4000x20000.rank)
  reducesTo_S4000x20000_S_d0_1 : S4000x20000.ReducesTo [0, 1] S_
  bcast_S_S8000x20000 : S_.BroadcastsInDim S8000x20000 (![] : Fin 0 → Fin S8000x20000.rank)
  reducesTo_S8000x20000_S_d0_1 : S8000x20000.ReducesTo [0, 1] S_
  bcast_S_S4000x3 : S_.BroadcastsInDim S4000x3 (![] : Fin 0 → Fin S4000x3.rank)
  reducesTo_S4000x3_S_d0_1 : S4000x3.ReducesTo [0, 1] S_
  bcast_S_S8000x3 : S_.BroadcastsInDim S8000x3 (![] : Fin 0 → Fin S8000x3.rank)
  reducesTo_S8000x3_S_d0_1 : S8000x3.ReducesTo [0, 1] S_
  bcast_S_S20000x3 : S_.BroadcastsInDim S20000x3 (![] : Fin 0 → Fin S20000x3.rank)
  reducesTo_S20000x3_S_d0_1 : S20000x3.ReducesTo [0, 1] S_
  bcast_S_S3x3 : S_.BroadcastsInDim S3x3 (![] : Fin 0 → Fin S3x3.rank)
  reducesTo_S3x3_S_d0_1 : S3x3.ReducesTo [0, 1] S_
  bcast_S_S1x8000 : S_.BroadcastsInDim S1x8000 (![] : Fin 0 → Fin S1x8000.rank)
  reducesTo_S1x8000_S_d0_1 : S1x8000.ReducesTo [0, 1] S_
  bcast_S_S1x20000 : S_.BroadcastsInDim S1x20000 (![] : Fin 0 → Fin S1x20000.rank)
  reducesTo_S1x20000_S_d0_1 : S1x20000.ReducesTo [0, 1] S_
  bcast_S_S4000x1 : S_.BroadcastsInDim S4000x1 (![] : Fin 0 → Fin S4000x1.rank)
  reducesTo_S4000x1_S_d0_1 : S4000x1.ReducesTo [0, 1] S_

variable [Facts]

def fn_part3 {F : FTy → Type} [FloatOps F] (main_arg11 : FVec F S4000x1 .f32) (main_v48 : IVec S_ 1) (main_v49 : FVec F S4000x1 .f32) (main_v50 : FVec F S4000x1 .f32) : IVec S_ 1 :=
  let main_v51 : IVec S4000x1 1 := cmpf .olt main_v49 main_v50
  let main_c_19 : IVec S_ 1 := constantI S_ 1 1#1
  let main_v52 : IVec S_ 1 := (fun x v => Host.reduce IntOp.andi x v reducesTo_S4000x1_S_d0_1 h_S_) main_v51 main_c_19
  let main_v53 : IVec S_ 1 := andi main_v48 main_v52
  let main_v54 : FVec F S4000x1 .f32 := Host.absf main_arg11
  let main_cst_20 : FVec F S_ .f32 := constant S_ .f32 0x7F800000#32
  let main_v55 : FVec F S4000x1 .f32 := broadcastInDim S4000x1 ![] bcast_S_S4000x1 main_cst_20
  let main_v56 : IVec S4000x1 1 := cmpf .olt main_v54 main_v55
  let main_c_21 : IVec S_ 1 := constantI S_ 1 1#1
  let main_v57 : IVec S_ 1 := (fun x v => Host.reduce IntOp.andi x v reducesTo_S4000x1_S_d0_1 h_S_) main_v56 main_c_21
  let main_v58 : IVec S_ 1 := andi main_v53 main_v57
  main_v58

def fn_part2 {F : FTy → Type} [FloatOps F] (main_arg7 : FVec F S3x3 .f32) (main_arg8 : FVec F S1x8000 .f32) (main_arg9 : FVec F S1x20000 .f32) (main_arg10 : FVec F S4000x1 .f32) (main_arg11 : FVec F S4000x1 .f32) (main_v33 : IVec S_ 1) : IVec S_ 1 :=
  let main_v34 : FVec F S3x3 .f32 := Host.absf main_arg7
  let main_cst_12 : FVec F S_ .f32 := constant S_ .f32 0x7F800000#32
  let main_v35 : FVec F S3x3 .f32 := broadcastInDim S3x3 ![] bcast_S_S3x3 main_cst_12
  let main_v36 : IVec S3x3 1 := cmpf .olt main_v34 main_v35
  let main_c_13 : IVec S_ 1 := constantI S_ 1 1#1
  let main_v37 : IVec S_ 1 := (fun x v => Host.reduce IntOp.andi x v reducesTo_S3x3_S_d0_1 h_S_) main_v36 main_c_13
  let main_v38 : IVec S_ 1 := andi main_v33 main_v37
  let main_v39 : FVec F S1x8000 .f32 := Host.absf main_arg8
  let main_cst_14 : FVec F S_ .f32 := constant S_ .f32 0x7F800000#32
  let main_v40 : FVec F S1x8000 .f32 := broadcastInDim S1x8000 ![] bcast_S_S1x8000 main_cst_14
  let main_v41 : IVec S1x8000 1 := cmpf .olt main_v39 main_v40
  let main_c_15 : IVec S_ 1 := constantI S_ 1 1#1
  let main_v42 : IVec S_ 1 := (fun x v => Host.reduce IntOp.andi x v reducesTo_S1x8000_S_d0_1 h_S_) main_v41 main_c_15
  let main_v43 : IVec S_ 1 := andi main_v38 main_v42
  let main_v44 : FVec F S1x20000 .f32 := Host.absf main_arg9
  let main_cst_16 : FVec F S_ .f32 := constant S_ .f32 0x7F800000#32
  let main_v45 : FVec F S1x20000 .f32 := broadcastInDim S1x20000 ![] bcast_S_S1x20000 main_cst_16
  let main_v46 : IVec S1x20000 1 := cmpf .olt main_v44 main_v45
  let main_c_17 : IVec S_ 1 := constantI S_ 1 1#1
  let main_v47 : IVec S_ 1 := (fun x v => Host.reduce IntOp.andi x v reducesTo_S1x20000_S_d0_1 h_S_) main_v46 main_c_17
  let main_v48 : IVec S_ 1 := andi main_v43 main_v47
  let main_v49 : FVec F S4000x1 .f32 := Host.absf main_arg10
  let main_cst_18 : FVec F S_ .f32 := constant S_ .f32 0x7F800000#32
  let main_v50 : FVec F S4000x1 .f32 := broadcastInDim S4000x1 ![] bcast_S_S4000x1 main_cst_18
  fn_part3 (F := F) main_arg11 main_v48 main_v49 main_v50

def fn_part1 {F : FTy → Type} [FloatOps F] (main_arg4 : FVec F S4000x3 .f32) (main_arg5 : FVec F S8000x3 .f32) (main_arg6 : FVec F S20000x3 .f32) (main_arg7 : FVec F S3x3 .f32) (main_arg8 : FVec F S1x8000 .f32) (main_arg9 : FVec F S1x20000 .f32) (main_arg10 : FVec F S4000x1 .f32) (main_arg11 : FVec F S4000x1 .f32) (main_v13 : IVec S_ 1) (main_v16 : IVec S4000x3 1) : IVec S_ 1 :=
  let main_c_5 : IVec S_ 1 := constantI S_ 1 1#1
  let main_v17 : IVec S_ 1 := (fun x v => Host.reduce IntOp.andi x v reducesTo_S4000x3_S_d0_1 h_S_) main_v16 main_c_5
  let main_v18 : IVec S_ 1 := andi main_v13 main_v17
  let main_v19 : FVec F S4000x3 .f32 := Host.absf main_arg4
  let main_cst_6 : FVec F S_ .f32 := constant S_ .f32 0x7F800000#32
  let main_v20 : FVec F S4000x3 .f32 := broadcastInDim S4000x3 ![] bcast_S_S4000x3 main_cst_6
  let main_v21 : IVec S4000x3 1 := cmpf .olt main_v19 main_v20
  let main_c_7 : IVec S_ 1 := constantI S_ 1 1#1
  let main_v22 : IVec S_ 1 := (fun x v => Host.reduce IntOp.andi x v reducesTo_S4000x3_S_d0_1 h_S_) main_v21 main_c_7
  let main_v23 : IVec S_ 1 := andi main_v18 main_v22
  let main_v24 : FVec F S8000x3 .f32 := Host.absf main_arg5
  let main_cst_8 : FVec F S_ .f32 := constant S_ .f32 0x7F800000#32
  let main_v25 : FVec F S8000x3 .f32 := broadcastInDim S8000x3 ![] bcast_S_S8000x3 main_cst_8
  let main_v26 : IVec S8000x3 1 := cmpf .olt main_v24 main_v25
  let main_c_9 : IVec S_ 1 := constantI S_ 1 1#1
  let main_v27 : IVec S_ 1 := (fun x v => Host.reduce IntOp.andi x v reducesTo_S8000x3_S_d0_1 h_S_) main_v26 main_c_9
  let main_v28 : IVec S_ 1 := andi main_v23 main_v27
  let main_v29 : FVec F S20000x3 .f32 := Host.absf main_arg6
  let main_cst_10 : FVec F S_ .f32 := constant S_ .f32 0x7F800000#32
  let main_v30 : FVec F S20000x3 .f32 := broadcastInDim S20000x3 ![] bcast_S_S20000x3 main_cst_10
  let main_v31 : IVec S20000x3 1 := cmpf .olt main_v29 main_v30
  let main_c_11 : IVec S_ 1 := constantI S_ 1 1#1
  let main_v32 : IVec S_ 1 := (fun x v => Host.reduce IntOp.andi x v reducesTo_S20000x3_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S4000x8000 .f32) (main_arg1 : FVec F S4000x20000 .f32) (main_arg2 : FVec F S8000x20000 .f32) (main_arg3 : FVec F S4000x3 .f32) (main_arg4 : FVec F S4000x3 .f32) (main_arg5 : FVec F S8000x3 .f32) (main_arg6 : FVec F S20000x3 .f32) (main_arg7 : FVec F S3x3 .f32) (main_arg8 : FVec F S1x8000 .f32) (main_arg9 : FVec F S1x20000 .f32) (main_arg10 : FVec F S4000x1 .f32) (main_arg11 : FVec F S4000x1 .f32) (main_arg12 : IVec S1200 32) (main_arg13 : IVec S1200 32) (main_arg14 : IVec S2400 32) (main_arg15 : IVec S6000 32) : IVec S_ 1 :=
  let main_v0 : FVec F S4000x8000 .f32 := Host.absf main_arg0
  let main_cst : FVec F S_ .f32 := constant S_ .f32 0x7F800000#32
  let main_v1 : FVec F S4000x8000 .f32 := broadcastInDim S4000x8000 ![] bcast_S_S4000x8000 main_cst
  let main_v2 : IVec S4000x8000 1 := cmpf .olt main_v0 main_v1
  let main_c : IVec S_ 1 := constantI S_ 1 1#1
  let main_v3 : IVec S_ 1 := (fun x v => Host.reduce IntOp.andi x v reducesTo_S4000x8000_S_d0_1 h_S_) main_v2 main_c
  let main_v4 : FVec F S4000x20000 .f32 := Host.absf main_arg1
  let main_cst_0 : FVec F S_ .f32 := constant S_ .f32 0x7F800000#32
  let main_v5 : FVec F S4000x20000 .f32 := broadcastInDim S4000x20000 ![] bcast_S_S4000x20000 main_cst_0
  let main_v6 : IVec S4000x20000 1 := cmpf .olt main_v4 main_v5
  let main_c_1 : IVec S_ 1 := constantI S_ 1 1#1
  let main_v7 : IVec S_ 1 := (fun x v => Host.reduce IntOp.andi x v reducesTo_S4000x20000_S_d0_1 h_S_) main_v6 main_c_1
  let main_v8 : IVec S_ 1 := andi main_v3 main_v7
  let main_v9 : FVec F S8000x20000 .f32 := Host.absf main_arg2
  let main_cst_2 : FVec F S_ .f32 := constant S_ .f32 0x7F800000#32
  let main_v10 : FVec F S8000x20000 .f32 := broadcastInDim S8000x20000 ![] bcast_S_S8000x20000 main_cst_2
  let main_v11 : IVec S8000x20000 1 := cmpf .olt main_v9 main_v10
  let main_c_3 : IVec S_ 1 := constantI S_ 1 1#1
  let main_v12 : IVec S_ 1 := (fun x v => Host.reduce IntOp.andi x v reducesTo_S8000x20000_S_d0_1 h_S_) main_v11 main_c_3
  let main_v13 : IVec S_ 1 := andi main_v8 main_v12
  let main_v14 : FVec F S4000x3 .f32 := Host.absf main_arg3
  let main_cst_4 : FVec F S_ .f32 := constant S_ .f32 0x7F800000#32
  let main_v15 : FVec F S4000x3 .f32 := broadcastInDim S4000x3 ![] bcast_S_S4000x3 main_cst_4
  let main_v16 : IVec S4000x3 1 := cmpf .olt main_v14 main_v15
  fn_part1 (F := F) main_arg4 main_arg5 main_arg6 main_arg7 main_arg8 main_arg9 main_arg10 main_arg11 main_v13 main_v16
-- ==== Kernel.lean ====
abbrev S4000x8000 : Shape := ⟨2, ![4000, 8000]⟩
abbrev S4000x20000 : Shape := ⟨2, ![4000, 20000]⟩
abbrev S8000x20000 : Shape := ⟨2, ![8000, 20000]⟩
abbrev S4000x3 : Shape := ⟨2, ![4000, 3]⟩
abbrev S8000x3 : Shape := ⟨2, ![8000, 3]⟩
abbrev S20000x3 : Shape := ⟨2, ![20000, 3]⟩
abbrev S3x3 : Shape := ⟨2, ![3, 3]⟩
abbrev S1x8000 : Shape := ⟨2, ![1, 8000]⟩
abbrev S1x20000 : Shape := ⟨2, ![1, 20000]⟩
abbrev S4000x1 : Shape := ⟨2, ![4000, 1]⟩
abbrev S1200 : Shape := ⟨1, ![1200]⟩
abbrev S2400 : Shape := ⟨1, ![2400]⟩
abbrev S6000 : Shape := ⟨1, ![6000]⟩
abbrev S_ : Shape := ⟨0, ![]⟩
abbrev S1200x1 : Shape := ⟨2, ![1200, 1]⟩
abbrev S1200x8000 : Shape := ⟨2, ![1200, 8000]⟩
abbrev S2400x1 : Shape := ⟨2, ![2400, 1]⟩
abbrev S1200x2400 : Shape := ⟨2, ![1200, 2400]⟩
abbrev S1200x20000 : Shape := ⟨2, ![1200, 20000]⟩
abbrev S6000x1 : Shape := ⟨2, ![6000, 1]⟩
abbrev S1200x6000 : Shape := ⟨2, ![1200, 6000]⟩
abbrev S2400x20000 : Shape := ⟨2, ![2400, 20000]⟩
abbrev S2400x6000 : Shape := ⟨2, ![2400, 6000]⟩
abbrev S1200x3 : Shape := ⟨2, ![1200, 3]⟩
abbrev S2400x3 : Shape := ⟨2, ![2400, 3]⟩
abbrev S6000x3 : Shape := ⟨2, ![6000, 3]⟩
abbrev S1x2400 : Shape := ⟨2, ![1, 2400]⟩
abbrev S1x6000 : Shape := ⟨2, ![1, 6000]⟩
abbrev S3x2400 : Shape := ⟨2, ![3, 2400]⟩
abbrev S3x6000 : Shape := ⟨2, ![3, 6000]⟩
abbrev S1x1 : Shape := ⟨2, ![1, 1]⟩
abbrev S200x2400 : Shape := ⟨2, ![200, 2400]⟩
abbrev S200x3 : Shape := ⟨2, ![200, 3]⟩
abbrev S200x1 : Shape := ⟨2, ![200, 1]⟩
abbrev S200 : Shape := ⟨1, ![200]⟩
abbrev S1 : Shape := ⟨1, ![1]⟩
abbrev S200x6000 : Shape := ⟨2, ![200, 6000]⟩
abbrev S400x6000 : Shape := ⟨2, ![400, 6000]⟩
abbrev S400x3 : Shape := ⟨2, ![400, 3]⟩
abbrev S400 : Shape := ⟨1, ![400]⟩
abbrev S400x1 : Shape := ⟨2, ![400, 1]⟩
abbrev S5 : Shape := ⟨1, ![5]⟩

abbrev nBuf : Space → Nat
  | .hbm => 242
  | .vmem => 24
  | .smem => 0
  | _ => 0

abbrev hbmTy0_0 (i : Nat) : BufTy := match i % 128 with
  | 0 => ⟨S4000x8000, .f32⟩
  | 1 => ⟨S4000x20000, .f32⟩
  | 2 => ⟨S8000x20000, .f32⟩
  | 3 => ⟨S4000x3, .f32⟩
  | 4 => ⟨S4000x3, .f32⟩
  | 5 => ⟨S8000x3, .f32⟩
  | 6 => ⟨S20000x3, .f32⟩
  | 7 => ⟨S3x3, .f32⟩
  | 8 => ⟨S1x8000, .f32⟩
  | 9 => ⟨S1x20000, .f32⟩
  | 10 => ⟨S4000x1, .f32⟩
  | 11 => ⟨S4000x1, .f32⟩
  | 12 => ⟨S1200, .i32⟩
  | 13 => ⟨S1200, .i32⟩
  | 14 => ⟨S2400, .i32⟩
  | 15 => ⟨S6000, .i32⟩
  | 16 => ⟨S_, .i32⟩
  | 17 => ⟨S1200, .i32⟩
  | 18 => ⟨S1200, .i1⟩
  | 19 => ⟨S_, .i32⟩
  | 20 => ⟨S1200, .i32⟩
  | 21 => ⟨S1200, .i32⟩
  | 22 => ⟨S1200, .i32⟩
  | 23 => ⟨S1200x1, .i32⟩
  | 24 => ⟨S1200x8000, .f32⟩
  | 25 => ⟨S_, .i32⟩
  | 26 => ⟨S2400, .i32⟩
  | 27 => ⟨S2400, .i1⟩
  | 28 => ⟨S_, .i32⟩
  | 29 => ⟨S2400, .i32⟩
  | 30 => ⟨S2400, .i32⟩
  | 31 => ⟨S2400, .i32⟩
  | 32 => ⟨S2400x1, .i32⟩
  | 33 => ⟨S1200x2400, .f32⟩
  | 34 => ⟨S_, .i32⟩
  | 35 => ⟨S1200, .i32⟩
  | 36 => ⟨S1200, .i1⟩
  | 37 => ⟨S_, .i32⟩
  | 38 => ⟨S1200, .i32⟩
  | 39 => ⟨S1200, .i32⟩
  | 40 => ⟨S1200, .i32⟩
  | 41 => ⟨S1200x1, .i32⟩
  | 42 => ⟨S1200x20000, .f32⟩
  | 43 => ⟨S_, .i32⟩
  | 44 => ⟨S6000, .i32⟩
  | 45 => ⟨S6000, .i1⟩
  | 46 => ⟨S_, .i32⟩
  | 47 => ⟨S6000, .i32⟩
  | 48 => ⟨S6000, .i32⟩
  | 49 => ⟨S6000, .i32⟩
  | 50 => ⟨S6000x1, .i32⟩
  | 51 => ⟨S1200x6000, .f32⟩
  | 52 => ⟨S_, .i32⟩
  | 53 => ⟨S2400, .i32⟩
  | 54 => ⟨S2400, .i1⟩
  | 55 => ⟨S_, .i32⟩
  | 56 => ⟨S2400, .i32⟩
  | 57 => ⟨S2400, .i32⟩
  | 58 => ⟨S2400, .i32⟩
  | 59 => ⟨S2400x1, .i32⟩
  | 60 => ⟨S2400x20000, .f32⟩
  | 61 => ⟨S_, .i32⟩
  | 62 => ⟨S6000, .i32⟩
  | 63 => ⟨S6000, .i1⟩
  | 64 => ⟨S_, .i32⟩
  | 65 => ⟨S6000, .i32⟩
  | 66 => ⟨S6000, .i32⟩
  | 67 => ⟨S6000, .i32⟩
  | 68 => ⟨S6000x1, .i32⟩
  | 69 => ⟨S2400x6000, .f32⟩
  | 70 => ⟨S_, .i32⟩
  | 71 => ⟨S1200, .i32⟩
  | 72 => ⟨S1200, .i1⟩
  | 73 => ⟨S_, .i32⟩
  | 74 => ⟨S1200, .i32⟩
  | 75 => ⟨S1200, .i32⟩
  | 76 => ⟨S1200, .i32⟩
  | 77 => ⟨S1200x1, .i32⟩
  | 78 => ⟨S1200x3, .f32⟩
  | 79 => ⟨S_, .i32⟩
  | 80 => ⟨S1200, .i32⟩
  | 81 => ⟨S1200, .i1⟩
  | 82 => ⟨S_, .i32⟩
  | 83 => ⟨S1200, .i32⟩
  | 84 => ⟨S1200, .i32⟩
  | 85 => ⟨S1200, .i32⟩
  | 86 => ⟨S1200x1, .i32⟩
  | 87 => ⟨S1200x3, .f32⟩
  | 88 => ⟨S_, .i32⟩
  | 89 => ⟨S2400, .i32⟩
  | 90 => ⟨S2400, .i1⟩
  | 91 => ⟨S_, .i32⟩
  | 92 => ⟨S2400, .i32⟩
  | 93 => ⟨S2400, .i32⟩
  | 94 => ⟨S2400, .i32⟩
  | 95 => ⟨S2400x1, .i32⟩
  | 96 => ⟨S2400x3, .f32⟩
  | 97 => ⟨S_, .i32⟩
  | 98 => ⟨S6000, .i32⟩
  | 99 => ⟨S6000, .i1⟩
  | 100 => ⟨S_, .i32⟩
  | 101 => ⟨S6000, .i32⟩
  | 102 => ⟨S6000, .i32⟩
  | 103 => ⟨S6000, .i32⟩
  | 104 => ⟨S6000x1, .i32⟩
  | 105 => ⟨S6000x3, .f32⟩
  | 106 => ⟨S_, .i32⟩
  | 107 => ⟨S2400, .i32⟩
  | 108 => ⟨S2400, .i1⟩
  | 109 => ⟨S_, .i32⟩
  | 110 => ⟨S2400, .i32⟩
  | 111 => ⟨S2400, .i32⟩
  | 112 => ⟨S2400, .i32⟩
  | 113 => ⟨S2400x1, .i32⟩
  | 114 => ⟨S1x2400, .f32⟩
  | 115 => ⟨S_, .i32⟩
  | 116 => ⟨S6000, .i32⟩
  | 117 => ⟨S6000, .i1⟩
  | 118 => ⟨S_, .i32⟩
  | 119 => ⟨S6000, .i32⟩
  | 120 => ⟨S6000, .i32⟩
  | 121 => ⟨S6000, .i32⟩
  | 122 => ⟨S6000x1, .i32⟩
  | 123 => ⟨S1x6000, .f32⟩
  | 124 => ⟨S_, .i32⟩
  | 125 => ⟨S1200, .i32⟩
  | 126 => ⟨S1200, .i1⟩
  | 127 => ⟨S_, .i32⟩
  | _ => ⟨S4000x8000, .f32⟩

abbrev hbmTy0_1 (i : Nat) : BufTy := match i % 128 with
  | 0 => ⟨S1200, .i32⟩
  | 1 => ⟨S1200, .i32⟩
  | 2 => ⟨S1200, .i32⟩
  | 3 => ⟨S1200x1, .i32⟩
  | 4 => ⟨S1200x1, .f32⟩
  | 5 => ⟨S_, .i32⟩
  | 6 => ⟨S1200, .i32⟩
  | 7 => ⟨S1200, .i1⟩
  | 8 => ⟨S_, .i32⟩
  | 9 => ⟨S1200, .i32⟩
  | 10 => ⟨S1200, .i32⟩
  | 11 => ⟨S1200, .i32⟩
  | 12 => ⟨S1200x1, .i32⟩
  | 13 => ⟨S1200x1, .f32⟩
  | 14 => ⟨S_, .f32⟩
  | 15 => ⟨S1200, .f32⟩
  | 16 => ⟨S_, .f32⟩
  | 17 => ⟨S1200, .f32⟩
  | 18 => ⟨S1200, .f32⟩
  | 19 => ⟨S1200x1, .f32⟩
  | 20 => ⟨S1200x3, .f32⟩
  | 21 => ⟨S1200x3, .f32⟩
  | 22 => ⟨S1200x3, .f32⟩
  | 23 => ⟨S_, .f32⟩
  | 24 => ⟨S1200, .f32⟩
  | 25 => ⟨S1200x1, .f32⟩
  | 26 => ⟨S1200x3, .f32⟩
  | 27 => ⟨S1200x3, .f32⟩
  | 28 => ⟨S_, .f32⟩
  | 29 => ⟨S1200, .f32⟩
  | 30 => ⟨S_, .f32⟩
  | 31 => ⟨S1200, .f32⟩
  | 32 => ⟨S1200, .f32⟩
  | 33 => ⟨S1200x1, .f32⟩
  | 34 => ⟨S1200x3, .f32⟩
  | 35 => ⟨S1200x3, .f32⟩
  | 36 => ⟨S1200x3, .f32⟩
  | 37 => ⟨S_, .f32⟩
  | 38 => ⟨S1200, .f32⟩
  | 39 => ⟨S1200x1, .f32⟩
  | 40 => ⟨S1200x3, .f32⟩
  | 41 => ⟨S1200x3, .f32⟩
  | 42 => ⟨S_, .f32⟩
  | 43 => ⟨S2400, .f32⟩
  | 44 => ⟨S_, .f32⟩
  | 45 => ⟨S2400, .f32⟩
  | 46 => ⟨S2400, .f32⟩
  | 47 => ⟨S2400x1, .f32⟩
  | 48 => ⟨S2400x3, .f32⟩
  | 49 => ⟨S2400x3, .f32⟩
  | 50 => ⟨S2400x3, .f32⟩
  | 51 => ⟨S_, .f32⟩
  | 52 => ⟨S2400, .f32⟩
  | 53 => ⟨S2400x1, .f32⟩
  | 54 => ⟨S2400x3, .f32⟩
  | 55 => ⟨S2400x3, .f32⟩
  | 56 => ⟨S_, .f32⟩
  | 57 => ⟨S6000, .f32⟩
  | 58 => ⟨S_, .f32⟩
  | 59 => ⟨S6000, .f32⟩
  | 60 => ⟨S6000, .f32⟩
  | 61 => ⟨S6000x1, .f32⟩
  | 62 => ⟨S6000x3, .f32⟩
  | 63 => ⟨S6000x3, .f32⟩
  | 64 => ⟨S6000x3, .f32⟩
  | 65 => ⟨S_, .f32⟩
  | 66 => ⟨S6000, .f32⟩
  | 67 => ⟨S6000x1, .f32⟩
  | 68 => ⟨S6000x3, .f32⟩
  | 69 => ⟨S6000x3, .f32⟩
  | 70 => ⟨S1200x3, .f32⟩
  | 71 => ⟨S1200x3, .f32⟩
  | 72 => ⟨S3x2400, .f32⟩
  | 73 => ⟨S3x6000, .f32⟩
  | 74 => ⟨S2400x3, .f32⟩
  | 75 => ⟨S_, .f32⟩
  | 76 => ⟨S_, .f32⟩
  | 77 => ⟨S_, .f32⟩
  | 78 => ⟨S6000x3, .f32⟩
  | 79 => ⟨S_, .f32⟩
  | 80 => ⟨S_, .f32⟩
  | 81 => ⟨S_, .f32⟩
  | 82 => ⟨S2400x3, .f32⟩
  | 83 => ⟨S2400x3, .f32⟩
  | 84 => ⟨S6000x3, .f32⟩
  | 85 => ⟨S6000x3, .f32⟩
  | 86 => ⟨S1x1, .f32⟩
  | 87 => ⟨S1x1, .f32⟩
  | 88 => ⟨S1x1, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S1, .f32⟩
  | 109 => ⟨S1, .f32⟩
  | 110 => ⟨S1, .f32⟩
  | 111 => ⟨S1, .f32⟩
  | 112 => ⟨S1, .f32⟩
  | 113 => ⟨S5, .f32⟩
  | _ => ⟨S4000x8000, .f32⟩

abbrev hbmTy (i : Nat) : BufTy := match i / 128 with
  | 0 => hbmTy0_0 i
  | 1 => hbmTy0_1 i
  | _ => ⟨S4000x8000, .f32⟩

abbrev bufTy : (tb : Table) → Fin (tcTables nBuf tb) → BufTy
  | .hbm, ⟨i, _⟩ => hbmTy i
  | .local _ .vmem, ⟨0, _⟩ => ⟨S200x2400, .f32⟩
  | .local _ .vmem, ⟨1, _⟩ => ⟨S200x2400, .f32⟩
  | .local _ .vmem, ⟨2, _⟩ => ⟨S200x3, .f32⟩
  | .local _ .vmem, ⟨3, _⟩ => ⟨S200x3, .f32⟩
  | .local _ .vmem, ⟨4, _⟩ => ⟨S3x2400, .f32⟩
  | .local _ .vmem, ⟨5, _⟩ => ⟨S1x2400, .f32⟩
  | .local _ .vmem, ⟨6, _⟩ => ⟨S200x1, .f32⟩
  | .local _ .vmem, ⟨7, _⟩ => ⟨S200x1, .f32⟩
  | .local _ .vmem, ⟨8, _⟩ => ⟨S1x1, .f32⟩
  | .local _ .vmem, ⟨9, _⟩ => ⟨S200x6000, .f32⟩
  | .local _ .vmem, ⟨10, _⟩ => ⟨S200x6000, .f32⟩
  | .local _ .vmem, ⟨11, _⟩ => ⟨S200x3, .f32⟩
  | .local _ .vmem, ⟨12, _⟩ => ⟨S200x3, .f32⟩
  | .local _ .vmem, ⟨13, _⟩ => ⟨S3x6000, .f32⟩
  | .local _ .vmem, ⟨14, _⟩ => ⟨S1x6000, .f32⟩
  | .local _ .vmem, ⟨15, _⟩ => ⟨S200x1, .f32⟩
  | .local _ .vmem, ⟨16, _⟩ => ⟨S200x1, .f32⟩
  | .local _ .vmem, ⟨17, _⟩ => ⟨S1x1, .f32⟩
  | .local _ .vmem, ⟨18, _⟩ => ⟨S400x6000, .f32⟩
  | .local _ .vmem, ⟨19, _⟩ => ⟨S400x6000, .f32⟩
  | .local _ .vmem, ⟨20, _⟩ => ⟨S400x3, .f32⟩
  | .local _ .vmem, ⟨21, _⟩ => ⟨S400x3, .f32⟩
  | .local _ .vmem, ⟨22, _⟩ => ⟨S6000x3, .f32⟩
  | .local _ .vmem, ⟨23, _⟩ => ⟨S1x1, .f32⟩
  | _, _ => ⟨S4000x8000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c_3 : Ref sig .tc := ⟨.hbm, 34, rfl⟩
abbrev main_v14 : Ref sig .tc := ⟨.hbm, 35, rfl⟩
abbrev main_v15 : Ref sig .tc := ⟨.hbm, 36, rfl⟩
abbrev main_c_4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_5 : Ref sig .tc := ⟨.hbm, 43, rfl⟩
abbrev main_v21 : Ref sig .tc := ⟨.hbm, 44, rfl⟩
abbrev main_v22 : Ref sig .tc := ⟨.hbm, 45, rfl⟩
abbrev main_c_6 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_7 : Ref sig .tc := ⟨.hbm, 52, rfl⟩
abbrev main_v28 : Ref sig .tc := ⟨.hbm, 53, rfl⟩
abbrev main_v29 : Ref sig .tc := ⟨.hbm, 54, rfl⟩
abbrev main_c_8 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_c_9 : Ref sig .tc := ⟨.hbm, 61, rfl⟩
abbrev main_v35 : Ref sig .tc := ⟨.hbm, 62, rfl⟩
abbrev main_v36 : Ref sig .tc := ⟨.hbm, 63, rfl⟩
abbrev main_c_10 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_c_11 : Ref sig .tc := ⟨.hbm, 70, rfl⟩
abbrev main_v42 : Ref sig .tc := ⟨.hbm, 71, rfl⟩
abbrev main_v43 : Ref sig .tc := ⟨.hbm, 72, rfl⟩
abbrev main_c_12 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_c_13 : Ref sig .tc := ⟨.hbm, 79, rfl⟩
abbrev main_v49 : Ref sig .tc := ⟨.hbm, 80, rfl⟩
abbrev main_v50 : Ref sig .tc := ⟨.hbm, 81, rfl⟩
abbrev main_c_14 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_c_15 : Ref sig .tc := ⟨.hbm, 88, rfl⟩
abbrev main_v56 : Ref sig .tc := ⟨.hbm, 89, rfl⟩
abbrev main_v57 : Ref sig .tc := ⟨.hbm, 90, rfl⟩
abbrev main_c_16 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_c_17 : Ref sig .tc := ⟨.hbm, 97, rfl⟩
abbrev main_v63 : Ref sig .tc := ⟨.hbm, 98, rfl⟩
abbrev main_v64 : Ref sig .tc := ⟨.hbm, 99, rfl⟩
abbrev main_c_18 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_c_19 : Ref sig .tc := ⟨.hbm, 106, rfl⟩
abbrev main_v70 : Ref sig .tc := ⟨.hbm, 107, rfl⟩
abbrev main_v71 : Ref sig .tc := ⟨.hbm, 108, rfl⟩
abbrev main_c_20 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_c_21 : Ref sig .tc := ⟨.hbm, 115, rfl⟩
abbrev main_v77 : Ref sig .tc := ⟨.hbm, 116, rfl⟩
abbrev main_v78 : Ref sig .tc := ⟨.hbm, 117, rfl⟩
abbrev main_c_22 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_c_23 : Ref sig .tc := ⟨.hbm, 124, rfl⟩
abbrev main_v84 : Ref sig .tc := ⟨.hbm, 125, rfl⟩
abbrev main_v85 : Ref sig .tc := ⟨.hbm, 126, rfl⟩
abbrev main_c_24 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_c_25 : Ref sig .tc := ⟨.hbm, 133, rfl⟩
abbrev main_v91 : Ref sig .tc := ⟨.hbm, 134, rfl⟩
abbrev main_v92 : Ref sig .tc := ⟨.hbm, 135, rfl⟩
abbrev main_c_26 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_cst : Ref sig .tc := ⟨.hbm, 142, rfl⟩
abbrev main_v98 : Ref sig .tc := ⟨.hbm, 143, rfl⟩
abbrev main_cst_27 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_cst_28 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_cst_29 : Ref sig .tc := ⟨.hbm, 156, rfl⟩
abbrev main_v109 : Ref sig .tc := ⟨.hbm, 157, rfl⟩
abbrev main_cst_30 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_cst_31 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_cst_32 : Ref sig .tc := ⟨.hbm, 170, rfl⟩
abbrev main_v120 : Ref sig .tc := ⟨.hbm, 171, rfl⟩
abbrev main_cst_33 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_cst_34 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_cst_35 : Ref sig .tc := ⟨.hbm, 184, rfl⟩
abbrev main_v131 : Ref sig .tc := ⟨.hbm, 185, rfl⟩
abbrev main_cst_36 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_cst_37 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_call0_v0 : Ref sig .tc := ⟨.hbm, 202, rfl⟩
abbrev main_call0_cst : Ref sig .tc := ⟨.hbm, 203, rfl⟩
abbrev main_call0_v1 : Ref sig .tc := ⟨.hbm, 204, rfl⟩
abbrev main_v146 : Ref sig .tc := ⟨.hbm, 205, rfl⟩
abbrev main_call1_v0 : Ref sig .tc := ⟨.hbm, 206, rfl⟩
abbrev main_call1_cst : Ref sig .tc := ⟨.hbm, 207, rfl⟩
abbrev main_call1_v1 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_cst_38 : Ref sig .tc := ⟨.hbm, 218, rfl⟩
abbrev main_v156 : Ref sig .tc := ⟨.hbm, 219, rfl⟩
abbrev main_v157 : Ref sig .tc := ⟨.hbm, 220, rfl⟩
abbrev main_cst_39 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_cst_40 : Ref sig .tc := ⟨.hbm, 225, rfl⟩
abbrev main_v161 : Ref sig .tc := ⟨.hbm, 226, rfl⟩
abbrev main_cst_41 : Ref sig .tc := ⟨.hbm, 227, rfl⟩
abbrev main_v162 : Ref sig .tc := ⟨.hbm, 228, rfl⟩
abbrev main_cst_42 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_cst_43 : Ref sig .tc := ⟨.hbm, 233, rfl⟩
abbrev main_v166 : Ref sig .tc := ⟨.hbm, 234, rfl⟩
abbrev main_cst_44 : Ref sig .tc := ⟨.hbm, 235, rfl⟩
abbrev main_v167 : Ref sig .tc := ⟨.hbm, 236, rfl⟩
abbrev main_v168 : Ref sig .tc := ⟨.hbm, 237, rfl⟩
abbrev main_v169 : Ref sig .tc := ⟨.hbm, 238, rfl⟩
abbrev main_v170 : Ref sig .tc := ⟨.hbm, 239, rfl⟩
abbrev main_v171 : Ref sig .tc := ⟨.hbm, 240, rfl⟩
abbrev main_v172 : Ref sig .tc := ⟨.hbm, 241, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem4_1 : DmaSem sig := 16
abbrev cc1_sem5_0 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S200x2400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x2400 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2400 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S200x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![6], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S200x6000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S200x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S3x6000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x6000 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S200x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![6], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S400x6000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S400x3 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S6000x3 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  bcast_S_S1200 : S_.BroadcastsInDim S1200 (![] : Fin 0 → Fin S1200.rank)
  bcast_S1200_S1200x1_0 : S1200.BroadcastsInDim S1200x1 (![0] : Fin 1 → Fin S1200x1.rank)
  bcast_S_S2400 : S_.BroadcastsInDim S2400 (![] : Fin 0 → Fin S2400.rank)
  bcast_S2400_S2400x1_0 : S2400.BroadcastsInDim S2400x1 (![0] : Fin 1 → Fin S2400x1.rank)
  bcast_S_S6000 : S_.BroadcastsInDim S6000 (![] : Fin 0 → Fin S6000.rank)
  bcast_S6000_S6000x1_0 : S6000.BroadcastsInDim S6000x1 (![0] : Fin 1 → Fin S6000x1.rank)
  reducesTo_S1200x3_S1200_d1 : S1200x3.ReducesTo [1] S1200
  h_S_ : 0 < S_.numel
  bcast_S1200x1_S1200x3_0_1 : S1200x1.BroadcastsInDim S1200x3 (![0, 1] : Fin 2 → Fin S1200x3.rank)
  reducesTo_S2400x3_S2400_d1 : S2400x3.ReducesTo [1] S2400
  bcast_S2400x1_S2400x3_0_1 : S2400x1.BroadcastsInDim S2400x3 (![0, 1] : Fin 2 → Fin S2400x3.rank)
  reducesTo_S6000x3_S6000_d1 : S6000x3.ReducesTo [1] S6000
  bcast_S6000x1_S6000x3_0_1 : S6000x1.BroadcastsInDim S6000x3 (![0, 1] : Fin 2 → Fin S6000x3.rank)
  transposes_S2400x3_S3x2400_1_0 : S2400x3.Transposes [1, 0] S3x2400
  transposes_S6000x3_S3x6000_1_0 : S6000x3.Transposes [1, 0] S3x6000
  reducesTo_S2400x3_S_d0_1 : S2400x3.ReducesTo [0, 1] S_
  reducesTo_S6000x3_S_d0_1 : S6000x3.ReducesTo [0, 1] S_
  bcast_S_S2400x3 : S_.BroadcastsInDim S2400x3 (![] : Fin 0 → Fin S2400x3.rank)
  bcast_S_S6000x3 : S_.BroadcastsInDim S6000x3 (![] : Fin 0 → Fin S6000x3.rank)
  inb_S1x1_S1x1_0_0 : ∀ a, (![0, 0] : Fin 2 → Nat) a + S1x1.size a ≤ S1x1.size a
  h_S1x1 : 0 < S1x1.numel
  inb_S200x3_S200x3_0_0 : ∀ a, (![0, 0] : Fin 2 → Nat) a + S200x3.size a ≤ S200x3.size a
  h_S200x3 : 0 < S200x3.numel
  shapeCasts_S200x3_S200x3 : S200x3.ShapeCasts S200x3
  bitsLt_bf16_f32 : FTy.bits .bf16 < FTy.bits .f32
  inb_S3x2400_S3x2400_0_0 : ∀ a, (![0, 0] : Fin 2 → Nat) a + S3x2400.size a ≤ S3x2400.size a
  h_S3x2400 : 0 < S3x2400.numel
  shapeCasts_S3x2400_S3x2400 : S3x2400.ShapeCasts S3x2400
  inb_S200x2400_S200x2400_0_0 : ∀ a, (![0, 0] : Fin 2 → Nat) a + S200x2400.size a ≤ S200x2400.size a
  h_S200x2400 : 0 < S200x2400.numel
  shapeCasts_S200x2400_S200x2400 : S200x2400.ShapeCasts S200x2400
  inb_S1x2400_S1x2400_0_0 : ∀ a, (![0, 0] : Fin 2 → Nat) a + S1x2400.size a ≤ S1x2400.size a
  h_S1x2400 : 0 < S1x2400.numel
  shapeCasts_S1x2400_S1x2400 : S1x2400.ShapeCasts S1x2400
  broadcasts_S1x2400_S200x2400 : S1x2400.Broadcasts S200x2400
  inb_S200x1_S200x1_0_0 : ∀ a, (![0, 0] : Fin 2 → Nat) a + S200x1.size a ≤ S200x1.size a
  h_S200x1 : 0 < S200x1.numel
  shapeCasts_S200x1_S200x1 : S200x1.ShapeCasts S200x1
  broadcasts_S200x1_S200x2400 : S200x1.Broadcasts S200x2400
  reduces_S200x2400_S200 : S200x2400.Reduces [1] S200
  shapeCasts_S200_S200x1 : S200.ShapeCasts S200x1
  reduces_S200x1_S1 : S200x1.Reduces [0] S1
  shapeCasts_S1_S1x1 : S1.ShapeCasts S1x1
  shapeCasts_S1x1_S1x1 : S1x1.ShapeCasts S1x1
  inb_S3x6000_S3x6000_0_0 : ∀ a, (![0, 0] : Fin 2 → Nat) a + S3x6000.size a ≤ S3x6000.size a
  h_S3x6000 : 0 < S3x6000.numel
  shapeCasts_S3x6000_S3x6000 : S3x6000.ShapeCasts S3x6000
  inb_S200x6000_S200x6000_0_0 : ∀ a, (![0, 0] : Fin 2 → Nat) a + S200x6000.size a ≤ S200x6000.size a
  h_S200x6000 : 0 < S200x6000.numel
  shapeCasts_S200x6000_S200x6000 : S200x6000.ShapeCasts S200x6000
  inb_S1x6000_S1x6000_0_0 : ∀ a, (![0, 0] : Fin 2 → Nat) a + S1x6000.size a ≤ S1x6000.size a
  h_S1x6000 : 0 < S1x6000.numel
  shapeCasts_S1x6000_S1x6000 : S1x6000.ShapeCasts S1x6000
  broadcasts_S1x6000_S200x6000 : S1x6000.Broadcasts S200x6000
  broadcasts_S200x1_S200x6000 : S200x1.Broadcasts S200x6000
  reduces_S200x6000_S200 : S200x6000.Reduces [1] S200
  inb_S400x6000_S400x6000_0_0 : ∀ a, (![0, 0] : Fin 2 → Nat) a + S400x6000.size a ≤ S400x6000.size a
  h_S400x6000 : 0 < S400x6000.numel
  shapeCasts_S400x6000_S400x6000 : S400x6000.ShapeCasts S400x6000
  inb_S6000x3_S6000x3_0_0 : ∀ a, (![0, 0] : Fin 2 → Nat) a + S6000x3.size a ≤ S6000x3.size a
  h_S6000x3 : 0 < S6000x3.numel
  shapeCasts_S6000x3_S6000x3 : S6000x3.ShapeCasts S6000x3
  inb_S400x3_S400x3_0_0 : ∀ a, (![0, 0] : Fin 2 → Nat) a + S400x3.size a ≤ S400x3.size a
  h_S400x3 : 0 < S400x3.numel
  shapeCasts_S400x3_S400x3 : S400x3.ShapeCasts S400x3
  reduces_S400x3_S400 : S400x3.Reduces [1] S400
  shapeCasts_S400_S400x1 : S400.ShapeCasts S400x1
  reduces_S400x1_S1 : S400x1.Reduces [0] S1
  shapeCasts_S1x1_S_ : S1x1.ShapeCasts S_
  bcast_S_S1 : S_.BroadcastsInDim S1 (![] : Fin 0 → Fin S1.rank)
  concatenates_S1_S1_S1_S1_S1_S5_d0 : Shape.Concatenates [S1, S1, S1, S1, S1] S5 0
  gather_S4000x8000_S1200x1_S1200x8000_1_0_n_n_0_1_18000_wf : GatherDims.WF S4000x8000 S1200x1 S1200x8000 [1] [0] [] [0] [] 1 ![1, 8000]
  gather_S1200x8000_S2400x1_S1200x2400_0_1_n_n_1_1_12001_wf : GatherDims.WF S1200x8000 S2400x1 S1200x2400 [0] [1] [] [1] [] 1 ![1200, 1]
  gather_S4000x20000_S1200x1_S1200x20000_1_0_n_n_0_1_120000_wf : GatherDims.WF S4000x20000 S1200x1 S1200x20000 [1] [0] [] [0] [] 1 ![1, 20000]
  gather_S1200x20000_S6000x1_S1200x6000_0_1_n_n_1_1_12001_wf : GatherDims.WF S1200x20000 S6000x1 S1200x6000 [0] [1] [] [1] [] 1 ![1200, 1]
  gather_S8000x20000_S2400x1_S2400x20000_1_0_n_n_0_1_120000_wf : GatherDims.WF S8000x20000 S2400x1 S2400x20000 [1] [0] [] [0] [] 1 ![1, 20000]
  gather_S2400x20000_S6000x1_S2400x6000_0_1_n_n_1_1_24001_wf : GatherDims.WF S2400x20000 S6000x1 S2400x6000 [0] [1] [] [1] [] 1 ![2400, 1]
  gather_S4000x3_S1200x1_S1200x3_1_0_n_n_0_1_13_wf : GatherDims.WF S4000x3 S1200x1 S1200x3 [1] [0] [] [0] [] 1 ![1, 3]
  gather_S8000x3_S2400x1_S2400x3_1_0_n_n_0_1_13_wf : GatherDims.WF S8000x3 S2400x1 S2400x3 [1] [0] [] [0] [] 1 ![1, 3]
  gather_S20000x3_S6000x1_S6000x3_1_0_n_n_0_1_13_wf : GatherDims.WF S20000x3 S6000x1 S6000x3 [1] [0] [] [0] [] 1 ![1, 3]
  gather_S1x8000_S2400x1_S1x2400_0_1_n_n_1_1_11_wf : GatherDims.WF S1x8000 S2400x1 S1x2400 [0] [1] [] [1] [] 1 ![1, 1]
  gather_S1x20000_S6000x1_S1x6000_0_1_n_n_1_1_11_wf : GatherDims.WF S1x20000 S6000x1 S1x6000 [0] [1] [] [1] [] 1 ![1, 1]
  gather_S4000x1_S1200x1_S1200x1_1_0_n_n_0_1_11_wf : GatherDims.WF S4000x1 S1200x1 S1200x1 [1] [0] [] [0] [] 1 ![1, 1]
  dot_S1200x3_S3x3_S1200x3_1_0_0_1_n_n_wf : DotDims.WF S1200x3 S3x3 S1200x3 [1] [0] [0] [1] [] []
  dot_S200x3_S3x2400_S200x2400_1_0_0_1_n_n_wf : DotDims.WF S200x3 S3x2400 S200x2400 [1] [0] [0] [1] [] []
  dot_S200x3_S3x6000_S200x6000_1_0_0_1_n_n_wf : DotDims.WF S200x3 S3x6000 S200x6000 [1] [0] [0] [1] [] []
  dot_S400x6000_S6000x3_S400x3_1_0_0_1_n_n_wf : DotDims.WF S400x6000 S6000x3 S400x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x2400.size a ≤ S1200x2400.size a
  hwx0_0 : ∀ i : grid0.Coords, EltTy.bits .f32 = 32 ∨ (Rect.block (s := S1200x2400) S200x2400.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x3.size a ≤ S1200x3.size a
  hwx0_1 : ∀ i : grid0.Coords, EltTy.bits .f32 = 32 ∨ (Rect.block (s := S1200x3) S200x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x2400.size a ≤ S3x2400.size a
  hwx0_2 : ∀ i : grid0.Coords, EltTy.bits .f32 = 32 ∨ (Rect.block (s := S3x2400) S3x2400.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2400.size a ≤ S1x2400.size a
  hwx0_3 : ∀ i : grid0.Coords, EltTy.bits .f32 = 32 ∨ (Rect.block (s := S1x2400) S1x2400.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x1.size a ≤ S1200x1.size a
  hwx0_4 : ∀ i : grid0.Coords, EltTy.bits .f32 = 32 ∨ (Rect.block (s := S1200x1) S200x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x6000.size a ≤ S1200x6000.size a
  hwx1_0 : ∀ i : grid1.Coords, EltTy.bits .f32 = 32 ∨ (Rect.block (s := S1200x6000) S200x6000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x3.size a ≤ S1200x3.size a
  hwx1_1 : ∀ i : grid1.Coords, EltTy.bits .f32 = 32 ∨ (Rect.block (s := S1200x3) S200x3.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3x6000.size a ≤ S3x6000.size a
  hwx1_2 : ∀ i : grid1.Coords, EltTy.bits .f32 = 32 ∨ (Rect.block (s := S3x6000) S3x6000.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x6000.size a ≤ S1x6000.size a
  hwx1_3 : ∀ i : grid1.Coords, EltTy.bits .f32 = 32 ∨ (Rect.block (s := S1x6000) S1x6000.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S200x1.size a ≤ S1200x1.size a
  hwx1_4 : ∀ i : grid1.Coords, EltTy.bits .f32 = 32 ∨ (Rect.block (s := S1200x1) S200x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x6000.size a ≤ S2400x6000.size a
  hwx2_0 : ∀ i : grid2.Coords, EltTy.bits .f32 = 32 ∨ (Rect.block (s := S2400x6000) S400x6000.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S400x3.size a ≤ S2400x3.size a
  hwx2_1 : ∀ i : grid2.Coords, EltTy.bits .f32 = 32 ∨ (Rect.block (s := S2400x3) S400x3.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S6000x3.size a ≤ S6000x3.size a
  hwx2_2 : ∀ i : grid2.Coords, EltTy.bits .f32 = 32 ∨ (Rect.block (s := S6000x3) S6000x3.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)

variable [Facts₀]

def gather_S4000x8000_S1200x1_S1200x8000_1_0_n_n_0_1_18000 : GatherDims S4000x8000 S1200x1 S1200x8000 where
  offsetDims := [1]
  collapsedSliceDims := [0]
  operandBatchingDims := []
  startIndicesBatchingDims := []
  startIndexMap := [0]
  indexVectorDim := 1
  sliceSizes := ![1, 8000]
  wf := gather_S4000x8000_S1200x1_S1200x8000_1_0_n_n_0_1_18000_wf
def gather_S1200x8000_S2400x1_S1200x2400_0_1_n_n_1_1_12001 : GatherDims S1200x8000 S2400x1 S1200x2400 where
  offsetDims := [0]
  collapsedSliceDims := [1]
  operandBatchingDims := []
  startIndicesBatchingDims := []
  startIndexMap := [1]
  indexVectorDim := 1
  sliceSizes := ![1200, 1]
  wf := gather_S1200x8000_S2400x1_S1200x2400_0_1_n_n_1_1_12001_wf
def gather_S4000x20000_S1200x1_S1200x20000_1_0_n_n_0_1_120000 : GatherDims S4000x20000 S1200x1 S1200x20000 where
  offsetDims := [1]
  collapsedSliceDims := [0]
  operandBatchingDims := []
  startIndicesBatchingDims := []
  startIndexMap := [0]
  indexVectorDim := 1
  sliceSizes := ![1, 20000]
  wf := gather_S4000x20000_S1200x1_S1200x20000_1_0_n_n_0_1_120000_wf
def gather_S1200x20000_S6000x1_S1200x6000_0_1_n_n_1_1_12001 : GatherDims S1200x20000 S6000x1 S1200x6000 where
  offsetDims := [0]
  collapsedSliceDims := [1]
  operandBatchingDims := []
  startIndicesBatchingDims := []
  startIndexMap := [1]
  indexVectorDim := 1
  sliceSizes := ![1200, 1]
  wf := gather_S1200x20000_S6000x1_S1200x6000_0_1_n_n_1_1_12001_wf
def gather_S8000x20000_S2400x1_S2400x20000_1_0_n_n_0_1_120000 : GatherDims S8000x20000 S2400x1 S2400x20000 where
  offsetDims := [1]
  collapsedSliceDims := [0]
  operandBatchingDims := []
  startIndicesBatchingDims := []
  startIndexMap := [0]
  indexVectorDim := 1
  sliceSizes := ![1, 20000]
  wf := gather_S8000x20000_S2400x1_S2400x20000_1_0_n_n_0_1_120000_wf
def gather_S2400x20000_S6000x1_S2400x6000_0_1_n_n_1_1_24001 : GatherDims S2400x20000 S6000x1 S2400x6000 where
  offsetDims := [0]
  collapsedSliceDims := [1]
  operandBatchingDims := []
  startIndicesBatchingDims := []
  startIndexMap := [1]
  indexVectorDim := 1
  sliceSizes := ![2400, 1]
  wf := gather_S2400x20000_S6000x1_S2400x6000_0_1_n_n_1_1_24001_wf
def gather_S4000x3_S1200x1_S1200x3_1_0_n_n_0_1_13 : GatherDims S4000x3 S1200x1 S1200x3 where
  offsetDims := [1]
  collapsedSliceDims := [0]
  operandBatchingDims := []
  startIndicesBatchingDims := []
  startIndexMap := [0]
  indexVectorDim := 1
  sliceSizes := ![1, 3]
  wf := gather_S4000x3_S1200x1_S1200x3_1_0_n_n_0_1_13_wf
def gather_S8000x3_S2400x1_S2400x3_1_0_n_n_0_1_13 : GatherDims S8000x3 S2400x1 S2400x3 where
  offsetDims := [1]
  collapsedSliceDims := [0]
  operandBatchingDims := []
  startIndicesBatchingDims := []
  startIndexMap := [0]
  indexVectorDim := 1
  sliceSizes := ![1, 3]
  wf := gather_S8000x3_S2400x1_S2400x3_1_0_n_n_0_1_13_wf
def gather_S20000x3_S6000x1_S6000x3_1_0_n_n_0_1_13 : GatherDims S20000x3 S6000x1 S6000x3 where
  offsetDims := [1]
  collapsedSliceDims := [0]
  operandBatchingDims := []
  startIndicesBatchingDims := []
  startIndexMap := [0]
  indexVectorDim := 1
  sliceSizes := ![1, 3]
  wf := gather_S20000x3_S6000x1_S6000x3_1_0_n_n_0_1_13_wf
def gather_S1x8000_S2400x1_S1x2400_0_1_n_n_1_1_11 : GatherDims S1x8000 S2400x1 S1x2400 where
  offsetDims := [0]
  collapsedSliceDims := [1]
  operandBatchingDims := []
  startIndicesBatchingDims := []
  startIndexMap := [1]
  indexVectorDim := 1
  sliceSizes := ![1, 1]
  wf := gather_S1x8000_S2400x1_S1x2400_0_1_n_n_1_1_11_wf
def gather_S1x20000_S6000x1_S1x6000_0_1_n_n_1_1_11 : GatherDims S1x20000 S6000x1 S1x6000 where
  offsetDims := [0]
  collapsedSliceDims := [1]
  operandBatchingDims := []
  startIndicesBatchingDims := []
  startIndexMap := [1]
  indexVectorDim := 1
  sliceSizes := ![1, 1]
  wf := gather_S1x20000_S6000x1_S1x6000_0_1_n_n_1_1_11_wf
def gather_S4000x1_S1200x1_S1200x1_1_0_n_n_0_1_11 : GatherDims S4000x1 S1200x1 S1200x1 where
  offsetDims := [1]
  collapsedSliceDims := [0]
  operandBatchingDims := []
  startIndicesBatchingDims := []
  startIndexMap := [0]
  indexVectorDim := 1
  sliceSizes := ![1, 1]
  wf := gather_S4000x1_S1200x1_S1200x1_1_0_n_n_0_1_11_wf
def dot_S1200x3_S3x3_S1200x3_1_0_0_1_n_n : DotDims S1200x3 S3x3 S1200x3 where
  lhsContracting := [1]
  rhsContracting := [0]
  lhsNonContracting := [0]
  rhsNonContracting := [1]
  lhsBatch := []
  rhsBatch := []
  wf := dot_S1200x3_S3x3_S1200x3_1_0_0_1_n_n_wf
def dot_S200x3_S3x2400_S200x2400_1_0_0_1_n_n : DotDims S200x3 S3x2400 S200x2400 where
  lhsContracting := [1]
  rhsContracting := [0]
  lhsNonContracting := [0]
  rhsNonContracting := [1]
  lhsBatch := []
  rhsBatch := []
  wf := dot_S200x3_S3x2400_S200x2400_1_0_0_1_n_n_wf
def dot_S200x3_S3x6000_S200x6000_1_0_0_1_n_n : DotDims S200x3 S3x6000 S200x6000 where
  lhsContracting := [1]
  rhsContracting := [0]
  lhsNonContracting := [0]
  rhsNonContracting := [1]
  lhsBatch := []
  rhsBatch := []
  wf := dot_S200x3_S3x6000_S200x6000_1_0_0_1_n_n_wf
def dot_S400x6000_S6000x3_S400x3_1_0_0_1_n_n : DotDims S400x6000 S6000x3 S400x3 where
  lhsContracting := [1]
  rhsContracting := [0]
  lhsNonContracting := [0]
  rhsNonContracting := [1]
  lhsBatch := []
  rhsBatch := []
  wf := dot_S400x6000_S6000x3_S400x3_1_0_0_1_n_n_wf

abbrev win0_0 : Pipeline.Window sig grid0 :=
  Pipeline.Window.ofSpec (Memref.whole main_v13) S200x2400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v142) S200x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v144) S3x2400.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v76) S1x2400.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v90) S200x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v152) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v27) S200x6000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v143) S200x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v145) S3x6000.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v83) S1x6000.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v97) S200x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v153) S1x1.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v41) S400x6000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v149) S400x3.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v151) S6000x3.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v154) S1x1.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4000x8000 : Shape := ⟨2, ![4000, 8000]⟩
abbrev S4000x20000 : Shape := ⟨2, ![4000, 20000]⟩
abbrev S8000x20000 : Shape := ⟨2, ![8000, 20000]⟩
abbrev S4000x3 : Shape := ⟨2, ![4000, 3]⟩
abbrev S8000x3 : Shape := ⟨2, ![8000, 3]⟩
abbrev S20000x3 : Shape := ⟨2, ![20000, 3]⟩
abbrev S3x3 : Shape := ⟨2, ![3, 3]⟩
abbrev S1x8000 : Shape := ⟨2, ![1, 8000]⟩
abbrev S1x20000 : Shape := ⟨2, ![1, 20000]⟩
abbrev S4000x1 : Shape := ⟨2, ![4000, 1]⟩
abbrev S1200 : Shape := ⟨1, ![1200]⟩
abbrev S2400 : Shape := ⟨1, ![2400]⟩
abbrev S6000 : Shape := ⟨1, ![6000]⟩
abbrev S_ : Shape := ⟨0, ![]⟩
abbrev S1200x1 : Shape := ⟨2, ![1200, 1]⟩
abbrev S1200x8000 : Shape := ⟨2, ![1200, 8000]⟩
abbrev S2400x1 : Shape := ⟨2, ![2400, 1]⟩
abbrev S1200x2400 : Shape := ⟨2, ![1200, 2400]⟩
abbrev S1200x20000 : Shape := ⟨2, ![1200, 20000]⟩
abbrev S6000x1 : Shape := ⟨2, ![6000, 1]⟩
abbrev S1200x6000 : Shape := ⟨2, ![1200, 6000]⟩
abbrev S2400x20000 : Shape := ⟨2, ![2400, 20000]⟩
abbrev S2400x6000 : Shape := ⟨2, ![2400, 6000]⟩
abbrev S1200x3 : Shape := ⟨2, ![1200, 3]⟩
abbrev S2400x3 : Shape := ⟨2, ![2400, 3]⟩
abbrev S6000x3 : Shape := ⟨2, ![6000, 3]⟩
abbrev S3x2400 : Shape := ⟨2, ![3, 2400]⟩
abbrev S1x2400 : Shape := ⟨2, ![1, 2400]⟩
abbrev S3x6000 : Shape := ⟨2, ![3, 6000]⟩
abbrev S1x6000 : Shape := ⟨2, ![1, 6000]⟩
abbrev S1 : Shape := ⟨1, ![1]⟩
abbrev S5 : Shape := ⟨1, ![5]⟩

abbrev nBuf : Space → Nat
  | .hbm => 397
  | .vmem => 0
  | .smem => 0
  | _ => 0

abbrev hbmTy0_0 (i : Nat) : BufTy := match i % 128 with
  | 0 => ⟨S4000x8000, .f32⟩
  | 1 => ⟨S4000x20000, .f32⟩
  | 2 => ⟨S8000x20000, .f32⟩
  | 3 => ⟨S4000x3, .f32⟩
  | 4 => ⟨S4000x3, .f32⟩
  | 5 => ⟨S8000x3, .f32⟩
  | 6 => ⟨S20000x3, .f32⟩
  | 7 => ⟨S3x3, .f32⟩
  | 8 => ⟨S1x8000, .f32⟩
  | 9 => ⟨S1x20000, .f32⟩
  | 10 => ⟨S4000x1, .f32⟩
  | 11 => ⟨S4000x1, .f32⟩
  | 12 => ⟨S1200, .i32⟩
  | 13 => ⟨S1200, .i32⟩
  | 14 => ⟨S2400, .i32⟩
  | 15 => ⟨S6000, .i32⟩
  | 16 => ⟨S_, .i32⟩
  | 17 => ⟨S1200, .i32⟩
  | 18 => ⟨S1200, .i1⟩
  | 19 => ⟨S_, .i32⟩
  | 20 => ⟨S1200, .i32⟩
  | 21 => ⟨S1200, .i32⟩
  | 22 => ⟨S1200, .i32⟩
  | 23 => ⟨S1200x1, .i32⟩
  | 24 => ⟨S1200x8000, .f32⟩
  | 25 => ⟨S_, .i32⟩
  | 26 => ⟨S2400, .i32⟩
  | 27 => ⟨S2400, .i1⟩
  | 28 => ⟨S_, .i32⟩
  | 29 => ⟨S2400, .i32⟩
  | 30 => ⟨S2400, .i32⟩
  | 31 => ⟨S2400, .i32⟩
  | 32 => ⟨S2400x1, .i32⟩
  | 33 => ⟨S1200x2400, .f32⟩
  | 34 => ⟨S_, .i32⟩
  | 35 => ⟨S1200, .i32⟩
  | 36 => ⟨S1200, .i1⟩
  | 37 => ⟨S_, .i32⟩
  | 38 => ⟨S1200, .i32⟩
  | 39 => ⟨S1200, .i32⟩
  | 40 => ⟨S1200, .i32⟩
  | 41 => ⟨S1200x1, .i32⟩
  | 42 => ⟨S1200x20000, .f32⟩
  | 43 => ⟨S_, .i32⟩
  | 44 => ⟨S6000, .i32⟩
  | 45 => ⟨S6000, .i1⟩
  | 46 => ⟨S_, .i32⟩
  | 47 => ⟨S6000, .i32⟩
  | 48 => ⟨S6000, .i32⟩
  | 49 => ⟨S6000, .i32⟩
  | 50 => ⟨S6000x1, .i32⟩
  | 51 => ⟨S1200x6000, .f32⟩
  | 52 => ⟨S_, .i32⟩
  | 53 => ⟨S2400, .i32⟩
  | 54 => ⟨S2400, .i1⟩
  | 55 => ⟨S_, .i32⟩
  | 56 => ⟨S2400, .i32⟩
  | 57 => ⟨S2400, .i32⟩
  | 58 => ⟨S2400, .i32⟩
  | 59 => ⟨S2400x1, .i32⟩
  | 60 => ⟨S2400x20000, .f32⟩
  | 61 => ⟨S_, .i32⟩
  | 62 => ⟨S6000, .i32⟩
  | 63 => ⟨S6000, .i1⟩
  | 64 => ⟨S_, .i32⟩
  | 65 => ⟨S6000, .i32⟩
  | 66 => ⟨S6000, .i32⟩
  | 67 => ⟨S6000, .i32⟩
  | 68 => ⟨S6000x1, .i32⟩
  | 69 => ⟨S2400x6000, .f32⟩
  | 70 => ⟨S_, .i32⟩
  | 71 => ⟨S1200, .i32⟩
  | 72 => ⟨S1200, .i1⟩
  | 73 => ⟨S_, .i32⟩
  | 74 => ⟨S1200, .i32⟩
  | 75 => ⟨S1200, .i32⟩
  | 76 => ⟨S1200, .i32⟩
  | 77 => ⟨S1200x1, .i32⟩
  | 78 => ⟨S1200x3, .f32⟩
  | 79 => ⟨S_, .f32⟩
  | 80 => ⟨S1200, .f32⟩
  | 81 => ⟨S_, .f32⟩
  | 82 => ⟨S1200, .f32⟩
  | 83 => ⟨S1200, .f32⟩
  | 84 => ⟨S1200x1, .f32⟩
  | 85 => ⟨S1200x3, .f32⟩
  | 86 => ⟨S1200x3, .f32⟩
  | 87 => ⟨S1200x3, .f32⟩
  | 88 => ⟨S_, .f32⟩
  | 89 => ⟨S1200, .f32⟩
  | 90 => ⟨S1200x1, .f32⟩
  | 91 => ⟨S1200x3, .f32⟩
  | 92 => ⟨S1200x3, .f32⟩
  | 93 => ⟨S_, .i32⟩
  | 94 => ⟨S1200, .i32⟩
  | 95 => ⟨S1200, .i1⟩
  | 96 => ⟨S_, .i32⟩
  | 97 => ⟨S1200, .i32⟩
  | 98 => ⟨S1200, .i32⟩
  | 99 => ⟨S1200, .i32⟩
  | 100 => ⟨S1200x1, .i32⟩
  | 101 => ⟨S1200x3, .f32⟩
  | 102 => ⟨S_, .f32⟩
  | 103 => ⟨S1200, .f32⟩
  | 104 => ⟨S_, .f32⟩
  | 105 => ⟨S1200, .f32⟩
  | 106 => ⟨S1200, .f32⟩
  | 107 => ⟨S1200x1, .f32⟩
  | 108 => ⟨S1200x3, .f32⟩
  | 109 => ⟨S1200x3, .f32⟩
  | 110 => ⟨S1200x3, .f32⟩
  | 111 => ⟨S_, .f32⟩
  | 112 => ⟨S1200, .f32⟩
  | 113 => ⟨S1200x1, .f32⟩
  | 114 => ⟨S1200x3, .f32⟩
  | 115 => ⟨S1200x3, .f32⟩
  | 116 => ⟨S_, .i32⟩
  | 117 => ⟨S2400, .i32⟩
  | 118 => ⟨S2400, .i1⟩
  | 119 => ⟨S_, .i32⟩
  | 120 => ⟨S2400, .i32⟩
  | 121 => ⟨S2400, .i32⟩
  | 122 => ⟨S2400, .i32⟩
  | 123 => ⟨S2400x1, .i32⟩
  | 124 => ⟨S2400x3, .f32⟩
  | 125 => ⟨S_, .f32⟩
  | 126 => ⟨S2400, .f32⟩
  | 127 => ⟨S_, .f32⟩
  | _ => ⟨S4000x8000, .f32⟩

abbrev hbmTy0_1 (i : Nat) : BufTy := match i % 128 with
  | 0 => ⟨S2400, .f32⟩
  | 1 => ⟨S2400, .f32⟩
  | 2 => ⟨S2400x1, .f32⟩
  | 3 => ⟨S2400x3, .f32⟩
  | 4 => ⟨S2400x3, .f32⟩
  | 5 => ⟨S2400x3, .f32⟩
  | 6 => ⟨S_, .f32⟩
  | 7 => ⟨S2400, .f32⟩
  | 8 => ⟨S2400x1, .f32⟩
  | 9 => ⟨S2400x3, .f32⟩
  | 10 => ⟨S2400x3, .f32⟩
  | 11 => ⟨S_, .i32⟩
  | 12 => ⟨S6000, .i32⟩
  | 13 => ⟨S6000, .i1⟩
  | 14 => ⟨S_, .i32⟩
  | 15 => ⟨S6000, .i32⟩
  | 16 => ⟨S6000, .i32⟩
  | 17 => ⟨S6000, .i32⟩
  | 18 => ⟨S6000x1, .i32⟩
  | 19 => ⟨S6000x3, .f32⟩
  | 20 => ⟨S_, .f32⟩
  | 21 => ⟨S6000, .f32⟩
  | 22 => ⟨S_, .f32⟩
  | 23 => ⟨S6000, .f32⟩
  | 24 => ⟨S6000, .f32⟩
  | 25 => ⟨S6000x1, .f32⟩
  | 26 => ⟨S6000x3, .f32⟩
  | 27 => ⟨S6000x3, .f32⟩
  | 28 => ⟨S6000x3, .f32⟩
  | 29 => ⟨S_, .f32⟩
  | 30 => ⟨S6000, .f32⟩
  | 31 => ⟨S6000x1, .f32⟩
  | 32 => ⟨S6000x3, .f32⟩
  | 33 => ⟨S6000x3, .f32⟩
  | 34 => ⟨S1200x3, .f32⟩
  | 35 => ⟨S3x2400, .f32⟩
  | 36 => ⟨S1200x2400, .f32⟩
  | 37 => ⟨S1200x2400, .f32⟩
  | 38 => ⟨S_, .i32⟩
  | 39 => ⟨S2400, .i32⟩
  | 40 => ⟨S2400, .i1⟩
  | 41 => ⟨S_, .i32⟩
  | 42 => ⟨S2400, .i32⟩
  | 43 => ⟨S2400, .i32⟩
  | 44 => ⟨S2400, .i32⟩
  | 45 => ⟨S2400x1, .i32⟩
  | 46 => ⟨S1x2400, .f32⟩
  | 47 => ⟨S1200x2400, .f32⟩
  | 48 => ⟨S1200x2400, .f32⟩
  | 49 => ⟨S_, .i32⟩
  | 50 => ⟨S1200, .i32⟩
  | 51 => ⟨S1200, .i1⟩
  | 52 => ⟨S_, .i32⟩
  | 53 => ⟨S1200, .i32⟩
  | 54 => ⟨S1200, .i32⟩
  | 55 => ⟨S1200, .i32⟩
  | 56 => ⟨S1200x1, .i32⟩
  | 57 => ⟨S1200x1, .f32⟩
  | 58 => ⟨S1200x2400, .f32⟩
  | 59 => ⟨S1200x2400, .f32⟩
  | 60 => ⟨S1200x2400, .f32⟩
  | 61 => ⟨S_, .f32⟩
  | 62 => ⟨S_, .f32⟩
  | 63 => ⟨S_, .f32⟩
  | 64 => ⟨S_, .f32⟩
  | 65 => ⟨S1200x3, .f32⟩
  | 66 => ⟨S3x6000, .f32⟩
  | 67 => ⟨S1200x6000, .f32⟩
  | 68 => ⟨S1200x6000, .f32⟩
  | 69 => ⟨S_, .i32⟩
  | 70 => ⟨S6000, .i32⟩
  | 71 => ⟨S6000, .i1⟩
  | 72 => ⟨S_, .i32⟩
  | 73 => ⟨S6000, .i32⟩
  | 74 => ⟨S6000, .i32⟩
  | 75 => ⟨S6000, .i32⟩
  | 76 => ⟨S6000x1, .i32⟩
  | 77 => ⟨S1x6000, .f32⟩
  | 78 => ⟨S1200x6000, .f32⟩
  | 79 => ⟨S1200x6000, .f32⟩
  | 80 => ⟨S_, .i32⟩
  | 81 => ⟨S1200, .i32⟩
  | 82 => ⟨S1200, .i1⟩
  | 83 => ⟨S_, .i32⟩
  | 84 => ⟨S1200, .i32⟩
  | 85 => ⟨S1200, .i32⟩
  | 86 => ⟨S1200, .i32⟩
  | 87 => ⟨S1200x1, .i32⟩
  | 88 => ⟨S1200x1, .f32⟩
  | 89 => ⟨S1200x6000, .f32⟩
  | 90 => ⟨S1200x6000, .f32⟩
  | 91 => ⟨S1200x6000, .f32⟩
  | 92 => ⟨S_, .f32⟩
  | 93 => ⟨S_, .f32⟩
  | 94 => ⟨S_, .f32⟩
  | 95 => ⟨S_, .f32⟩
  | 96 => ⟨S2400x3, .f32⟩
  | 97 => ⟨S_, .f32⟩
  | 98 => ⟨S_, .f32⟩
  | 99 => ⟨S_, .f32⟩
  | 100 => ⟨S2400x3, .f32⟩
  | 101 => ⟨S2400x3, .f32⟩
  | 102 => ⟨S6000x3, .f32⟩
  | 103 => ⟨S_, .f32⟩
  | 104 => ⟨S_, .f32⟩
  | 105 => ⟨S_, .f32⟩
  | 106 => ⟨S6000x3, .f32⟩
  | 107 => ⟨S6000x3, .f32⟩
  | 108 => ⟨S2400x3, .f32⟩
  | 109 => ⟨S2400x3, .f32⟩
  | 110 => ⟨S_, .f32⟩
  | 111 => ⟨S_, .f32⟩
  | 112 => ⟨S_, .f32⟩
  | 113 => ⟨S_, .i32⟩
  | 114 => ⟨S1200, .i32⟩
  | 115 => ⟨S1200, .i1⟩
  | 116 => ⟨S_, .i32⟩
  | 117 => ⟨S1200, .i32⟩
  | 118 => ⟨S1200, .i32⟩
  | 119 => ⟨S1200, .i32⟩
  | 120 => ⟨S1200x1, .i32⟩
  | 121 => ⟨S1200x3, .f32⟩
  | 122 => ⟨S_, .f32⟩
  | 123 => ⟨S1200, .f32⟩
  | 124 => ⟨S_, .f32⟩
  | 125 => ⟨S1200, .f32⟩
  | 126 => ⟨S1200, .f32⟩
  | 127 => ⟨S1200x1, .f32⟩
  | _ => ⟨S4000x8000, .f32⟩

abbrev hbmTy0_2 (i : Nat) : BufTy := match i % 128 with
  | 0 => ⟨S1200x3, .f32⟩
  | 1 => ⟨S1200x3, .f32⟩
  | 2 => ⟨S1200x3, .f32⟩
  | 3 => ⟨S_, .f32⟩
  | 4 => ⟨S1200, .f32⟩
  | 5 => ⟨S1200x1, .f32⟩
  | 6 => ⟨S1200x3, .f32⟩
  | 7 => ⟨S1200x3, .f32⟩
  | 8 => ⟨S_, .f32⟩
  | 9 => ⟨S1200x3, .f32⟩
  | 10 => ⟨S1200x3, .f32⟩
  | 11 => ⟨S1200x3, .f32⟩
  | 12 => ⟨S_, .f32⟩
  | 13 => ⟨S_, .f32⟩
  | 14 => ⟨S_, .f32⟩
  | 15 => ⟨S_, .f32⟩
  | 16 => ⟨S_, .f32⟩
  | 17 => ⟨S_, .i32⟩
  | 18 => ⟨S1200, .i32⟩
  | 19 => ⟨S1200, .i1⟩
  | 20 => ⟨S_, .i32⟩
  | 21 => ⟨S1200, .i32⟩
  | 22 => ⟨S1200, .i32⟩
  | 23 => ⟨S1200, .i32⟩
  | 24 => ⟨S1200x1, .i32⟩
  | 25 => ⟨S1200x3, .f32⟩
  | 26 => ⟨S_, .f32⟩
  | 27 => ⟨S1200, .f32⟩
  | 28 => ⟨S_, .f32⟩
  | 29 => ⟨S1200, .f32⟩
  | 30 => ⟨S1200, .f32⟩
  | 31 => ⟨S1200x1, .f32⟩
  | 32 => ⟨S1200x3, .f32⟩
  | 33 => ⟨S1200x3, .f32⟩
  | 34 => ⟨S1200x3, .f32⟩
  | 35 => ⟨S_, .f32⟩
  | 36 => ⟨S1200, .f32⟩
  | 37 => ⟨S1200x1, .f32⟩
  | 38 => ⟨S1200x3, .f32⟩
  | 39 => ⟨S1200x3, .f32⟩
  | 40 => ⟨S_, .f32⟩
  | 41 => ⟨S1200x3, .f32⟩
  | 42 => ⟨S1200x3, .f32⟩
  | 43 => ⟨S1200x3, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .i32⟩
  | 51 => ⟨S2400, .i32⟩
  | 52 => ⟨S2400, .i1⟩
  | 53 => ⟨S_, .i32⟩
  | 54 => ⟨S2400, .i32⟩
  | 55 => ⟨S2400, .i32⟩
  | 56 => ⟨S2400, .i32⟩
  | 57 => ⟨S2400x1, .i32⟩
  | 58 => ⟨S2400x3, .f32⟩
  | 59 => ⟨S_, .f32⟩
  | 60 => ⟨S2400, .f32⟩
  | 61 => ⟨S_, .f32⟩
  | 62 => ⟨S2400, .f32⟩
  | 63 => ⟨S2400, .f32⟩
  | 64 => ⟨S2400x1, .f32⟩
  | 65 => ⟨S2400x3, .f32⟩
  | 66 => ⟨S2400x3, .f32⟩
  | 67 => ⟨S2400x3, .f32⟩
  | 68 => ⟨S_, .f32⟩
  | 69 => ⟨S2400, .f32⟩
  | 70 => ⟨S2400x1, .f32⟩
  | 71 => ⟨S2400x3, .f32⟩
  | 72 => ⟨S2400x3, .f32⟩
  | 73 => ⟨S_, .f32⟩
  | 74 => ⟨S2400x3, .f32⟩
  | 75 => ⟨S2400x3, .f32⟩
  | 76 => ⟨S2400x3, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .i32⟩
  | 84 => ⟨S6000, .i32⟩
  | 85 => ⟨S6000, .i1⟩
  | 86 => ⟨S_, .i32⟩
  | 87 => ⟨S6000, .i32⟩
  | 88 => ⟨S6000, .i32⟩
  | 89 => ⟨S6000, .i32⟩
  | 90 => ⟨S6000x1, .i32⟩
  | 91 => ⟨S6000x3, .f32⟩
  | 92 => ⟨S_, .f32⟩
  | 93 => ⟨S6000, .f32⟩
  | 94 => ⟨S_, .f32⟩
  | 95 => ⟨S6000, .f32⟩
  | 96 => ⟨S6000, .f32⟩
  | 97 => ⟨S6000x1, .f32⟩
  | 98 => ⟨S6000x3, .f32⟩
  | 99 => ⟨S6000x3, .f32⟩
  | 100 => ⟨S6000x3, .f32⟩
  | 101 => ⟨S_, .f32⟩
  | 102 => ⟨S6000, .f32⟩
  | 103 => ⟨S6000x1, .f32⟩
  | 104 => ⟨S6000x3, .f32⟩
  | 105 => ⟨S6000x3, .f32⟩
  | 106 => ⟨S_, .f32⟩
  | 107 => ⟨S6000x3, .f32⟩
  | 108 => ⟨S6000x3, .f32⟩
  | 109 => ⟨S6000x3, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S4000x8000, .f32⟩

abbrev hbmTy0_3 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S1, .f32⟩
  | 8 => ⟨S1, .f32⟩
  | 9 => ⟨S1, .f32⟩
  | 10 => ⟨S1, .f32⟩
  | 11 => ⟨S1, .f32⟩
  | 12 => ⟨S5, .f32⟩
  | _ => ⟨S4000x8000, .f32⟩

abbrev hbmTy (i : Nat) : BufTy := match i / 128 with
  | 0 => hbmTy0_0 i
  | 1 => hbmTy0_1 i
  | 2 => hbmTy0_2 i
  | 3 => hbmTy0_3 i
  | _ => ⟨S4000x8000, .f32⟩

abbrev bufTy : (tb : Table) → Fin (tcTables nBuf tb) → BufTy
  | .hbm, ⟨i, _⟩ => hbmTy i
  | _, _ => ⟨S4000x8000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c_3 : Ref sig .tc := ⟨.hbm, 34, rfl⟩
abbrev main_v14 : Ref sig .tc := ⟨.hbm, 35, rfl⟩
abbrev main_v15 : Ref sig .tc := ⟨.hbm, 36, rfl⟩
abbrev main_c_4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_5 : Ref sig .tc := ⟨.hbm, 43, rfl⟩
abbrev main_v21 : Ref sig .tc := ⟨.hbm, 44, rfl⟩
abbrev main_v22 : Ref sig .tc := ⟨.hbm, 45, rfl⟩
abbrev main_c_6 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_7 : Ref sig .tc := ⟨.hbm, 52, rfl⟩
abbrev main_v28 : Ref sig .tc := ⟨.hbm, 53, rfl⟩
abbrev main_v29 : Ref sig .tc := ⟨.hbm, 54, rfl⟩
abbrev main_c_8 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_c_9 : Ref sig .tc := ⟨.hbm, 61, rfl⟩
abbrev main_v35 : Ref sig .tc := ⟨.hbm, 62, rfl⟩
abbrev main_v36 : Ref sig .tc := ⟨.hbm, 63, rfl⟩
abbrev main_c_10 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_c_11 : Ref sig .tc := ⟨.hbm, 70, rfl⟩
abbrev main_v42 : Ref sig .tc := ⟨.hbm, 71, rfl⟩
abbrev main_v43 : Ref sig .tc := ⟨.hbm, 72, rfl⟩
abbrev main_c_12 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst : Ref sig .tc := ⟨.hbm, 79, rfl⟩
abbrev main_v49 : Ref sig .tc := ⟨.hbm, 80, rfl⟩
abbrev main_cst_13 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_14 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_c_15 : Ref sig .tc := ⟨.hbm, 93, rfl⟩
abbrev main_v60 : Ref sig .tc := ⟨.hbm, 94, rfl⟩
abbrev main_v61 : Ref sig .tc := ⟨.hbm, 95, rfl⟩
abbrev main_c_16 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_17 : Ref sig .tc := ⟨.hbm, 102, rfl⟩
abbrev main_v67 : Ref sig .tc := ⟨.hbm, 103, rfl⟩
abbrev main_cst_18 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_19 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_c_20 : Ref sig .tc := ⟨.hbm, 116, rfl⟩
abbrev main_v78 : Ref sig .tc := ⟨.hbm, 117, rfl⟩
abbrev main_v79 : Ref sig .tc := ⟨.hbm, 118, rfl⟩
abbrev main_c_21 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_cst_22 : Ref sig .tc := ⟨.hbm, 125, rfl⟩
abbrev main_v85 : Ref sig .tc := ⟨.hbm, 126, rfl⟩
abbrev main_cst_23 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_cst_24 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_c_25 : Ref sig .tc := ⟨.hbm, 139, rfl⟩
abbrev main_v96 : Ref sig .tc := ⟨.hbm, 140, rfl⟩
abbrev main_v97 : Ref sig .tc := ⟨.hbm, 141, rfl⟩
abbrev main_c_26 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_cst_27 : Ref sig .tc := ⟨.hbm, 148, rfl⟩
abbrev main_v103 : Ref sig .tc := ⟨.hbm, 149, rfl⟩
abbrev main_cst_28 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_cst_29 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_c_30 : Ref sig .tc := ⟨.hbm, 166, rfl⟩
abbrev main_v118 : Ref sig .tc := ⟨.hbm, 167, rfl⟩
abbrev main_v119 : Ref sig .tc := ⟨.hbm, 168, rfl⟩
abbrev main_c_31 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_c_32 : Ref sig .tc := ⟨.hbm, 177, rfl⟩
abbrev main_v127 : Ref sig .tc := ⟨.hbm, 178, rfl⟩
abbrev main_v128 : Ref sig .tc := ⟨.hbm, 179, rfl⟩
abbrev main_c_33 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_cst_34 : Ref sig .tc := ⟨.hbm, 189, rfl⟩
abbrev main_v137 : Ref sig .tc := ⟨.hbm, 190, rfl⟩
abbrev main_cst_35 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_c_36 : Ref sig .tc := ⟨.hbm, 197, rfl⟩
abbrev main_v143 : Ref sig .tc := ⟨.hbm, 198, rfl⟩
abbrev main_v144 : Ref sig .tc := ⟨.hbm, 199, rfl⟩
abbrev main_c_37 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_c_38 : Ref sig .tc := ⟨.hbm, 208, rfl⟩
abbrev main_v152 : Ref sig .tc := ⟨.hbm, 209, rfl⟩
abbrev main_v153 : Ref sig .tc := ⟨.hbm, 210, rfl⟩
abbrev main_c_39 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_cst_40 : Ref sig .tc := ⟨.hbm, 220, rfl⟩
abbrev main_v162 : Ref sig .tc := ⟨.hbm, 221, rfl⟩
abbrev main_cst_41 : Ref sig .tc := ⟨.hbm, 222, rfl⟩
abbrev main_v163 : Ref sig .tc := ⟨.hbm, 223, rfl⟩
abbrev main_call0_v0 : Ref sig .tc := ⟨.hbm, 224, rfl⟩
abbrev main_call0_cst : Ref sig .tc := ⟨.hbm, 225, rfl⟩
abbrev main_call0_v1 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_call1_v0 : Ref sig .tc := ⟨.hbm, 230, rfl⟩
abbrev main_call1_cst : Ref sig .tc := ⟨.hbm, 231, rfl⟩
abbrev main_call1_v1 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_cst_42 : Ref sig .tc := ⟨.hbm, 238, rfl⟩
abbrev main_v172 : Ref sig .tc := ⟨.hbm, 239, rfl⟩
abbrev main_v173 : Ref sig .tc := ⟨.hbm, 240, rfl⟩
abbrev main_c_43 : Ref sig .tc := ⟨.hbm, 241, rfl⟩
abbrev main_v174 : Ref sig .tc := ⟨.hbm, 242, rfl⟩
abbrev main_v175 : Ref sig .tc := ⟨.hbm, 243, rfl⟩
abbrev main_c_44 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_v180 : Ref sig .tc := ⟨.hbm, 249, rfl⟩
abbrev main_cst_45 : Ref sig .tc := ⟨.hbm, 250, rfl⟩
abbrev main_v181 : Ref sig .tc := ⟨.hbm, 251, rfl⟩
abbrev main_cst_46 : Ref sig .tc := ⟨.hbm, 252, rfl⟩
abbrev main_v182 : Ref sig .tc := ⟨.hbm, 253, rfl⟩
abbrev main_v183 : Ref sig .tc := ⟨.hbm, 254, rfl⟩
abbrev main_v184 : Ref sig .tc := ⟨.hbm, 255, rfl⟩
abbrev main_v185 : Ref sig .tc := ⟨.hbm, 256, rfl⟩
abbrev main_v186 : Ref sig .tc := ⟨.hbm, 257, rfl⟩
abbrev main_v187 : Ref sig .tc := ⟨.hbm, 258, rfl⟩
abbrev main_cst_47 : Ref sig .tc := ⟨.hbm, 259, rfl⟩
abbrev main_v188 : Ref sig .tc := ⟨.hbm, 260, rfl⟩
abbrev main_v189 : Ref sig .tc := ⟨.hbm, 261, rfl⟩
abbrev main_v190 : Ref sig .tc := ⟨.hbm, 262, rfl⟩
abbrev main_v191 : Ref sig .tc := ⟨.hbm, 263, rfl⟩
abbrev main_cst_48 : Ref sig .tc := ⟨.hbm, 264, rfl⟩
abbrev main_v192 : Ref sig .tc := ⟨.hbm, 265, rfl⟩
abbrev main_v193 : Ref sig .tc := ⟨.hbm, 266, rfl⟩
abbrev main_v194 : Ref sig .tc := ⟨.hbm, 267, rfl⟩
abbrev main_cst_49 : Ref sig .tc := ⟨.hbm, 268, rfl⟩
abbrev main_v195 : Ref sig .tc := ⟨.hbm, 269, rfl⟩
abbrev main_cst_50 : Ref sig .tc := ⟨.hbm, 270, rfl⟩
abbrev main_v196 : Ref sig .tc := ⟨.hbm, 271, rfl⟩
abbrev main_v197 : Ref sig .tc := ⟨.hbm, 272, rfl⟩
abbrev main_c_51 : Ref sig .tc := ⟨.hbm, 273, rfl⟩
abbrev main_v198 : Ref sig .tc := ⟨.hbm, 274, rfl⟩
abbrev main_v199 : Ref sig .tc := ⟨.hbm, 275, rfl⟩
abbrev main_c_52 : Ref sig .tc := ⟨.hbm, 276, rfl⟩
abbrev main_v200 : Ref sig .tc := ⟨.hbm, 277, rfl⟩
abbrev main_v201 : Ref sig .tc := ⟨.hbm, 278, rfl⟩
abbrev main_v202 : Ref sig .tc := ⟨.hbm, 279, rfl⟩
abbrev main_v203 : Ref sig .tc := ⟨.hbm, 280, rfl⟩
abbrev main_v204 : Ref sig .tc := ⟨.hbm, 281, rfl⟩
abbrev main_cst_53 : Ref sig .tc := ⟨.hbm, 282, rfl⟩
abbrev main_v205 : Ref sig .tc := ⟨.hbm, 283, rfl⟩
abbrev main_cst_54 : Ref sig .tc := ⟨.hbm, 284, rfl⟩
abbrev main_v206 : Ref sig .tc := ⟨.hbm, 285, rfl⟩
abbrev main_v207 : Ref sig .tc := ⟨.hbm, 286, rfl⟩
abbrev main_v208 : Ref sig .tc := ⟨.hbm, 287, rfl⟩
abbrev main_v209 : Ref sig .tc := ⟨.hbm, 288, rfl⟩
abbrev main_v210 : Ref sig .tc := ⟨.hbm, 289, rfl⟩
abbrev main_v211 : Ref sig .tc := ⟨.hbm, 290, rfl⟩
abbrev main_cst_55 : Ref sig .tc := ⟨.hbm, 291, rfl⟩
abbrev main_v212 : Ref sig .tc := ⟨.hbm, 292, rfl⟩
abbrev main_v213 : Ref sig .tc := ⟨.hbm, 293, rfl⟩
abbrev main_v214 : Ref sig .tc := ⟨.hbm, 294, rfl⟩
abbrev main_v215 : Ref sig .tc := ⟨.hbm, 295, rfl⟩
abbrev main_cst_56 : Ref sig .tc := ⟨.hbm, 296, rfl⟩
abbrev main_v216 : Ref sig .tc := ⟨.hbm, 297, rfl⟩
abbrev main_v217 : Ref sig .tc := ⟨.hbm, 298, rfl⟩
abbrev main_v218 : Ref sig .tc := ⟨.hbm, 299, rfl⟩
abbrev main_cst_57 : Ref sig .tc := ⟨.hbm, 300, rfl⟩
abbrev main_v219 : Ref sig .tc := ⟨.hbm, 301, rfl⟩
abbrev main_cst_58 : Ref sig .tc := ⟨.hbm, 302, rfl⟩
abbrev main_v220 : Ref sig .tc := ⟨.hbm, 303, rfl⟩
abbrev main_v221 : Ref sig .tc := ⟨.hbm, 304, rfl⟩
abbrev main_v222 : Ref sig .tc := ⟨.hbm, 305, rfl⟩
abbrev main_c_59 : Ref sig .tc := ⟨.hbm, 306, rfl⟩
abbrev main_v223 : Ref sig .tc := ⟨.hbm, 307, rfl⟩
abbrev main_v224 : Ref sig .tc := ⟨.hbm, 308, rfl⟩
abbrev main_c_60 : Ref sig .tc := ⟨.hbm, 309, rfl⟩
abbrev main_v225 : Ref sig .tc := ⟨.hbm, 310, rfl⟩
abbrev main_v226 : Ref sig .tc := ⟨.hbm, 311, rfl⟩
abbrev main_v227 : Ref sig .tc := ⟨.hbm, 312, rfl⟩
abbrev main_v228 : Ref sig .tc := ⟨.hbm, 313, rfl⟩
abbrev main_v229 : Ref sig .tc := ⟨.hbm, 314, rfl⟩
abbrev main_cst_61 : Ref sig .tc := ⟨.hbm, 315, rfl⟩
abbrev main_v230 : Ref sig .tc := ⟨.hbm, 316, rfl⟩
abbrev main_cst_62 : Ref sig .tc := ⟨.hbm, 317, rfl⟩
abbrev main_v231 : Ref sig .tc := ⟨.hbm, 318, rfl⟩
abbrev main_v232 : Ref sig .tc := ⟨.hbm, 319, rfl⟩
abbrev main_v233 : Ref sig .tc := ⟨.hbm, 320, rfl⟩
abbrev main_v234 : Ref sig .tc := ⟨.hbm, 321, rfl⟩
abbrev main_v235 : Ref sig .tc := ⟨.hbm, 322, rfl⟩
abbrev main_v236 : Ref sig .tc := ⟨.hbm, 323, rfl⟩
abbrev main_cst_63 : Ref sig .tc := ⟨.hbm, 324, rfl⟩
abbrev main_v237 : Ref sig .tc := ⟨.hbm, 325, rfl⟩
abbrev main_v238 : Ref sig .tc := ⟨.hbm, 326, rfl⟩
abbrev main_v239 : Ref sig .tc := ⟨.hbm, 327, rfl⟩
abbrev main_v240 : Ref sig .tc := ⟨.hbm, 328, rfl⟩
abbrev main_cst_64 : Ref sig .tc := ⟨.hbm, 329, rfl⟩
abbrev main_v241 : Ref sig .tc := ⟨.hbm, 330, rfl⟩
abbrev main_v242 : Ref sig .tc := ⟨.hbm, 331, rfl⟩
abbrev main_v243 : Ref sig .tc := ⟨.hbm, 332, rfl⟩
abbrev main_cst_65 : Ref sig .tc := ⟨.hbm, 333, rfl⟩
abbrev main_v244 : Ref sig .tc := ⟨.hbm, 334, rfl⟩
abbrev main_cst_66 : Ref sig .tc := ⟨.hbm, 335, rfl⟩
abbrev main_v245 : Ref sig .tc := ⟨.hbm, 336, rfl⟩
abbrev main_v246 : Ref sig .tc := ⟨.hbm, 337, rfl⟩
abbrev main_v247 : Ref sig .tc := ⟨.hbm, 338, rfl⟩
abbrev main_c_67 : Ref sig .tc := ⟨.hbm, 339, rfl⟩
abbrev main_v248 : Ref sig .tc := ⟨.hbm, 340, rfl⟩
abbrev main_v249 : Ref sig .tc := ⟨.hbm, 341, rfl⟩
abbrev main_c_68 : Ref sig .tc := ⟨.hbm, 342, rfl⟩
abbrev main_v250 : Ref sig .tc := ⟨.hbm, 343, rfl⟩
abbrev main_v251 : Ref sig .tc := ⟨.hbm, 344, rfl⟩
abbrev main_v252 : Ref sig .tc := ⟨.hbm, 345, rfl⟩
abbrev main_v253 : Ref sig .tc := ⟨.hbm, 346, rfl⟩
abbrev main_v254 : Ref sig .tc := ⟨.hbm, 347, rfl⟩
abbrev main_cst_69 : Ref sig .tc := ⟨.hbm, 348, rfl⟩
abbrev main_v255 : Ref sig .tc := ⟨.hbm, 349, rfl⟩
abbrev main_cst_70 : Ref sig .tc := ⟨.hbm, 350, rfl⟩
abbrev main_v256 : Ref sig .tc := ⟨.hbm, 351, rfl⟩
abbrev main_v257 : Ref sig .tc := ⟨.hbm, 352, rfl⟩
abbrev main_v258 : Ref sig .tc := ⟨.hbm, 353, rfl⟩
abbrev main_v259 : Ref sig .tc := ⟨.hbm, 354, rfl⟩
abbrev main_v260 : Ref sig .tc := ⟨.hbm, 355, rfl⟩
abbrev main_v261 : Ref sig .tc := ⟨.hbm, 356, rfl⟩
abbrev main_cst_71 : Ref sig .tc := ⟨.hbm, 357, rfl⟩
abbrev main_v262 : Ref sig .tc := ⟨.hbm, 358, rfl⟩
abbrev main_v263 : Ref sig .tc := ⟨.hbm, 359, rfl⟩
abbrev main_v264 : Ref sig .tc := ⟨.hbm, 360, rfl⟩
abbrev main_v265 : Ref sig .tc := ⟨.hbm, 361, rfl⟩
abbrev main_cst_72 : Ref sig .tc := ⟨.hbm, 362, rfl⟩
abbrev main_v266 : Ref sig .tc := ⟨.hbm, 363, rfl⟩
abbrev main_v267 : Ref sig .tc := ⟨.hbm, 364, rfl⟩
abbrev main_v268 : Ref sig .tc := ⟨.hbm, 365, rfl⟩
abbrev main_cst_73 : Ref sig .tc := ⟨.hbm, 366, rfl⟩
abbrev main_v269 : Ref sig .tc := ⟨.hbm, 367, rfl⟩
abbrev main_cst_74 : Ref sig .tc := ⟨.hbm, 368, rfl⟩
abbrev main_v270 : Ref sig .tc := ⟨.hbm, 369, rfl⟩
abbrev main_v271 : Ref sig .tc := ⟨.hbm, 370, rfl⟩
abbrev main_v272 : Ref sig .tc := ⟨.hbm, 371, rfl⟩
abbrev main_cst_75 : Ref sig .tc := ⟨.hbm, 372, rfl⟩
abbrev main_v273 : Ref sig .tc := ⟨.hbm, 373, rfl⟩
abbrev main_cst_76 : Ref sig .tc := ⟨.hbm, 374, rfl⟩
abbrev main_v274 : Ref sig .tc := ⟨.hbm, 375, rfl⟩
abbrev main_v275 : Ref sig .tc := ⟨.hbm, 376, rfl⟩
abbrev main_cst_77 : Ref sig .tc := ⟨.hbm, 377, rfl⟩
abbrev main_v276 : Ref sig .tc := ⟨.hbm, 378, rfl⟩
abbrev main_v277 : Ref sig .tc := ⟨.hbm, 379, rfl⟩
abbrev main_cst_78 : Ref sig .tc := ⟨.hbm, 380, rfl⟩
abbrev main_v278 : Ref sig .tc := ⟨.hbm, 381, rfl⟩
abbrev main_v279 : Ref sig .tc := ⟨.hbm, 382, rfl⟩
abbrev main_cst_79 : Ref sig .tc := ⟨.hbm, 383, rfl⟩
abbrev main_v280 : Ref sig .tc := ⟨.hbm, 384, rfl⟩
abbrev main_cst_80 : Ref sig .tc := ⟨.hbm, 385, rfl⟩
abbrev main_v281 : Ref sig .tc := ⟨.hbm, 386, rfl⟩
abbrev main_cst_81 : Ref sig .tc := ⟨.hbm, 387, rfl⟩
abbrev main_v282 : Ref sig .tc := ⟨.hbm, 388, rfl⟩
abbrev main_cst_82 : Ref sig .tc := ⟨.hbm, 389, rfl⟩
abbrev main_v283 : Ref sig .tc := ⟨.hbm, 390, rfl⟩
abbrev main_v284 : Ref sig .tc := ⟨.hbm, 391, rfl⟩
abbrev main_v285 : Ref sig .tc := ⟨.hbm, 392, rfl⟩
abbrev main_v286 : Ref sig .tc := ⟨.hbm, 393, rfl⟩
abbrev main_v287 : Ref sig .tc := ⟨.hbm, 394, rfl⟩
abbrev main_v288 : Ref sig .tc := ⟨.hbm, 395, rfl⟩
abbrev main_v289 : Ref sig .tc := ⟨.hbm, 396, rfl⟩

abbrev nD : Nat := 1
abbrev τ : Topo := Topo.v7x

variable {F : FTy → Type} [FloatOps F]

class Facts₀ : Prop where
  bcast_S_S1200 : S_.BroadcastsInDim S1200 (![] : Fin 0 → Fin S1200.rank)
  bcast_S1200_S1200x1_0 : S1200.BroadcastsInDim S1200x1 (![0] : Fin 1 → Fin S1200x1.rank)
  bcast_S_S2400 : S_.BroadcastsInDim S2400 (![] : Fin 0 → Fin S2400.rank)
  bcast_S2400_S2400x1_0 : S2400.BroadcastsInDim S2400x1 (![0] : Fin 1 → Fin S2400x1.rank)
  bcast_S_S6000 : S_.BroadcastsInDim S6000 (![] : Fin 0 → Fin S6000.rank)
  bcast_S6000_S6000x1_0 : S6000.BroadcastsInDim S6000x1 (![0] : Fin 1 → Fin S6000x1.rank)
  reducesTo_S1200x3_S1200_d1 : S1200x3.ReducesTo [1] S1200
  h_S_ : 0 < S_.numel
  bcast_S1200x1_S1200x3_0_1 : S1200x1.BroadcastsInDim S1200x3 (![0, 1] : Fin 2 → Fin S1200x3.rank)
  reducesTo_S2400x3_S2400_d1 : S2400x3.ReducesTo [1] S2400
  bcast_S2400x1_S2400x3_0_1 : S2400x1.BroadcastsInDim S2400x3 (![0, 1] : Fin 2 → Fin S2400x3.rank)
  reducesTo_S6000x3_S6000_d1 : S6000x3.ReducesTo [1] S6000
  bcast_S6000x1_S6000x3_0_1 : S6000x1.BroadcastsInDim S6000x3 (![0, 1] : Fin 2 → Fin S6000x3.rank)
  transposes_S2400x3_S3x2400_1_0 : S2400x3.Transposes [1, 0] S3x2400
  bcast_S1x2400_S1200x2400_0_1 : S1x2400.BroadcastsInDim S1200x2400 (![0, 1] : Fin 2 → Fin S1200x2400.rank)
  bcast_S1200x1_S1200x2400_0_1 : S1200x1.BroadcastsInDim S1200x2400 (![0, 1] : Fin 2 → Fin S1200x2400.rank)
  reducesTo_S1200x2400_S_d0_1 : S1200x2400.ReducesTo [0, 1] S_
  transposes_S6000x3_S3x6000_1_0 : S6000x3.Transposes [1, 0] S3x6000
  bcast_S1x6000_S1200x6000_0_1 : S1x6000.BroadcastsInDim S1200x6000 (![0, 1] : Fin 2 → Fin S1200x6000.rank)
  bcast_S1200x1_S1200x6000_0_1 : S1200x1.BroadcastsInDim S1200x6000 (![0, 1] : Fin 2 → Fin S1200x6000.rank)
  reducesTo_S1200x6000_S_d0_1 : S1200x6000.ReducesTo [0, 1] S_
  reducesTo_S2400x3_S_d0_1 : S2400x3.ReducesTo [0, 1] S_
  bcast_S_S2400x3 : S_.BroadcastsInDim S2400x3 (![] : Fin 0 → Fin S2400x3.rank)
  reducesTo_S6000x3_S_d0_1 : S6000x3.ReducesTo [0, 1] S_
  bcast_S_S6000x3 : S_.BroadcastsInDim S6000x3 (![] : Fin 0 → Fin S6000x3.rank)
  bcast_S_S1200x3 : S_.BroadcastsInDim S1200x3 (![] : Fin 0 → Fin S1200x3.rank)
  reducesTo_S1200x3_S_d0_1 : S1200x3.ReducesTo [0, 1] S_
  bcast_S_S1 : S_.BroadcastsInDim S1 (![] : Fin 0 → Fin S1.rank)
  concatenates_S1_S1_S1_S1_S1_S5_d0 : Shape.Concatenates [S1, S1, S1, S1, S1] S5 0
  gather_S4000x8000_S1200x1_S1200x8000_1_0_n_n_0_1_18000_wf : GatherDims.WF S4000x8000 S1200x1 S1200x8000 [1] [0] [] [0] [] 1 ![1, 8000]
  gather_S1200x8000_S2400x1_S1200x2400_0_1_n_n_1_1_12001_wf : GatherDims.WF S1200x8000 S2400x1 S1200x2400 [0] [1] [] [1] [] 1 ![1200, 1]
  gather_S4000x20000_S1200x1_S1200x20000_1_0_n_n_0_1_120000_wf : GatherDims.WF S4000x20000 S1200x1 S1200x20000 [1] [0] [] [0] [] 1 ![1, 20000]
  gather_S1200x20000_S6000x1_S1200x6000_0_1_n_n_1_1_12001_wf : GatherDims.WF S1200x20000 S6000x1 S1200x6000 [0] [1] [] [1] [] 1 ![1200, 1]
  gather_S8000x20000_S2400x1_S2400x20000_1_0_n_n_0_1_120000_wf : GatherDims.WF S8000x20000 S2400x1 S2400x20000 [1] [0] [] [0] [] 1 ![1, 20000]
  gather_S2400x20000_S6000x1_S2400x6000_0_1_n_n_1_1_24001_wf : GatherDims.WF S2400x20000 S6000x1 S2400x6000 [0] [1] [] [1] [] 1 ![2400, 1]
  gather_S4000x3_S1200x1_S1200x3_1_0_n_n_0_1_13_wf : GatherDims.WF S4000x3 S1200x1 S1200x3 [1] [0] [] [0] [] 1 ![1, 3]
  gather_S8000x3_S2400x1_S2400x3_1_0_n_n_0_1_13_wf : GatherDims.WF S8000x3 S2400x1 S2400x3 [1] [0] [] [0] [] 1 ![1, 3]
  gather_S20000x3_S6000x1_S6000x3_1_0_n_n_0_1_13_wf : GatherDims.WF S20000x3 S6000x1 S6000x3 [1] [0] [] [0] [] 1 ![1, 3]
  dot_S1200x3_S3x3_S1200x3_1_0_0_1_n_n_wf : DotDims.WF S1200x3 S3x3 S1200x3 [1] [0] [0] [1] [] []
  dot_S1200x3_S3x2400_S1200x2400_1_0_0_1_n_n_wf : DotDims.WF S1200x3 S3x2400 S1200x2400 [1] [0] [0] [1] [] []
  gather_S1x8000_S2400x1_S1x2400_0_1_n_n_1_1_11_wf : GatherDims.WF S1x8000 S2400x1 S1x2400 [0] [1] [] [1] [] 1 ![1, 1]
  gather_S4000x1_S1200x1_S1200x1_1_0_n_n_0_1_11_wf : GatherDims.WF S4000x1 S1200x1 S1200x1 [1] [0] [] [0] [] 1 ![1, 1]
  dot_S1200x3_S3x6000_S1200x6000_1_0_0_1_n_n_wf : DotDims.WF S1200x3 S3x6000 S1200x6000 [1] [0] [0] [1] [] []
  gather_S1x20000_S6000x1_S1x6000_0_1_n_n_1_1_11_wf : GatherDims.WF S1x20000 S6000x1 S1x6000 [0] [1] [] [1] [] 1 ![1, 1]
  dot_S2400x6000_S6000x3_S2400x3_1_0_0_1_n_n_wf : DotDims.WF S2400x6000 S6000x3 S2400x3 [1] [0] [0] [1] [] []

variable [Facts₀]

def gather_S4000x8000_S1200x1_S1200x8000_1_0_n_n_0_1_18000 : GatherDims S4000x8000 S1200x1 S1200x8000 where
  offsetDims := [1]
  collapsedSliceDims := [0]
  operandBatchingDims := []
  startIndicesBatchingDims := []
  startIndexMap := [0]
  indexVectorDim := 1
  sliceSizes := ![1, 8000]
  wf := gather_S4000x8000_S1200x1_S1200x8000_1_0_n_n_0_1_18000_wf
def gather_S1200x8000_S2400x1_S1200x2400_0_1_n_n_1_1_12001 : GatherDims S1200x8000 S2400x1 S1200x2400 where
  offsetDims := [0]
  collapsedSliceDims := [1]
  operandBatchingDims := []
  startIndicesBatchingDims := []
  startIndexMap := [1]
  indexVectorDim := 1
  sliceSizes := ![1200, 1]
  wf := gather_S1200x8000_S2400x1_S1200x2400_0_1_n_n_1_1_12001_wf
def gather_S4000x20000_S1200x1_S1200x20000_1_0_n_n_0_1_120000 : GatherDims S4000x20000 S1200x1 S1200x20000 where
  offsetDims := [1]
  collapsedSliceDims := [0]
  operandBatchingDims := []
  startIndicesBatchingDims := []
  startIndexMap := [0]
  indexVectorDim := 1
  sliceSizes := ![1, 20000]
  wf := gather_S4000x20000_S1200x1_S1200x20000_1_0_n_n_0_1_120000_wf
def gather_S1200x20000_S6000x1_S1200x6000_0_1_n_n_1_1_12001 : GatherDims S1200x20000 S6000x1 S1200x6000 where
  offsetDims := [0]
  collapsedSliceDims := [1]
  operandBatchingDims := []
  startIndicesBatchingDims := []
  startIndexMap := [1]
  indexVectorDim := 1
  sliceSizes := ![1200, 1]
  wf := gather_S1200x20000_S6000x1_S1200x6000_0_1_n_n_1_1_12001_wf
def gather_S8000x20000_S2400x1_S2400x20000_1_0_n_n_0_1_120000 : GatherDims S8000x20000 S2400x1 S2400x20000 where
  offsetDims := [1]
  collapsedSliceDims := [0]
  operandBatchingDims := []
  startIndicesBatchingDims := []
  startIndexMap := [0]
  indexVectorDim := 1
  sliceSizes := ![1, 20000]
  wf := gather_S8000x20000_S2400x1_S2400x20000_1_0_n_n_0_1_120000_wf
def gather_S2400x20000_S6000x1_S2400x6000_0_1_n_n_1_1_24001 : GatherDims S2400x20000 S6000x1 S2400x6000 where
  offsetDims := [0]
  collapsedSliceDims := [1]
  operandBatchingDims := []
  startIndicesBatchingDims := []
  startIndexMap := [1]
  indexVectorDim := 1
  sliceSizes := ![2400, 1]
  wf := gather_S2400x20000_S6000x1_S2400x6000_0_1_n_n_1_1_24001_wf
def gather_S4000x3_S1200x1_S1200x3_1_0_n_n_0_1_13 : GatherDims S4000x3 S1200x1 S1200x3 where
  offsetDims := [1]
  collapsedSliceDims := [0]
  operandBatchingDims := []
  startIndicesBatchingDims := []
  startIndexMap := [0]
  indexVectorDim := 1
  sliceSizes := ![1, 3]
  wf := gather_S4000x3_S1200x1_S1200x3_1_0_n_n_0_1_13_wf
def gather_S8000x3_S2400x1_S2400x3_1_0_n_n_0_1_13 : GatherDims S8000x3 S2400x1 S2400x3 where
  offsetDims := [1]
  collapsedSliceDims := [0]
  operandBatchingDims := []
  startIndicesBatchingDims := []
  startIndexMap := [0]
  indexVectorDim := 1
  sliceSizes := ![1, 3]
  wf := gather_S8000x3_S2400x1_S2400x3_1_0_n_n_0_1_13_wf
def gather_S20000x3_S6000x1_S6000x3_1_0_n_n_0_1_13 : GatherDims S20000x3 S6000x1 S6000x3 where
  offsetDims := [1]
  collapsedSliceDims := [0]
  operandBatchingDims := []
  startIndicesBatchingDims := []
  startIndexMap := [0]
  indexVectorDim := 1
  sliceSizes := ![1, 3]
  wf := gather_S20000x3_S6000x1_S6000x3_1_0_n_n_0_1_13_wf
def dot_S1200x3_S3x3_S1200x3_1_0_0_1_n_n : DotDims S1200x3 S3x3 S1200x3 where
  lhsContracting := [1]
  rhsContracting := [0]
  lhsNonContracting := [0]
  rhsNonContracting := [1]
  lhsBatch := []
  rhsBatch := []
  wf := dot_S1200x3_S3x3_S1200x3_1_0_0_1_n_n_wf
def dot_S1200x3_S3x2400_S1200x2400_1_0_0_1_n_n : DotDims S1200x3 S3x2400 S1200x2400 where
  lhsContracting := [1]
  rhsContracting := [0]
  lhsNonContracting := [0]
  rhsNonContracting := [1]
  lhsBatch := []
  rhsBatch := []
  wf := dot_S1200x3_S3x2400_S1200x2400_1_0_0_1_n_n_wf
def gather_S1x8000_S2400x1_S1x2400_0_1_n_n_1_1_11 : GatherDims S1x8000 S2400x1 S1x2400 where
  offsetDims := [0]
  collapsedSliceDims := [1]
  operandBatchingDims := []
  startIndicesBatchingDims := []
  startIndexMap := [1]
  indexVectorDim := 1
  sliceSizes := ![1, 1]
  wf := gather_S1x8000_S2400x1_S1x2400_0_1_n_n_1_1_11_wf
def gather_S4000x1_S1200x1_S1200x1_1_0_n_n_0_1_11 : GatherDims S4000x1 S1200x1 S1200x1 where
  offsetDims := [1]
  collapsedSliceDims := [0]
  operandBatchingDims := []
  startIndicesBatchingDims := []
  startIndexMap := [0]
  indexVectorDim := 1
  sliceSizes := ![1, 1]
  wf := gather_S4000x1_S1200x1_S1200x1_1_0_n_n_0_1_11_wf
def dot_S1200x3_S3x6000_S1200x6000_1_0_0_1_n_n : DotDims S1200x3 S3x6000 S1200x6000 where
  lhsContracting := [1]
  rhsContracting := [0]
  lhsNonContracting := [0]
  rhsNonContracting := [1]
  lhsBatch := []
  rhsBatch := []
  wf := dot_S1200x3_S3x6000_S1200x6000_1_0_0_1_n_n_wf
def gather_S1x20000_S6000x1_S1x6000_0_1_n_n_1_1_11 : GatherDims S1x20000 S6000x1 S1x6000 where
  offsetDims := [0]
  collapsedSliceDims := [1]
  operandBatchingDims := []
  startIndicesBatchingDims := []
  startIndexMap := [1]
  indexVectorDim := 1
  sliceSizes := ![1, 1]
  wf := gather_S1x20000_S6000x1_S1x6000_0_1_n_n_1_1_11_wf
def dot_S2400x6000_S6000x3_S2400x3_1_0_0_1_n_n : DotDims S2400x6000 S6000x3 S2400x3 where
  lhsContracting := [1]
  rhsContracting := [0]
  lhsNonContracting := [0]
  rhsNonContracting := [1]
  lhsBatch := []
  rhsBatch := []
  wf := dot_S2400x6000_S6000x3_S2400x3_1_0_0_1_n_n_wf

class Facts : Prop extends Facts₀ where

variable [Facts]
-- ==== Proof.K.Fold.lean ====
/- The buffer contents at the boundaries of @main's leading host stretches: the launch memory, and what each of the
   four stretches before the first region leaves (region 0's entry contents). -/
import proofs.«125036_j5205500362863_1_alg».proof.Proof.Gen.Kernel.Launch

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch. -/
abbrev W1 : Dev nD → Valuation τ sig (Elt F) := fun c => StableHlo.after hostOps0 (W0 m ρ c)
/-- After the first norm. -/
abbrev W2 : Dev nD → Valuation τ sig (Elt F) := fun c => StableHlo.after hostOps0_1 (W1 m ρ c)
/-- After the second norm. -/
abbrev W3 : Dev nD → Valuation τ sig (Elt F) := fun c => StableHlo.after hostOps0_2 (W2 m ρ c)
/-- After the last stretch before the first region: region 0's entry contents. -/
abbrev W4 : Dev nD → Valuation τ sig (Elt F) := fun c => StableHlo.after hostOps0_3 (W3 m ρ c)
/-- The same read at the TensorCore's references (what region 0's proof data take). -/
abbrev V4 : (c : Dev nD) → (b : Ref sig .tc) → Buf (Elt F) ((c : Thread nD τ).loc b) := fun c b => W4 m ρ c b

end Cert.Kernel.Hand

end
-- ==== Proof.K.Region0.lean ====
import proofs.«125036_j5205500362863_1_alg».proof.Proof.Gen.Kernel.Launch
import proofs.«125036_j5205500362863_1_alg».proof.Proof.Gen.Kernel.Skeleton
import proofs.«125036_j5205500362863_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the output cell holds after the body at position `n`: the zero cell plus the partial sums of the
    blocks at positions `0 … n`, one block's sum added per position. -/
def acc0 (c : Dev nD) : (n : ℕ) → n < cfg0.N → Vec F S1x1 .f32
  | 0, hn => k0_pay2 (iblk0 V c 1 ⟨0, hn⟩) (iblk0 V c 2 ⟨0, hn⟩) (iblk0 V c 0 ⟨0, hn⟩) (iblk0 V c 3 ⟨0, hn⟩) (iblk0 V c 4 ⟨0, hn⟩) k0_pay1
  | n + 1, hn => k0_pay2 (iblk0 V c 1 ⟨n + 1, hn⟩) (iblk0 V c 2 ⟨n + 1, hn⟩) (iblk0 V c 0 ⟨n + 1, hn⟩) (iblk0 V c 3 ⟨n + 1, hn⟩) (iblk0 V c 4 ⟨n + 1, hn⟩) (acc0 c n (Nat.lt_of_succ_lt hn))

/-- The pipeline's proof data on core `c`: the arrays as the region finds them; after the body at a point each
    input's buffer at its block and the output cell at the running sum; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => acc0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = acc0 V c t.val t.isLt := by dsimp only [dat0]

/-! ## The body's branch condition -/

/-- The body's one conditional, from the grid coordinates: "this is the first position". -/
abbrev cond0 (i : grid0.Coords) : Prop := (Scalar.cmpi .ne (Scalar.extui (Scalar.cmpi .eq (BitVec.ofNat 32 (i 0).val) 0#32)) 0#32) = 1#1
/-- It holds at the first position only: decided over the six points. -/
theorem hcond0 : ∀ t : Fin cfg0.N, cond0 (grid0.coords t) ↔ t.val % 6 = 0 :=
  (by decide +kernel : ∀ t : Fin grid0.N, cond0 (grid0.coords t) ↔ t.val % 6 = 0)

/-- The running sum at the first position: the block's sum over the zero cell. -/
theorem acc0_first (c : Dev nD) (t : Fin cfg0.N) (h0 : t.val % 6 = 0) :
    acc0 V c t.val t.isLt = k0_pay2 (iblk0 V c 1 t) (iblk0 V c 2 t) (iblk0 V c 0 t) (iblk0 V c 3 t) (iblk0 V c 4 t) k0_pay1 := by
  obtain ⟨n, hn⟩ := t
  have hN : n < 6 := lt_of_lt_of_eq hn (show cfg0.N = 6 from N_0)
  cases n with
  | zero => exact rfl
  | succ n => exact absurd h0 (by dsimp only; omega)

/-- The running sum at a later position: the block's sum over what the position before left. -/
theorem acc0_later (c : Dev nD) (t : Fin cfg0.N) (h0 : ¬t.val % 6 = 0) :
    acc0 V c t.val t.isLt = k0_pay2 (iblk0 V c 1 t) (iblk0 V c 2 t) (iblk0 V c 0 t) (iblk0 V c 3 t) (iblk0 V c 4 t)
      (acc0 V c (t.val - 1) (Nat.lt_of_le_of_lt (Nat.sub_le _ _) t.isLt)) := by
  obtain ⟨n, hn⟩ := t
  cases n with
  | zero => exact absurd (Nat.zero_mod _) h0
  | succ n => exact rfl

/-! ## What each window's staging buffer holds when the body is called -/

/-- Input window 0's current staging buffer holds its block at every position, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)

/-- Input window 1's current staging buffer holds its block at every position, fetched there or not. -/
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-- Input window 2's current staging buffer holds its block at every position, fetched there or not. -/
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-- Input window 3's current staging buffer holds its block at every position, fetched there or not. -/
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

/-- Input window 4's current staging buffer holds its block at every position, fetched there or not. -/
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)

/-- At a later position the output cell's staging buffer holds what the body left at the position before: the
    cell is written back after the last position only. -/
theorem before0_5_later (c : Dev nD) (t : Fin cfg0.N) (h0 : ¬t.val % 6 = 0) (d) :
    (dat0 V c).before 5 t d = acc0 V c (t.val - 1) (Nat.lt_of_le_of_lt (Nat.sub_le _ _) t.isLt) := by
  have hN : t.val < 6 := lt_of_lt_of_eq t.isLt (show cfg0.N = 6 from N_0)
  rw [Dat.before_out_kept _ 5 rfl t (by omega) (Bool.eq_false_iff.mpr fun h => by have := (flush0_5 _).mp h; dsimp only at this; omega)
    (fun _ => rfl) (fun _ _ => rfl)]
  dsimp only [dat0]

/-! ## The body's two runs -/

set_option maxHeartbeats 1000000 in
/-- The body at the first position, on whole staging memrefs holding the five input blocks and the cell at
    anything: it zeroes the cell, then runs to the continuation with the inputs as they were and the cell at the
    block's partial sum added to zero. -/
theorem run0_first (c : Dev nD) (E : Set ℕ) (i : grid0.Coords)
    (arg1 : Memref sig .tc .vmem S200x2400 .f32) (harg1 : arg1.IsWhole) (arg2 : Memref sig .tc .vmem S200x3 .f32) (harg2 : arg2.IsWhole)
    (arg3 : Memref sig .tc .vmem S3x2400 .f32) (harg3 : arg3.IsWhole) (arg4 : Memref sig .tc .vmem S1x2400 .f32) (harg4 : arg4.IsWhole)
    (arg5 : Memref sig .tc .vmem S200x1 .f32) (harg5 : arg5.IsWhole) (arg6 : Memref sig .tc .vmem S1x1 .f32) (harg6 : arg6.IsWhole)
    (hc : cond0 i)
    (x0 : Vec F S200x2400 .f32) (x1 : Vec F S200x3 .f32) (x2 : Vec F S3x2400 .f32) (x3 : Vec F S1x2400 .f32) (x4 : Vec F S200x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay2 x1 x2 x0 x3 x4 k0_pay1)) -∗ K ⟨⟩))
      ⊢ wp frame (wpE (defs₀ (F := F)) Variants.none c none) E (cc0__se_kernel i arg1 harg1 arg2 harg2 arg3 harg3 arg4 harg4 arg5 harg5 arg6 harg6) K := by
  simp only [cc0__se_kernel_eq_skeleton]; unfold cc0__se_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  unfold run0_first.sl.v26 run0_first.sl.H5_1
  have hz : (![0, 0] : Fin 2 → ℕ) = fun _ => 0 := by funext a; fin_cases a <;> rfl
  rw [View.read_writes_eq_canon _ _ _ (fun y => ⟨_, List.mem_cons.mpr (Or.inl rfl), View.mem_set_unit_zero (S := S1x1) hz inb_S1x1_S1x1_0_0 y⟩),
    View.canon_cons_unit_zero (S := S1x1) hz, View.readCov_unit_zero (S := S1x1) _ hz]
  simp only [View.readAt_eq_ld, View.ld_unit_zero (S := S200x3) hz, View.ld_unit_zero (S := S3x2400) hz,
    View.ld_unit_zero (S := S200x2400) hz, View.ld_unit_zero (S := S1x2400) hz, View.ld_unit_zero (S := S200x1) hz]

set_option maxHeartbeats 1000000 in
/-- The body at a later position, on whole staging memrefs holding the five input blocks and the cell at its
    running contents `xo`: it runs to the continuation with the inputs as they were and the cell at the block's
    partial sum added to `xo`. -/
theorem run0_later (c : Dev nD) (E : Set ℕ) (i : grid0.Coords)
    (arg1 : Memref sig .tc .vmem S200x2400 .f32) (harg1 : arg1.IsWhole) (arg2 : Memref sig .tc .vmem S200x3 .f32) (harg2 : arg2.IsWhole)
    (arg3 : Memref sig .tc .vmem S3x2400 .f32) (harg3 : arg3.IsWhole) (arg4 : Memref sig .tc .vmem S1x2400 .f32) (harg4 : arg4.IsWhole)
    (arg5 : Memref sig .tc .vmem S200x1 .f32) (harg5 : arg5.IsWhole) (arg6 : Memref sig .tc .vmem S1x1 .f32) (harg6 : arg6.IsWhole)
    (hc : ¬cond0 i)
    (x0 : Vec F S200x2400 .f32) (x1 : Vec F S200x3 .f32) (x2 : Vec F S3x2400 .f32) (x3 : Vec F S1x2400 .f32) (x4 : Vec F S200x1 .f32)
    (xo : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare xo
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay2 x1 x2 x0 x3 x4 xo)) -∗ K ⟨⟩))
      ⊢ wp frame (wpE (defs₀ (F := F)) Variants.none c none) E (cc0__se_kernel i arg1 harg1 arg2 harg2 arg3 harg3 arg4 harg4 arg5 harg5 arg6 harg6) K := by
  simp only [cc0__se_kernel_eq_skeleton]; unfold cc0__se_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0 hf1 hf2 hf3 hf4 hf5
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  have hz : (![0, 0] : Fin 2 → ℕ) = fun _ => 0 := by funext a; fin_cases a <;> rfl
  rw [View.read_writes_eq_canon _ _ _ (fun y => ⟨_, List.mem_cons.mpr (Or.inl rfl), View.mem_set_unit_zero (S := S1x1) hz inb_S1x1_S1x1_0_0 y⟩),
    View.canon_unit_zero (S := S1x1) hz]
  simp only [View.readAt_eq_ld, View.ld_unit_zero (S := S200x3) hz, View.ld_unit_zero (S := S3x2400) hz,
    View.ld_unit_zero (S := S200x2400) hz, View.ld_unit_zero (S := S1x2400) hz, View.ld_unit_zero (S := S200x1) hz,
    View.ld_unit_zero (S := S1x1) hz]

/-! ## The body obligation, at a generic position -/

/-- What the body is called with at position `t`: the invariant, nothing owed, and each window's current
    staging buffer at what it holds there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What it returns: the same, each buffer at what the proof data say the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 800000 in
/-- The body at any position: the inputs' buffers hold their blocks; at the first position the cell holds anything
    and is zeroed before the sum is added, at a later one it holds the running sum the position before left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  by_cases h0 : t.val % 6 = 0
  · rw [acc0_first V c t h0]
    iintro ⟨HΦ, Ho, ⟨%d0, H0⟩, ⟨%d1, H1⟩, ⟨%d2, H2⟩, ⟨%d3, H3⟩, ⟨%d4, H4⟩, ⟨%d5, H5⟩⟩
    iapply (run0_first c Set.univ (grid0.coords t) _ _ _ _ _ _ _ _ _ _ _ _ ((hcond0 t).mpr h0) (iblk0 V c 0 t) (iblk0 V c 1 t) (iblk0 V c 2 t) (iblk0 V c 3 t) (iblk0 V c 4 t) _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc0_later V c t h0]
    simp only [before0_5_later V c t h0]
    iintro ⟨HΦ, Ho, ⟨%d0, H0⟩, ⟨%d1, H1⟩, ⟨%d2, H2⟩, ⟨%d3, H3⟩, ⟨%d4, H4⟩, ⟨%d5, H5⟩⟩
    iapply (run0_later c Set.univ (grid0.coords t) _ _ _ _ _ _ _ _ _ _ _ _ (fun h => h0 ((hcond0 t).mp h)) (iblk0 V c 0 t) (iblk0 V c 1 t) (iblk0 V c 2 t) (iblk0 V c 3 t) (iblk0 V c 4 t)
      (acc0 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The pipeline's body obligation, at every position. -/
theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.K.Region1.lean ====
import proofs.«125036_j5205500362863_1_alg».proof.Proof.Gen.Kernel.Launch
import proofs.«125036_j5205500362863_1_alg».proof.Proof.Gen.Kernel.Skeleton
import proofs.«125036_j5205500362863_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the output cell holds after the body at position `n`: the zero cell plus the partial sums of the
    blocks at positions `0 … n`, one block's sum added per position. -/
def acc1 (c : Dev nD) : (n : ℕ) → n < cfg1.N → Vec F S1x1 .f32
  | 0, hn => k1_pay2 (iblk1 V c 1 ⟨0, hn⟩) (iblk1 V c 2 ⟨0, hn⟩) (iblk1 V c 0 ⟨0, hn⟩) (iblk1 V c 3 ⟨0, hn⟩) (iblk1 V c 4 ⟨0, hn⟩) k1_pay1
  | n + 1, hn => k1_pay2 (iblk1 V c 1 ⟨n + 1, hn⟩) (iblk1 V c 2 ⟨n + 1, hn⟩) (iblk1 V c 0 ⟨n + 1, hn⟩) (iblk1 V c 3 ⟨n + 1, hn⟩) (iblk1 V c 4 ⟨n + 1, hn⟩) (acc1 c n (Nat.lt_of_succ_lt hn))

/-- The pipeline's proof data on core `c`: the arrays as the region finds them; after the body at a point each
    input's buffer at its block and the output cell at the running sum; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => acc1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = acc1 V c t.val t.isLt := by dsimp only [dat1]

/-! ## The body's branch condition -/

/-- The body's one conditional, from the grid coordinates: "this is the first position". -/
abbrev cond1 (i : grid1.Coords) : Prop := (Scalar.cmpi .ne (Scalar.extui (Scalar.cmpi .eq (BitVec.ofNat 32 (i 0).val) 0#32)) 0#32) = 1#1
/-- It holds at the first position only: decided over the six points. -/
theorem hcond1 : ∀ t : Fin cfg1.N, cond1 (grid1.coords t) ↔ t.val % 6 = 0 :=
  (by decide +kernel : ∀ t : Fin grid1.N, cond1 (grid1.coords t) ↔ t.val % 6 = 0)

/-- The running sum at the first position: the block's sum over the zero cell. -/
theorem acc1_first (c : Dev nD) (t : Fin cfg1.N) (h0 : t.val % 6 = 0) :
    acc1 V c t.val t.isLt = k1_pay2 (iblk1 V c 1 t) (iblk1 V c 2 t) (iblk1 V c 0 t) (iblk1 V c 3 t) (iblk1 V c 4 t) k1_pay1 := by
  obtain ⟨n, hn⟩ := t
  have hN : n < 6 := lt_of_lt_of_eq hn (show cfg1.N = 6 from N_1)
  cases n with
  | zero => exact rfl
  | succ n => exact absurd h0 (by dsimp only; omega)

/-- The running sum at a later position: the block's sum over what the position before left. -/
theorem acc1_later (c : Dev nD) (t : Fin cfg1.N) (h0 : ¬t.val % 6 = 0) :
    acc1 V c t.val t.isLt = k1_pay2 (iblk1 V c 1 t) (iblk1 V c 2 t) (iblk1 V c 0 t) (iblk1 V c 3 t) (iblk1 V c 4 t)
      (acc1 V c (t.val - 1) (Nat.lt_of_le_of_lt (Nat.sub_le _ _) t.isLt)) := by
  obtain ⟨n, hn⟩ := t
  cases n with
  | zero => exact absurd (Nat.zero_mod _) h0
  | succ n => exact rfl

/-! ## What each window's staging buffer holds when the body is called -/

/-- Input window 0's current staging buffer holds its block at every position, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

/-- Input window 1's current staging buffer holds its block at every position, fetched there or not. -/
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-- Input window 2's current staging buffer holds its block at every position, fetched there or not. -/
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-- Input window 3's current staging buffer holds its block at every position, fetched there or not. -/
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-- Input window 4's current staging buffer holds its block at every position, fetched there or not. -/
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

/-- At a later position the output cell's staging buffer holds what the body left at the position before: the
    cell is written back after the last position only. -/
theorem before1_5_later (c : Dev nD) (t : Fin cfg1.N) (h0 : ¬t.val % 6 = 0) (d) :
    (dat1 V c).before 5 t d = acc1 V c (t.val - 1) (Nat.lt_of_le_of_lt (Nat.sub_le _ _) t.isLt) := by
  have hN : t.val < 6 := lt_of_lt_of_eq t.isLt (show cfg1.N = 6 from N_1)
  rw [Dat.before_out_kept _ 5 rfl t (by omega) (Bool.eq_false_iff.mpr fun h => by have := (flush1_5 _).mp h; dsimp only at this; omega)
    (fun _ => rfl) (fun _ _ => rfl)]
  dsimp only [dat1]

/-! ## The body's two runs -/

set_option maxHeartbeats 1000000 in
/-- The body at the first position, on whole staging memrefs holding the five input blocks and the cell at
    anything: it zeroes the cell, then runs to the continuation with the inputs as they were and the cell at the
    block's partial sum added to zero. -/
theorem run1_first (c : Dev nD) (E : Set ℕ) (i : grid1.Coords)
    (arg1 : Memref sig .tc .vmem S200x6000 .f32) (harg1 : arg1.IsWhole) (arg2 : Memref sig .tc .vmem S200x3 .f32) (harg2 : arg2.IsWhole)
    (arg3 : Memref sig .tc .vmem S3x6000 .f32) (harg3 : arg3.IsWhole) (arg4 : Memref sig .tc .vmem S1x6000 .f32) (harg4 : arg4.IsWhole)
    (arg5 : Memref sig .tc .vmem S200x1 .f32) (harg5 : arg5.IsWhole) (arg6 : Memref sig .tc .vmem S1x1 .f32) (harg6 : arg6.IsWhole)
    (hc : cond1 i)
    (x0 : Vec F S200x6000 .f32) (x1 : Vec F S200x3 .f32) (x2 : Vec F S3x6000 .f32) (x3 : Vec F S1x6000 .f32) (x4 : Vec F S200x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k1_pay2 x1 x2 x0 x3 x4 k1_pay1)) -∗ K ⟨⟩))
      ⊢ wp frame (wpE (defs₀ (F := F)) Variants.none c none) E (cc1__se_kernel i arg1 harg1 arg2 harg2 arg3 harg3 arg4 harg4 arg5 harg5 arg6 harg6) K := by
  simp only [cc1__se_kernel_eq_skeleton]; unfold cc1__se_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  unfold run1_first.sl.v26 run1_first.sl.H5_1
  have hz : (![0, 0] : Fin 2 → ℕ) = fun _ => 0 := by funext a; fin_cases a <;> rfl
  rw [View.read_writes_eq_canon _ _ _ (fun y => ⟨_, List.mem_cons.mpr (Or.inl rfl), View.mem_set_unit_zero (S := S1x1) hz inb_S1x1_S1x1_0_0 y⟩),
    View.canon_cons_unit_zero (S := S1x1) hz, View.readCov_unit_zero (S := S1x1) _ hz]
  simp only [View.readAt_eq_ld, View.ld_unit_zero (S := S200x3) hz, View.ld_unit_zero (S := S3x6000) hz,
    View.ld_unit_zero (S := S200x6000) hz, View.ld_unit_zero (S := S1x6000) hz, View.ld_unit_zero (S := S200x1) hz]

set_option maxHeartbeats 1000000 in
/-- The body at a later position, on whole staging memrefs holding the five input blocks and the cell at its
    running contents `xo`: it runs to the continuation with the inputs as they were and the cell at the block's
    partial sum added to `xo`. -/
theorem run1_later (c : Dev nD) (E : Set ℕ) (i : grid1.Coords)
    (arg1 : Memref sig .tc .vmem S200x6000 .f32) (harg1 : arg1.IsWhole) (arg2 : Memref sig .tc .vmem S200x3 .f32) (harg2 : arg2.IsWhole)
    (arg3 : Memref sig .tc .vmem S3x6000 .f32) (harg3 : arg3.IsWhole) (arg4 : Memref sig .tc .vmem S1x6000 .f32) (harg4 : arg4.IsWhole)
    (arg5 : Memref sig .tc .vmem S200x1 .f32) (harg5 : arg5.IsWhole) (arg6 : Memref sig .tc .vmem S1x1 .f32) (harg6 : arg6.IsWhole)
    (hc : ¬cond1 i)
    (x0 : Vec F S200x6000 .f32) (x1 : Vec F S200x3 .f32) (x2 : Vec F S3x6000 .f32) (x3 : Vec F S1x6000 .f32) (x4 : Vec F S200x1 .f32)
    (xo : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare xo
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k1_pay2 x1 x2 x0 x3 x4 xo)) -∗ K ⟨⟩))
      ⊢ wp frame (wpE (defs₀ (F := F)) Variants.none c none) E (cc1__se_kernel i arg1 harg1 arg2 harg2 arg3 harg3 arg4 harg4 arg5 harg5 arg6 harg6) K := by
  simp only [cc1__se_kernel_eq_skeleton]; unfold cc1__se_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0 hf1 hf2 hf3 hf4 hf5
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  have hz : (![0, 0] : Fin 2 → ℕ) = fun _ => 0 := by funext a; fin_cases a <;> rfl
  rw [View.read_writes_eq_canon _ _ _ (fun y => ⟨_, List.mem_cons.mpr (Or.inl rfl), View.mem_set_unit_zero (S := S1x1) hz inb_S1x1_S1x1_0_0 y⟩),
    View.canon_unit_zero (S := S1x1) hz]
  simp only [View.readAt_eq_ld, View.ld_unit_zero (S := S200x3) hz, View.ld_unit_zero (S := S3x6000) hz,
    View.ld_unit_zero (S := S200x6000) hz, View.ld_unit_zero (S := S1x6000) hz, View.ld_unit_zero (S := S200x1) hz,
    View.ld_unit_zero (S := S1x1) hz]

/-! ## The body obligation, at a generic position -/

/-- What the body is called with at position `t`: the invariant, nothing owed, and each window's current
    staging buffer at what it holds there. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it returns: the same, each buffer at what the proof data say the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 800000 in
/-- The body at any position: the inputs' buffers hold their blocks; at the first position the cell holds anything
    and is zeroed before the sum is added, at a later one it holds the running sum the position before left. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  by_cases h0 : t.val % 6 = 0
  · rw [acc1_first V c t h0]
    iintro ⟨HΦ, Ho, ⟨%d0, H0⟩, ⟨%d1, H1⟩, ⟨%d2, H2⟩, ⟨%d3, H3⟩, ⟨%d4, H4⟩, ⟨%d5, H5⟩⟩
    iapply (run1_first c Set.univ (grid1.coords t) _ _ _ _ _ _ _ _ _ _ _ _ ((hcond1 t).mpr h0) (iblk1 V c 0 t) (iblk1 V c 1 t) (iblk1 V c 2 t) (iblk1 V c 3 t) (iblk1 V c 4 t) _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc1_later V c t h0]
    simp only [before1_5_later V c t h0]
    iintro ⟨HΦ, Ho, ⟨%d0, H0⟩, ⟨%d1, H1⟩, ⟨%d2, H2⟩, ⟨%d3, H3⟩, ⟨%d4, H4⟩, ⟨%d5, H5⟩⟩
    iapply (run1_later c Set.univ (grid1.coords t) _ _ _ _ _ _ _ _ _ _ _ _ (fun h => h0 ((hcond1 t).mp h)) (iblk1 V c 0 t) (iblk1 V c 1 t) (iblk1 V c 2 t) (iblk1 V c 3 t) (iblk1 V c 4 t)
      (acc1 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The pipeline's body obligation, at every position. -/
theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.K.Region2.lean ====
import proofs.«125036_j5205500362863_1_alg».proof.Proof.Gen.Kernel.Launch
import proofs.«125036_j5205500362863_1_alg».proof.Proof.Gen.Kernel.Skeleton
import proofs.«125036_j5205500362863_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the output cell holds after the body at position `n`: the zero cell plus the partial sums of the
    blocks at positions `0 … n`, one block's sum added per position. -/
def acc2 (c : Dev nD) : (n : ℕ) → n < cfg2.N → Vec F S1x1 .f32
  | 0, hn => k2_pay2 (iblk2 V c 0 ⟨0, hn⟩) (iblk2 V c 2 ⟨0, hn⟩) (iblk2 V c 1 ⟨0, hn⟩) k2_pay1
  | n + 1, hn => k2_pay2 (iblk2 V c 0 ⟨n + 1, hn⟩) (iblk2 V c 2 ⟨n + 1, hn⟩) (iblk2 V c 1 ⟨n + 1, hn⟩) (acc2 c n (Nat.lt_of_succ_lt hn))

/-- The pipeline's proof data on core `c`: the arrays as the region finds them; after the body at a point each
    input's buffer at its block and the output cell at the running sum; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => acc2 V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = acc2 V c t.val t.isLt := by dsimp only [dat2]

/-! ## The body's branch condition -/

/-- The body's one conditional, from the grid coordinates: "this is the first position". -/
abbrev cond2 (i : grid2.Coords) : Prop := (Scalar.cmpi .ne (Scalar.extui (Scalar.cmpi .eq (BitVec.ofNat 32 (i 0).val) 0#32)) 0#32) = 1#1
/-- It holds at the first position only: decided over the six points. -/
theorem hcond2 : ∀ t : Fin cfg2.N, cond2 (grid2.coords t) ↔ t.val % 6 = 0 :=
  (by decide +kernel : ∀ t : Fin grid2.N, cond2 (grid2.coords t) ↔ t.val % 6 = 0)

/-- The running sum at the first position: the block's sum over the zero cell. -/
theorem acc2_first (c : Dev nD) (t : Fin cfg2.N) (h0 : t.val % 6 = 0) :
    acc2 V c t.val t.isLt = k2_pay2 (iblk2 V c 0 t) (iblk2 V c 2 t) (iblk2 V c 1 t) k2_pay1 := by
  obtain ⟨n, hn⟩ := t
  have hN : n < 6 := lt_of_lt_of_eq hn (show cfg2.N = 6 from N_2)
  cases n with
  | zero => exact rfl
  | succ n => exact absurd h0 (by dsimp only; omega)

/-- The running sum at a later position: the block's sum over what the position before left. -/
theorem acc2_later (c : Dev nD) (t : Fin cfg2.N) (h0 : ¬t.val % 6 = 0) :
    acc2 V c t.val t.isLt = k2_pay2 (iblk2 V c 0 t) (iblk2 V c 2 t) (iblk2 V c 1 t)
      (acc2 V c (t.val - 1) (Nat.lt_of_le_of_lt (Nat.sub_le _ _) t.isLt)) := by
  obtain ⟨n, hn⟩ := t
  cases n with
  | zero => exact absurd (Nat.zero_mod _) h0
  | succ n => exact rfl

/-! ## What each window's staging buffer holds when the body is called -/

/-- Input window 0's current staging buffer holds its block at every position, fetched there or not. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)

/-- Input window 1's current staging buffer holds its block at every position, fetched there or not. -/
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

/-- Input window 2's current staging buffer holds its block at every position, fetched there or not. -/
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)

/-- At a later position the output cell's staging buffer holds what the body left at the position before: the
    cell is written back after the last position only. -/
theorem before2_3_later (c : Dev nD) (t : Fin cfg2.N) (h0 : ¬t.val % 6 = 0) (d) :
    (dat2 V c).before 3 t d = acc2 V c (t.val - 1) (Nat.lt_of_le_of_lt (Nat.sub_le _ _) t.isLt) := by
  have hN : t.val < 6 := lt_of_lt_of_eq t.isLt (show cfg2.N = 6 from N_2)
  rw [Dat.before_out_kept _ 3 rfl t (by omega) (Bool.eq_false_iff.mpr fun h => by have := (flush2_3 _).mp h; dsimp only at this; omega)
    (fun _ => rfl) (fun _ _ => rfl)]
  dsimp only [dat2]

/-! ## The body's two runs -/

set_option maxHeartbeats 1000000 in
/-- The body at the first position, on whole staging memrefs holding the three input blocks and the cell at
    anything: it zeroes the cell, then runs to the continuation with the inputs as they were and the cell at the
    block's partial sum added to zero. -/
theorem run2_first (c : Dev nD) (E : Set ℕ) (i : grid2.Coords)
    (arg1 : Memref sig .tc .vmem S400x6000 .f32) (harg1 : arg1.IsWhole) (arg2 : Memref sig .tc .vmem S400x3 .f32) (harg2 : arg2.IsWhole)
    (arg3 : Memref sig .tc .vmem S6000x3 .f32) (harg3 : arg3.IsWhole) (arg4 : Memref sig .tc .vmem S1x1 .f32) (harg4 : arg4.IsWhole)
    (hc : cond2 i)
    (x0 : Vec F S400x6000 .f32) (x1 : Vec F S400x3 .f32) (x2 : Vec F S6000x3 .f32)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k2_pay2 x0 x2 x1 k2_pay1)) -∗ K ⟨⟩))
      ⊢ wp frame (wpE (defs₀ (F := F)) Variants.none c none) E (cc2__trace_kernel i arg1 harg1 arg2 harg2 arg3 harg3 arg4 harg4) K := by
  simp only [cc2__trace_kernel_eq_skeleton]; unfold cc2__trace_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  unfold run2_first.sl.v17 run2_first.sl.H3_1
  have hz : (![0, 0] : Fin 2 → ℕ) = fun _ => 0 := by funext a; fin_cases a <;> rfl
  rw [View.read_writes_eq_canon _ _ _ (fun y => ⟨_, List.mem_cons.mpr (Or.inl rfl), View.mem_set_unit_zero (S := S1x1) hz inb_S1x1_S1x1_0_0 y⟩),
    View.canon_cons_unit_zero (S := S1x1) hz, View.readCov_unit_zero (S := S1x1) _ hz]
  simp only [View.readAt_eq_ld, View.ld_unit_zero (S := S400x6000) hz, View.ld_unit_zero (S := S6000x3) hz,
    View.ld_unit_zero (S := S400x3) hz]

set_option maxHeartbeats 1000000 in
/-- The body at a later position, on whole staging memrefs holding the three input blocks and the cell at its
    running contents `xo`: it runs to the continuation with the inputs as they were and the cell at the block's
    partial sum added to `xo`. -/
theorem run2_later (c : Dev nD) (E : Set ℕ) (i : grid2.Coords)
    (arg1 : Memref sig .tc .vmem S400x6000 .f32) (harg1 : arg1.IsWhole) (arg2 : Memref sig .tc .vmem S400x3 .f32) (harg2 : arg2.IsWhole)
    (arg3 : Memref sig .tc .vmem S6000x3 .f32) (harg3 : arg3.IsWhole) (arg4 : Memref sig .tc .vmem S1x1 .f32) (harg4 : arg4.IsWhole)
    (hc : ¬cond2 i)
    (x0 : Vec F S400x6000 .f32) (x1 : Vec F S400x3 .f32) (x2 : Vec F S6000x3 .f32) (xo : Vec F S1x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xo
        ∗ (iprop(owns (c : Thread nD τ) arg1 fullShare x0 ∗ owns (c : Thread nD τ) arg2 fullShare x1 ∗ owns (c : Thread nD τ) arg3 fullShare x2
            ∗ owns (c : Thread nD τ) arg4 fullShare (k2_pay2 x0 x2 x1 xo)) -∗ K ⟨⟩))
      ⊢ wp frame (wpE (defs₀ (F := F)) Variants.none c none) E (cc2__trace_kernel i arg1 harg1 arg2 harg2 arg3 harg3 arg4 harg4) K := by
  simp only [cc2__trace_kernel_eq_skeleton]; unfold cc2__trace_kernel_skel
  unfold owns
  iintro ⟨⟨%f0, %hf0, H0⟩, ⟨%f1, %hf1, H1⟩, ⟨%f2, %hf2, H2⟩, ⟨%f3, %hf3, H3⟩, Hk⟩
  subst hf0 hf1 hf2 hf3
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  have hz : (![0, 0] : Fin 2 → ℕ) = fun _ => 0 := by funext a; fin_cases a <;> rfl
  rw [View.read_writes_eq_canon _ _ _ (fun y => ⟨_, List.mem_cons.mpr (Or.inl rfl), View.mem_set_unit_zero (S := S1x1) hz inb_S1x1_S1x1_0_0 y⟩),
    View.canon_unit_zero (S := S1x1) hz]
  simp only [View.readAt_eq_ld, View.ld_unit_zero (S := S400x6000) hz, View.ld_unit_zero (S := S6000x3) hz,
    View.ld_unit_zero (S := S400x3) hz, View.ld_unit_zero (S := S1x1) hz]

/-! ## The body obligation, at a generic position -/

/-- What the body is called with at position `t`: the invariant, nothing owed, and each window's current
    staging buffer at what it holds there. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- What it returns: the same, each buffer at what the proof data say the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

set_option maxHeartbeats 800000 in
/-- The body at any position: the inputs' buffers hold their blocks; at the first position the cell holds anything
    and is zeroed before the sum is added, at a later one it holds the running sum the position before left. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  by_cases h0 : t.val % 6 = 0
  · rw [acc2_first V c t h0]
    iintro ⟨HΦ, Ho, ⟨%d0, H0⟩, ⟨%d1, H1⟩, ⟨%d2, H2⟩, ⟨%d3, H3⟩⟩
    iapply (run2_first c Set.univ (grid2.coords t) _ _ _ _ _ _ _ _ ((hcond2 t).mpr h0) (iblk2 V c 0 t) (iblk2 V c 1 t) (iblk2 V c 2 t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [acc2_later V c t h0]
    simp only [before2_3_later V c t h0]
    iintro ⟨HΦ, Ho, ⟨%d0, H0⟩, ⟨%d1, H1⟩, ⟨%d2, H2⟩, ⟨%d3, H3⟩⟩
    iapply (run2_later c Set.univ (grid2.coords t) _ _ _ _ _ _ _ _ (fun h => h0 ((hcond2 t).mp h)) (iblk2 V c 0 t) (iblk2 V c 1 t) (iblk2 V c 2 t)
      (acc2 V c (t.val - 1) (Nat.lt_of_le_of_lt (Nat.sub_le _ _) t.isLt)) _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The pipeline's body obligation, at every position. -/
theorem body_obligation2 (c : Dev nD) : BodyObligation (dat2 (F := F) V c) (defs₀ (F := F)) Variants.none () Set.univ := fun t => by
  rw [bigSep_W2, bigSep_W2]
  exact sound_body2 V c t

end

end Cert.Kernel.Hand

end
-- ==== Proof.K.Exits.lean ====
/- The buffer contents at the exits of @main's three regions and at its end: each region's arrays at what its pipeline
   leaves, every other buffer as the region found it; then what the closing host stretch leaves. -/
import proofs.«125036_j5205500362863_1_alg».proof.Proof.K.Fold
import proofs.«125036_j5205500362863_1_alg».proof.Proof.K.Region0
import proofs.«125036_j5205500362863_1_alg».proof.Proof.K.Region1
import proofs.«125036_j5205500362863_1_alg».proof.Proof.K.Region2
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At region 0's exit: its arrays at what the pipeline leaves (the inputs as entered, the output cell's write-back
    folded), every other buffer as entered. -/
def W5 (c : Dev nD) : Valuation τ sig (Elt F) :=
  Pipeline.withArrays spec0 c (W4 m ρ c) fun w => (dat0 (V4 m ρ) c).arrAt w cfg0.N
theorem W5_arr (c : Dev nD) (w : Fin cfg0.W) :
    W5 m ρ c (Proc.devRef .tc (Pipeline.arrRef spec0 w)) = (dat0 (V4 m ρ) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m ρ c (Proc.devRef .tc b) = W4 m ρ c (Proc.devRef .tc b) := by
  unfold W5; exact Pipeline.withArrays_of_ne spec0 c _ _ b hb
/-- The same read at the TensorCore's references (region 0's exit contents). -/
abbrev V5 : (c : Dev nD) → (b : Ref sig .tc) → Buf (Elt F) ((c : Thread nD τ).loc b) := fun c b => W5 m ρ c b
/-- At region 0's exit each of its arrays holds what the pipeline leaves and every other buffer what it held at entry. -/
theorem hF0 (c : Dev nD) (w : Fin cfg0.W) : (dat0 (V4 m ρ) c).arrAt w cfg0.N = V5 m ρ c (Pipeline.arrRef spec0 w) :=
  (W5_arr m ρ c w).symm
theorem hrest0 (c : Dev nD) : ∀ b, b ∉ Finset.univ.image (Pipeline.arrRef spec0) → V5 m ρ c b = V4 m ρ c b :=
  fun b hb => W5_of_ne m ρ c b fun w e => hb (Finset.mem_image.mpr ⟨w, Finset.mem_univ _, e⟩)

/-- At region 1's exit: its arrays at what the pipeline leaves (the inputs as entered, the output cell's write-back
    folded), every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same read at the TensorCore's references (region 1's exit contents). -/
abbrev V6 : (c : Dev nD) → (b : Ref sig .tc) → Buf (Elt F) ((c : Thread nD τ).loc b) := fun c b => W6 m ρ c b
/-- At region 1's exit each of its arrays holds what the pipeline leaves and every other buffer what it held at entry. -/
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- At region 2's exit: its arrays at what the pipeline leaves (the inputs as entered, the output cell's write-back
    folded), every other buffer as entered. -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
/-- The same read at the TensorCore's references (region 2's exit contents). -/
abbrev V7 : (c : Dev nD) → (b : Ref sig .tc) → Buf (Elt F) ((c : Thread nD τ).loc b) := fun c b => W7 m ρ c b
/-- At region 2's exit each of its arrays holds what the pipeline leaves and every other buffer what it held at entry. -/
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)

/-- After the closing host stretch: the final contents. -/
abbrev W8 : Dev nD → Valuation τ sig (Elt F) := fun c => StableHlo.after hostOps3 (W7 m ρ c)

end Cert.Kernel.Hand

end
-- ==== Proof.K.Host.lean ====
/- What @main's host stretches write: every operation writes one buffer, none of them an argument array, and none
   allocates; so an argument array is through every stretch what it was before it. -/
import proofs.«125036_j5205500362863_1_alg».proof.Proof.Gen.Kernel.Launch
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A reference that is not one of @main's sixteen argument arrays (those are the first sixteen buffers of HBM). -/
abbrev notArg (y : Ref sig .tc) : Prop := y.space ≠ .hbm ∨ 16 ≤ y.idx.val

/-- A line whose every operation writes exactly one buffer, each satisfying `P`, leaves a buffer not satisfying
    `P` as it was. -/
theorem after_keep (P : Ref sig .tc → Prop) (ops : List (HloOp τ sig (Elt F)))
    (h : ops.Forall fun op => ∃ y : Ref sig .tc, P y ∧ op.writes = {Proc.devRef .tc y})
    (V : Valuation τ sig (Elt F)) (r : Ref sig .tc) (hr : ¬ P r) :
    StableHlo.after ops V (Proc.devRef .tc r) = V (Proc.devRef .tc r) :=
  StableHlo.after_of_forall_not_mem ops V fun op hop hb => by
    obtain ⟨y, hy, he⟩ := (List.forall_iff_forall_mem.mp h) op hop
    rw [he, Finset.mem_singleton] at hb
    exact hr (Proc.devRef_injective _ hb ▸ hy)

set_option maxHeartbeats 4000000 in
/-- Each operation of `hostOps0` writes one buffer, not an argument array. -/
theorem hostOps0_keep : (hostOps0 : List (HloOp τ sig (Elt F))).Forall fun op => ∃ y : Ref sig .tc, notArg y ∧ op.writes = {Proc.devRef .tc y} :=
  ⟨⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩⟩
set_option maxHeartbeats 4000000 in
/-- No operation of `hostOps0` allocates a buffer. -/
theorem hostOps0_fresh : (hostOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 4000000 in
/-- Each operation of `hostOps0_1` writes one buffer, not an argument array. -/
theorem hostOps0_1_keep : (hostOps0_1 : List (HloOp τ sig (Elt F))).Forall fun op => ∃ y : Ref sig .tc, notArg y ∧ op.writes = {Proc.devRef .tc y} :=
  ⟨⟨_, by decide, rfl⟩, ⟨_, by decide, rfl⟩, ⟨_, by decide, rfl⟩, ⟨_, by decide, rfl⟩⟩
set_option maxHeartbeats 4000000 in
/-- No operation of `hostOps0_1` allocates a buffer. -/
theorem hostOps0_1_fresh : (hostOps0_1 : List (HloOp τ sig (Elt F))).Forall fun op => op.fresh = ∅ :=
  ⟨rfl, rfl, rfl, rfl⟩

set_option maxHeartbeats 4000000 in
/-- Each operation of `hostOps0_2` writes one buffer, not an argument array. -/
theorem hostOps0_2_keep : (hostOps0_2 : List (HloOp τ sig (Elt F))).Forall fun op => ∃ y : Ref sig .tc, notArg y ∧ op.writes = {Proc.devRef .tc y} :=
  ⟨⟨_, by decide, rfl⟩, ⟨_, by decide, rfl⟩, ⟨_, by decide, rfl⟩, ⟨_, by decide, rfl⟩⟩
set_option maxHeartbeats 4000000 in
/-- No operation of `hostOps0_2` allocates a buffer. -/
theorem hostOps0_2_fresh : (hostOps0_2 : List (HloOp τ sig (Elt F))).Forall fun op => op.fresh = ∅ :=
  ⟨rfl, rfl, rfl, rfl⟩

set_option maxHeartbeats 4000000 in
/-- Each operation of `hostOps0_3` writes one buffer, not an argument array. -/
theorem hostOps0_3_keep : (hostOps0_3 : List (HloOp τ sig (Elt F))).Forall fun op => ∃ y : Ref sig .tc, notArg y ∧ op.writes = {Proc.devRef .tc y} :=
  ⟨⟨_, by decide, rfl⟩, ⟨_, by decide, rfl⟩, ⟨_, by decide, rfl⟩, ⟨_, by decide, rfl⟩⟩
set_option maxHeartbeats 4000000 in
/-- No operation of `hostOps0_3` allocates a buffer. -/
theorem hostOps0_3_fresh : (hostOps0_3 : List (HloOp τ sig (Elt F))).Forall fun op => op.fresh = ∅ :=
  ⟨rfl, rfl, rfl, rfl⟩

set_option maxHeartbeats 4000000 in
/-- Each operation of `hostOps3` writes one buffer, not an argument array. -/
theorem hostOps3_keep : (hostOps3 : List (HloOp τ sig (Elt F))).Forall fun op => ∃ y : Ref sig .tc, notArg y ∧ op.writes = {Proc.devRef .tc y} :=
  ⟨⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩⟩
set_option maxHeartbeats 4000000 in
/-- No operation of `hostOps3` allocates a buffer. -/
theorem hostOps3_fresh : (hostOps3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

end Cert.Kernel.Hand

end
-- ==== Proof.K.Run.lean ====
/- The run of @main over its eight segments — four host stretches, the three regions back to back, the closing host
   stretch — from the launch memory to the final contents: every unscoped buffer ends at what the fold through the
   segments computes. -/
import proofs.«125036_j5205500362863_1_alg».proof.Proof.K.Exits
import proofs.«125036_j5205500362863_1_alg».proof.Proof.K.Host
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V4 m ρ) c
  | ⟨1, _⟩ => fun c => dat1 (V5 m ρ) c
  | ⟨2, _⟩ => fun c => dat2 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it runs to
    those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the final contents, the generator register
    at some state. -/
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- REGION 0 over the thread state: entered from every unscoped buffer at `W4`, left at `W5`. Its arrays are
    split out of the unscoped buffers and put back at the exit contents; the generator register goes into the
    class invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V4 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec0 c (V4 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V4 m ρ c) (V5 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W5`, left at `W6`. Its arrays are
    split out of the unscoped buffers and put back at the exit contents; the generator register goes into the
    class invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W6`, left at `W7`. Its arrays are
    split out of the unscoped buffers and put back at the exit contents; the generator register goes into the
    class invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's eight segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .region (reg0 m ρ),
    .region (reg1 m ρ),
    .region (reg2 m ρ),
    .host (hseg hostOps3 hostOps3_sub hostOps3_fresh (W7 m ρ)) ]
/-- @main IS the run of the segments. -/
theorem main_run (c : Dev nD) : main (F := F) c = Pipeline.Seg.run (segs m ρ) := (main_chain c).trans (by chain_rfl)

set_option backward.isDefEq.respectTransparency.types false in
/-- The launch over the segments: from any memory with zero counters every weakly fair execution of @main on the
    TensorCores terminates, nothing faulting, and every final state satisfies whatever follows from its unscoped
    buffers holding the final contents `W8`. -/
theorem run_of {Q : PUnit × MemSt nD τ sig (Elt F) → Prop}
    (hQ : ∀ s : MemSt nD τ sig (Elt F), (∀ c : Dev nD, ∀ b ∈ Pipeline.ucRefs τ sig, s.mem (((c : Thread nD τ)).1, b) = W8 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W8 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := hQ)

/-- Every unscoped buffer ends at `W8`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W8 m ρ c b) :=
  run_of m ρ fun s h => h

end Cert.Kernel.Hand

end
-- ==== Proof.K.Args.lean ====
/- The argument arrays end as launched: no host operation writes one and no region has one among its arrays, so the
   fold through @main's segments at an argument's buffer walks back to the launch memory. -/
import proofs.«125036_j5205500362863_1_alg».proof.Proof.K.Exits
import proofs.«125036_j5205500362863_1_alg».proof.Proof.K.Host

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At region 0's entry an argument array is as launched: none of the four leading host stretches writes it. -/
theorem W4_arg (c : Dev nD) (r : Ref sig .tc) (hr : ¬ notArg r) :
    W4 m ρ c (Proc.devRef .tc r) = m ((c : Thread nD τ).loc r) :=
  calc W4 m ρ c (Proc.devRef .tc r)
    _ = W3 m ρ c (Proc.devRef .tc r) := after_keep notArg hostOps0_3 hostOps0_3_keep _ r hr
    _ = W2 m ρ c (Proc.devRef .tc r) := after_keep notArg hostOps0_2 hostOps0_2_keep _ r hr
    _ = W1 m ρ c (Proc.devRef .tc r) := after_keep notArg hostOps0_1 hostOps0_1_keep _ r hr
    _ = W0 m ρ c (Proc.devRef .tc r) := after_keep notArg hostOps0 hostOps0_keep _ r hr
    _ = m ((c : Thread nD τ).loc r) := rfl

theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := after_keep notArg hostOps3 hostOps3_keep _ main_arg0 (by decide)
    _ = W6 m ρ c (Proc.devRef .tc main_arg0) := W7_of_ne m ρ c main_arg0 (by decide)
    _ = W5 m ρ c (Proc.devRef .tc main_arg0) := W6_of_ne m ρ c main_arg0 (by decide)
    _ = W4 m ρ c (Proc.devRef .tc main_arg0) := W5_of_ne m ρ c main_arg0 (by decide)
    _ = m ((c : Thread nD τ).loc main_arg0) := W4_arg m ρ c main_arg0 (by decide)

theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := after_keep notArg hostOps3 hostOps3_keep _ main_arg1 (by decide)
    _ = W6 m ρ c (Proc.devRef .tc main_arg1) := W7_of_ne m ρ c main_arg1 (by decide)
    _ = W5 m ρ c (Proc.devRef .tc main_arg1) := W6_of_ne m ρ c main_arg1 (by decide)
    _ = W4 m ρ c (Proc.devRef .tc main_arg1) := W5_of_ne m ρ c main_arg1 (by decide)
    _ = m ((c : Thread nD τ).loc main_arg1) := W4_arg m ρ c main_arg1 (by decide)

theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := after_keep notArg hostOps3 hostOps3_keep _ main_arg2 (by decide)
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := W5_of_ne m ρ c main_arg2 (by decide)
    _ = m ((c : Thread nD τ).loc main_arg2) := W4_arg m ρ c main_arg2 (by decide)

theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := after_keep notArg hostOps3 hostOps3_keep _ main_arg3 (by decide)
    _ = W6 m ρ c (Proc.devRef .tc main_arg3) := W7_of_ne m ρ c main_arg3 (by decide)
    _ = W5 m ρ c (Proc.devRef .tc main_arg3) := W6_of_ne m ρ c main_arg3 (by decide)
    _ = W4 m ρ c (Proc.devRef .tc main_arg3) := W5_of_ne m ρ c main_arg3 (by decide)
    _ = m ((c : Thread nD τ).loc main_arg3) := W4_arg m ρ c main_arg3 (by decide)

theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := after_keep notArg hostOps3 hostOps3_keep _ main_arg4 (by decide)
    _ = W6 m ρ c (Proc.devRef .tc main_arg4) := W7_of_ne m ρ c main_arg4 (by decide)
    _ = W5 m ρ c (Proc.devRef .tc main_arg4) := W6_of_ne m ρ c main_arg4 (by decide)
    _ = W4 m ρ c (Proc.devRef .tc main_arg4) := W5_of_ne m ρ c main_arg4 (by decide)
    _ = m ((c : Thread nD τ).loc main_arg4) := W4_arg m ρ c main_arg4 (by decide)

theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := after_keep notArg hostOps3 hostOps3_keep _ main_arg5 (by decide)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := W5_of_ne m ρ c main_arg5 (by decide)
    _ = m ((c : Thread nD τ).loc main_arg5) := W4_arg m ρ c main_arg5 (by decide)

theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) := after_keep notArg hostOps3 hostOps3_keep _ main_arg6 (by decide)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := W5_of_ne m ρ c main_arg6 (by decide)
    _ = m ((c : Thread nD τ).loc main_arg6) := W4_arg m ρ c main_arg6 (by decide)

theorem W8_main_arg7 (c : Dev nD) : W8 m ρ c (Proc.devRef .tc main_arg7) = m ((c : Thread nD τ).loc main_arg7) :=
  calc W8 m ρ c (Proc.devRef .tc main_arg7)
    _ = W7 m ρ c (Proc.devRef .tc main_arg7) := after_keep notArg hostOps3 hostOps3_keep _ main_arg7 (by decide)
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := W5_of_ne m ρ c main_arg7 (by decide)
    _ = m ((c : Thread nD τ).loc main_arg7) := W4_arg m ρ c main_arg7 (by decide)

theorem W8_main_arg8 (c : Dev nD) : W8 m ρ c (Proc.devRef .tc main_arg8) = m ((c : Thread nD τ).loc main_arg8) :=
  calc W8 m ρ c (Proc.devRef .tc main_arg8)
    _ = W7 m ρ c (Proc.devRef .tc main_arg8) := after_keep notArg hostOps3 hostOps3_keep _ main_arg8 (by decide)
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := W5_of_ne m ρ c main_arg8 (by decide)
    _ = m ((c : Thread nD τ).loc main_arg8) := W4_arg m ρ c main_arg8 (by decide)

theorem W8_main_arg9 (c : Dev nD) : W8 m ρ c (Proc.devRef .tc main_arg9) = m ((c : Thread nD τ).loc main_arg9) :=
  calc W8 m ρ c (Proc.devRef .tc main_arg9)
    _ = W7 m ρ c (Proc.devRef .tc main_arg9) := after_keep notArg hostOps3 hostOps3_keep _ main_arg9 (by decide)
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := W5_of_ne m ρ c main_arg9 (by decide)
    _ = m ((c : Thread nD τ).loc main_arg9) := W4_arg m ρ c main_arg9 (by decide)

theorem W8_main_arg10 (c : Dev nD) : W8 m ρ c (Proc.devRef .tc main_arg10) = m ((c : Thread nD τ).loc main_arg10) :=
  calc W8 m ρ c (Proc.devRef .tc main_arg10)
    _ = W7 m ρ c (Proc.devRef .tc main_arg10) := after_keep notArg hostOps3 hostOps3_keep _ main_arg10 (by decide)
    _ = W6 m ρ c (Proc.devRef .tc main_arg10) := W7_of_ne m ρ c main_arg10 (by decide)
    _ = W5 m ρ c (Proc.devRef .tc main_arg10) := W6_of_ne m ρ c main_arg10 (by decide)
    _ = W4 m ρ c (Proc.devRef .tc main_arg10) := W5_of_ne m ρ c main_arg10 (by decide)
    _ = m ((c : Thread nD τ).loc main_arg10) := W4_arg m ρ c main_arg10 (by decide)

theorem W8_main_arg11 (c : Dev nD) : W8 m ρ c (Proc.devRef .tc main_arg11) = m ((c : Thread nD τ).loc main_arg11) :=
  calc W8 m ρ c (Proc.devRef .tc main_arg11)
    _ = W7 m ρ c (Proc.devRef .tc main_arg11) := after_keep notArg hostOps3 hostOps3_keep _ main_arg11 (by decide)
    _ = W6 m ρ c (Proc.devRef .tc main_arg11) := W7_of_ne m ρ c main_arg11 (by decide)
    _ = W5 m ρ c (Proc.devRef .tc main_arg11) := W6_of_ne m ρ c main_arg11 (by decide)
    _ = W4 m ρ c (Proc.devRef .tc main_arg11) := W5_of_ne m ρ c main_arg11 (by decide)
    _ = m ((c : Thread nD τ).loc main_arg11) := W4_arg m ρ c main_arg11 (by decide)

theorem W8_main_arg12 (c : Dev nD) : W8 m ρ c (Proc.devRef .tc main_arg12) = m ((c : Thread nD τ).loc main_arg12) :=
  calc W8 m ρ c (Proc.devRef .tc main_arg12)
    _ = W7 m ρ c (Proc.devRef .tc main_arg12) := after_keep notArg hostOps3 hostOps3_keep _ main_arg12 (by decide)
    _ = W6 m ρ c (Proc.devRef .tc main_arg12) := W7_of_ne m ρ c main_arg12 (by decide)
    _ = W5 m ρ c (Proc.devRef .tc main_arg12) := W6_of_ne m ρ c main_arg12 (by decide)
    _ = W4 m ρ c (Proc.devRef .tc main_arg12) := W5_of_ne m ρ c main_arg12 (by decide)
    _ = m ((c : Thread nD τ).loc main_arg12) := W4_arg m ρ c main_arg12 (by decide)

theorem W8_main_arg13 (c : Dev nD) : W8 m ρ c (Proc.devRef .tc main_arg13) = m ((c : Thread nD τ).loc main_arg13) :=
  calc W8 m ρ c (Proc.devRef .tc main_arg13)
    _ = W7 m ρ c (Proc.devRef .tc main_arg13) := after_keep notArg hostOps3 hostOps3_keep _ main_arg13 (by decide)
    _ = W6 m ρ c (Proc.devRef .tc main_arg13) := W7_of_ne m ρ c main_arg13 (by decide)
    _ = W5 m ρ c (Proc.devRef .tc main_arg13) := W6_of_ne m ρ c main_arg13 (by decide)
    _ = W4 m ρ c (Proc.devRef .tc main_arg13) := W5_of_ne m ρ c main_arg13 (by decide)
    _ = m ((c : Thread nD τ).loc main_arg13) := W4_arg m ρ c main_arg13 (by decide)

theorem W8_main_arg14 (c : Dev nD) : W8 m ρ c (Proc.devRef .tc main_arg14) = m ((c : Thread nD τ).loc main_arg14) :=
  calc W8 m ρ c (Proc.devRef .tc main_arg14)
    _ = W7 m ρ c (Proc.devRef .tc main_arg14) := after_keep notArg hostOps3 hostOps3_keep _ main_arg14 (by decide)
    _ = W6 m ρ c (Proc.devRef .tc main_arg14) := W7_of_ne m ρ c main_arg14 (by decide)
    _ = W5 m ρ c (Proc.devRef .tc main_arg14) := W6_of_ne m ρ c main_arg14 (by decide)
    _ = W4 m ρ c (Proc.devRef .tc main_arg14) := W5_of_ne m ρ c main_arg14 (by decide)
    _ = m ((c : Thread nD τ).loc main_arg14) := W4_arg m ρ c main_arg14 (by decide)

theorem W8_main_arg15 (c : Dev nD) : W8 m ρ c (Proc.devRef .tc main_arg15) = m ((c : Thread nD τ).loc main_arg15) :=
  calc W8 m ρ c (Proc.devRef .tc main_arg15)
    _ = W7 m ρ c (Proc.devRef .tc main_arg15) := after_keep notArg hostOps3 hostOps3_keep _ main_arg15 (by decide)
    _ = W6 m ρ c (Proc.devRef .tc main_arg15) := W7_of_ne m ρ c main_arg15 (by decide)
    _ = W5 m ρ c (Proc.devRef .tc main_arg15) := W6_of_ne m ρ c main_arg15 (by decide)
    _ = W4 m ρ c (Proc.devRef .tc main_arg15) := W5_of_ne m ρ c main_arg15 (by decide)
    _ = m ((c : Thread nD τ).loc main_arg15) := W4_arg m ρ c main_arg15 (by decide)

end Cert.Kernel.Hand

end
-- ==== Proof.K.Frame.lean ====
/- The frame of @main at any float instance: from any memory with zero counters every weakly fair execution on the
   TensorCores terminates, nothing faulting, and every final state has the sixteen argument arrays as launched; and
   the same run with the result array named. -/
import proofs.«125036_j5205500362863_1_alg».proof.Proof.K.Run
import proofs.«125036_j5205500362863_1_alg».proof.Proof.K.Args

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  run_of m ρ fun s h c => ⟨
    (h c _ (mem_uc main_arg0 (by decide))).trans (W8_main_arg0 m ρ c),
    (h c _ (mem_uc main_arg1 (by decide))).trans (W8_main_arg1 m ρ c),
    (h c _ (mem_uc main_arg2 (by decide))).trans (W8_main_arg2 m ρ c),
    (h c _ (mem_uc main_arg3 (by decide))).trans (W8_main_arg3 m ρ c),
    (h c _ (mem_uc main_arg4 (by decide))).trans (W8_main_arg4 m ρ c),
    (h c _ (mem_uc main_arg5 (by decide))).trans (W8_main_arg5 m ρ c),
    (h c _ (mem_uc main_arg6 (by decide))).trans (W8_main_arg6 m ρ c),
    (h c _ (mem_uc main_arg7 (by decide))).trans (W8_main_arg7 m ρ c),
    (h c _ (mem_uc main_arg8 (by decide))).trans (W8_main_arg8 m ρ c),
    (h c _ (mem_uc main_arg9 (by decide))).trans (W8_main_arg9 m ρ c),
    (h c _ (mem_uc main_arg10 (by decide))).trans (W8_main_arg10 m ρ c),
    (h c _ (mem_uc main_arg11 (by decide))).trans (W8_main_arg11 m ρ c),
    (h c _ (mem_uc main_arg12 (by decide))).trans (W8_main_arg12 m ρ c),
    (h c _ (mem_uc main_arg13 (by decide))).trans (W8_main_arg13 m ρ c),
    (h c _ (mem_uc main_arg14 (by decide))).trans (W8_main_arg14 m ρ c),
    (h c _ (mem_uc main_arg15 (by decide))).trans (W8_main_arg15 m ρ c)⟩

/-- The same run with the result array at the final contents. -/
theorem run_val : θ_run defs (onTc (τ := τ) (main (F := F))) ⟨m, fun _ => 0, ρ⟩ (fun r => ∀ c : Dev nD,
      r.2.mem ((c.tc : Thread nD τ).loc main_v172) = W8 m ρ c (Proc.devRef .tc main_v172)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  run_of m ρ fun s h c => ⟨h c _ (mem_uc main_v172 (by decide)),
    (h c _ (mem_uc main_arg0 (by decide))).trans (W8_main_arg0 m ρ c),
    (h c _ (mem_uc main_arg1 (by decide))).trans (W8_main_arg1 m ρ c),
    (h c _ (mem_uc main_arg2 (by decide))).trans (W8_main_arg2 m ρ c),
    (h c _ (mem_uc main_arg3 (by decide))).trans (W8_main_arg3 m ρ c),
    (h c _ (mem_uc main_arg4 (by decide))).trans (W8_main_arg4 m ρ c),
    (h c _ (mem_uc main_arg5 (by decide))).trans (W8_main_arg5 m ρ c),
    (h c _ (mem_uc main_arg6 (by decide))).trans (W8_main_arg6 m ρ c),
    (h c _ (mem_uc main_arg7 (by decide))).trans (W8_main_arg7 m ρ c),
    (h c _ (mem_uc main_arg8 (by decide))).trans (W8_main_arg8 m ρ c),
    (h c _ (mem_uc main_arg9 (by decide))).trans (W8_main_arg9 m ρ c),
    (h c _ (mem_uc main_arg10 (by decide))).trans (W8_main_arg10 m ρ c),
    (h c _ (mem_uc main_arg11 (by decide))).trans (W8_main_arg11 m ρ c),
    (h c _ (mem_uc main_arg12 (by decide))).trans (W8_main_arg12 m ρ c),
    (h c _ (mem_uc main_arg13 (by decide))).trans (W8_main_arg13 m ρ c),
    (h c _ (mem_uc main_arg14 (by decide))).trans (W8_main_arg14 m ρ c),
    (h c _ (mem_uc main_arg15 (by decide))).trans (W8_main_arg15 m ρ c)⟩

end Cert.Kernel.Hand

end
-- ==== Proof.KI.Fold.lean ====
/- The buffer contents at the boundaries of @main's leading host stretches: the launch memory, and what each of the
   four stretches before the first region leaves (region 0's entry contents). -/
import proofs.«125036_j5205500362863_1_alg».proof.Proof.Gen.KernelIdeal.Launch

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch. -/
abbrev W1 : Dev nD → Valuation τ sig (Elt F) := fun c => StableHlo.after hostOps0 (W0 m ρ c)
/-- After the first norm. -/
abbrev W2 : Dev nD → Valuation τ sig (Elt F) := fun c => StableHlo.after hostOps0_1 (W1 m ρ c)
/-- After the second norm. -/
abbrev W3 : Dev nD → Valuation τ sig (Elt F) := fun c => StableHlo.after hostOps0_2 (W2 m ρ c)
/-- After the last stretch before the first region: region 0's entry contents. -/
abbrev W4 : Dev nD → Valuation τ sig (Elt F) := fun c => StableHlo.after hostOps0_3 (W3 m ρ c)
/-- The same read at the TensorCore's references (what region 0's proof data take). -/
abbrev V4 : (c : Dev nD) → (b : Ref sig .tc) → Buf (Elt F) ((c : Thread nD τ).loc b) := fun c b => W4 m ρ c b

end Cert.KernelIdeal.Hand

end
-- ==== Proof.KI.Region0.lean ====
import proofs.«125036_j5205500362863_1_alg».proof.Proof.Gen.KernelIdeal.Launch
import proofs.«125036_j5205500362863_1_alg».proof.Proof.Gen.KernelIdeal.Skeleton
import proofs.«125036_j5205500362863_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the output cell holds after the body at position `n`: the zero cell plus the partial sums of the
    blocks at positions `0 … n`, one block's sum added per position. -/
def acc0 (c : Dev nD) : (n : ℕ) → n < cfg0.N → Vec F S1x1 .f32
  | 0, hn => k0_pay2 (iblk0 V c 1 ⟨0, hn⟩) (iblk0 V c 2 ⟨0, hn⟩) (iblk0 V c 0 ⟨0, hn⟩) (iblk0 V c 3 ⟨0, hn⟩) (iblk0 V c 4 ⟨0, hn⟩) k0_pay1
  | n + 1, hn => k0_pay2 (iblk0 V c 1 ⟨n + 1, hn⟩) (iblk0 V c 2 ⟨n + 1, hn⟩) (iblk0 V c 0 ⟨n + 1, hn⟩) (iblk0 V c 3 ⟨n + 1, hn⟩) (iblk0 V c 4 ⟨n + 1, hn⟩) (acc0 c n (Nat.lt_of_succ_lt hn))

/-- The pipeline's proof data on core `c`: the arrays as the region finds them; after the body at a point each
    input's buffer at its block and the output cell at the running sum; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => acc0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = acc0 V c t.val t.isLt := by dsimp only [dat0]

/-! ## The body's branch condition -/

/-- The body's one conditional, from the grid coordinates: "this is the first position". -/
abbrev cond0 (i : grid0.Coords) : Prop := (Scalar.cmpi .ne (Scalar.extui (Scalar.cmpi .eq (BitVec.ofNat 32 (i 0).val) 0#32)) 0#32) = 1#1
/-- It holds at the first position only: decided over the six points. -/
theorem hcond0 : ∀ t : Fin cfg0.N, cond0 (grid0.coords t) ↔ t.val % 6 = 0 :=
  (by decide +kernel : ∀ t : Fin grid0.N, cond0 (grid0.coords t) ↔ t.val % 6 = 0)

/-- The running sum at the first position: the block's sum over the zero cell. -/
theorem acc0_first (c : Dev nD) (t : Fin cfg0.N) (h0 : t.val % 6 = 0) :
    acc0 V c t.val t.isLt = k0_pay2 (iblk0 V c 1 t) (iblk0 V c 2 t) (iblk0 V c 0 t) (iblk0 V c 3 t) (iblk0 V c 4 t) k0_pay1 := by
  obtain ⟨n, hn⟩ := t
  have hN : n < 6 := lt_of_lt_of_eq hn (show cfg0.N = 6 from N_0)
  cases n with
  | zero => exact rfl
  | succ n => exact absurd h0 (by dsimp only; omega)

/-- The running sum at a later position: the block's sum over what the position before left. -/
theorem acc0_later (c : Dev nD) (t : Fin cfg0.N) (h0 : ¬t.val % 6 = 0) :
    acc0 V c t.val t.isLt = k0_pay2 (iblk0 V c 1 t) (iblk0 V c 2 t) (iblk0 V c 0 t) (iblk0 V c 3 t) (iblk0 V c 4 t)
      (acc0 V c (t.val - 1) (Nat.lt_of_le_of_lt (Nat.sub_le _ _) t.isLt)) := by
  obtain ⟨n, hn⟩ := t
  cases n with
  | zero => exact absurd (Nat.zero_mod _) h0
  | succ n => exact rfl

/-! ## What each window's staging buffer holds when the body is called -/

/-- Input window 0's current staging buffer holds its block at every position, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)

/-- Input window 1's current staging buffer holds its block at every position, fetched there or not. -/
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-- Input window 2's current staging buffer holds its block at every position, fetched there or not. -/
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-- Input window 3's current staging buffer holds its block at every position, fetched there or not. -/
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

/-- Input window 4's current staging buffer holds its block at every position, fetched there or not. -/
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)

/-- At a later position the output cell's staging buffer holds what the body left at the position before: the
    cell is written back after the last position only. -/
theorem before0_5_later (c : Dev nD) (t : Fin cfg0.N) (h0 : ¬t.val % 6 = 0) (d) :
    (dat0 V c).before 5 t d = acc0 V c (t.val - 1) (Nat.lt_of_le_of_lt (Nat.sub_le _ _) t.isLt) := by
  have hN : t.val < 6 := lt_of_lt_of_eq t.isLt (show cfg0.N = 6 from N_0)
  rw [Dat.before_out_kept _ 5 rfl t (by omega) (Bool.eq_false_iff.mpr fun h => by have := (flush0_5 _).mp h; dsimp only at this; omega)
    (fun _ => rfl) (fun _ _ => rfl)]
  dsimp only [dat0]

/-! ## The body's two runs -/

set_option maxHeartbeats 1000000 in
/-- The body at the first position, on whole staging memrefs holding the five input blocks and the cell at
    anything: it zeroes the cell, then runs to the continuation with the inputs as they were and the cell at the
    block's partial sum added to zero. -/
theorem run0_first (c : Dev nD) (E : Set ℕ) (i : grid0.Coords)
    (arg1 : Memref sig .tc .vmem S200x2400 .f32) (harg1 : arg1.IsWhole) (arg2 : Memref sig .tc .vmem S200x3 .f32) (harg2 : arg2.IsWhole)
    (arg3 : Memref sig .tc .vmem S3x2400 .f32) (harg3 : arg3.IsWhole) (arg4 : Memref sig .tc .vmem S1x2400 .f32) (harg4 : arg4.IsWhole)
    (arg5 : Memref sig .tc .vmem S200x1 .f32) (harg5 : arg5.IsWhole) (arg6 : Memref sig .tc .vmem S1x1 .f32) (harg6 : arg6.IsWhole)
    (hc : cond0 i)
    (x0 : Vec F S200x2400 .f32) (x1 : Vec F S200x3 .f32) (x2 : Vec F S3x2400 .f32) (x3 : Vec F S1x2400 .f32) (x4 : Vec F S200x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay2 x1 x2 x0 x3 x4 k0_pay1)) -∗ K ⟨⟩))
      ⊢ wp frame (wpE (defs₀ (F := F)) Variants.none c none) E (cc0__se_kernel i arg1 harg1 arg2 harg2 arg3 harg3 arg4 harg4 arg5 harg5 arg6 harg6) K := by
  simp only [cc0__se_kernel_eq_skeleton]; unfold cc0__se_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  unfold run0_first.sl.v26 run0_first.sl.H5_1
  have hz : (![0, 0] : Fin 2 → ℕ) = fun _ => 0 := by funext a; fin_cases a <;> rfl
  rw [View.read_writes_eq_canon _ _ _ (fun y => ⟨_, List.mem_cons.mpr (Or.inl rfl), View.mem_set_unit_zero (S := S1x1) hz inb_S1x1_S1x1_0_0 y⟩),
    View.canon_cons_unit_zero (S := S1x1) hz, View.readCov_unit_zero (S := S1x1) _ hz]
  simp only [View.readAt_eq_ld, View.ld_unit_zero (S := S200x3) hz, View.ld_unit_zero (S := S3x2400) hz,
    View.ld_unit_zero (S := S200x2400) hz, View.ld_unit_zero (S := S1x2400) hz, View.ld_unit_zero (S := S200x1) hz]

set_option maxHeartbeats 1000000 in
/-- The body at a later position, on whole staging memrefs holding the five input blocks and the cell at its
    running contents `xo`: it runs to the continuation with the inputs as they were and the cell at the block's
    partial sum added to `xo`. -/
theorem run0_later (c : Dev nD) (E : Set ℕ) (i : grid0.Coords)
    (arg1 : Memref sig .tc .vmem S200x2400 .f32) (harg1 : arg1.IsWhole) (arg2 : Memref sig .tc .vmem S200x3 .f32) (harg2 : arg2.IsWhole)
    (arg3 : Memref sig .tc .vmem S3x2400 .f32) (harg3 : arg3.IsWhole) (arg4 : Memref sig .tc .vmem S1x2400 .f32) (harg4 : arg4.IsWhole)
    (arg5 : Memref sig .tc .vmem S200x1 .f32) (harg5 : arg5.IsWhole) (arg6 : Memref sig .tc .vmem S1x1 .f32) (harg6 : arg6.IsWhole)
    (hc : ¬cond0 i)
    (x0 : Vec F S200x2400 .f32) (x1 : Vec F S200x3 .f32) (x2 : Vec F S3x2400 .f32) (x3 : Vec F S1x2400 .f32) (x4 : Vec F S200x1 .f32)
    (xo : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare xo
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay2 x1 x2 x0 x3 x4 xo)) -∗ K ⟨⟩))
      ⊢ wp frame (wpE (defs₀ (F := F)) Variants.none c none) E (cc0__se_kernel i arg1 harg1 arg2 harg2 arg3 harg3 arg4 harg4 arg5 harg5 arg6 harg6) K := by
  simp only [cc0__se_kernel_eq_skeleton]; unfold cc0__se_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0 hf1 hf2 hf3 hf4 hf5
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  have hz : (![0, 0] : Fin 2 → ℕ) = fun _ => 0 := by funext a; fin_cases a <;> rfl
  rw [View.read_writes_eq_canon _ _ _ (fun y => ⟨_, List.mem_cons.mpr (Or.inl rfl), View.mem_set_unit_zero (S := S1x1) hz inb_S1x1_S1x1_0_0 y⟩),
    View.canon_unit_zero (S := S1x1) hz]
  simp only [View.readAt_eq_ld, View.ld_unit_zero (S := S200x3) hz, View.ld_unit_zero (S := S3x2400) hz,
    View.ld_unit_zero (S := S200x2400) hz, View.ld_unit_zero (S := S1x2400) hz, View.ld_unit_zero (S := S200x1) hz,
    View.ld_unit_zero (S := S1x1) hz]

/-! ## The body obligation, at a generic position -/

/-- What the body is called with at position `t`: the invariant, nothing owed, and each window's current
    staging buffer at what it holds there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What it returns: the same, each buffer at what the proof data say the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 800000 in
/-- The body at any position: the inputs' buffers hold their blocks; at the first position the cell holds anything
    and is zeroed before the sum is added, at a later one it holds the running sum the position before left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  by_cases h0 : t.val % 6 = 0
  · rw [acc0_first V c t h0]
    iintro ⟨HΦ, Ho, ⟨%d0, H0⟩, ⟨%d1, H1⟩, ⟨%d2, H2⟩, ⟨%d3, H3⟩, ⟨%d4, H4⟩, ⟨%d5, H5⟩⟩
    iapply (run0_first c Set.univ (grid0.coords t) _ _ _ _ _ _ _ _ _ _ _ _ ((hcond0 t).mpr h0) (iblk0 V c 0 t) (iblk0 V c 1 t) (iblk0 V c 2 t) (iblk0 V c 3 t) (iblk0 V c 4 t) _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc0_later V c t h0]
    simp only [before0_5_later V c t h0]
    iintro ⟨HΦ, Ho, ⟨%d0, H0⟩, ⟨%d1, H1⟩, ⟨%d2, H2⟩, ⟨%d3, H3⟩, ⟨%d4, H4⟩, ⟨%d5, H5⟩⟩
    iapply (run0_later c Set.univ (grid0.coords t) _ _ _ _ _ _ _ _ _ _ _ _ (fun h => h0 ((hcond0 t).mp h)) (iblk0 V c 0 t) (iblk0 V c 1 t) (iblk0 V c 2 t) (iblk0 V c 3 t) (iblk0 V c 4 t)
      (acc0 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The pipeline's body obligation, at every position. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.KI.Region1.lean ====
import proofs.«125036_j5205500362863_1_alg».proof.Proof.Gen.KernelIdeal.Launch
import proofs.«125036_j5205500362863_1_alg».proof.Proof.Gen.KernelIdeal.Skeleton
import proofs.«125036_j5205500362863_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the output cell holds after the body at position `n`: the zero cell plus the partial sums of the
    blocks at positions `0 … n`, one block's sum added per position. -/
def acc1 (c : Dev nD) : (n : ℕ) → n < cfg1.N → Vec F S1x1 .f32
  | 0, hn => k1_pay2 (iblk1 V c 1 ⟨0, hn⟩) (iblk1 V c 2 ⟨0, hn⟩) (iblk1 V c 0 ⟨0, hn⟩) (iblk1 V c 3 ⟨0, hn⟩) (iblk1 V c 4 ⟨0, hn⟩) k1_pay1
  | n + 1, hn => k1_pay2 (iblk1 V c 1 ⟨n + 1, hn⟩) (iblk1 V c 2 ⟨n + 1, hn⟩) (iblk1 V c 0 ⟨n + 1, hn⟩) (iblk1 V c 3 ⟨n + 1, hn⟩) (iblk1 V c 4 ⟨n + 1, hn⟩) (acc1 c n (Nat.lt_of_succ_lt hn))

/-- The pipeline's proof data on core `c`: the arrays as the region finds them; after the body at a point each
    input's buffer at its block and the output cell at the running sum; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => acc1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = acc1 V c t.val t.isLt := by dsimp only [dat1]

/-! ## The body's branch condition -/

/-- The body's one conditional, from the grid coordinates: "this is the first position". -/
abbrev cond1 (i : grid1.Coords) : Prop := (Scalar.cmpi .ne (Scalar.extui (Scalar.cmpi .eq (BitVec.ofNat 32 (i 0).val) 0#32)) 0#32) = 1#1
/-- It holds at the first position only: decided over the six points. -/
theorem hcond1 : ∀ t : Fin cfg1.N, cond1 (grid1.coords t) ↔ t.val % 6 = 0 :=
  (by decide +kernel : ∀ t : Fin grid1.N, cond1 (grid1.coords t) ↔ t.val % 6 = 0)

/-- The running sum at the first position: the block's sum over the zero cell. -/
theorem acc1_first (c : Dev nD) (t : Fin cfg1.N) (h0 : t.val % 6 = 0) :
    acc1 V c t.val t.isLt = k1_pay2 (iblk1 V c 1 t) (iblk1 V c 2 t) (iblk1 V c 0 t) (iblk1 V c 3 t) (iblk1 V c 4 t) k1_pay1 := by
  obtain ⟨n, hn⟩ := t
  have hN : n < 6 := lt_of_lt_of_eq hn (show cfg1.N = 6 from N_1)
  cases n with
  | zero => exact rfl
  | succ n => exact absurd h0 (by dsimp only; omega)

/-- The running sum at a later position: the block's sum over what the position before left. -/
theorem acc1_later (c : Dev nD) (t : Fin cfg1.N) (h0 : ¬t.val % 6 = 0) :
    acc1 V c t.val t.isLt = k1_pay2 (iblk1 V c 1 t) (iblk1 V c 2 t) (iblk1 V c 0 t) (iblk1 V c 3 t) (iblk1 V c 4 t)
      (acc1 V c (t.val - 1) (Nat.lt_of_le_of_lt (Nat.sub_le _ _) t.isLt)) := by
  obtain ⟨n, hn⟩ := t
  cases n with
  | zero => exact absurd (Nat.zero_mod _) h0
  | succ n => exact rfl

/-! ## What each window's staging buffer holds when the body is called -/

/-- Input window 0's current staging buffer holds its block at every position, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

/-- Input window 1's current staging buffer holds its block at every position, fetched there or not. -/
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-- Input window 2's current staging buffer holds its block at every position, fetched there or not. -/
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-- Input window 3's current staging buffer holds its block at every position, fetched there or not. -/
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-- Input window 4's current staging buffer holds its block at every position, fetched there or not. -/
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

/-- At a later position the output cell's staging buffer holds what the body left at the position before: the
    cell is written back after the last position only. -/
theorem before1_5_later (c : Dev nD) (t : Fin cfg1.N) (h0 : ¬t.val % 6 = 0) (d) :
    (dat1 V c).before 5 t d = acc1 V c (t.val - 1) (Nat.lt_of_le_of_lt (Nat.sub_le _ _) t.isLt) := by
  have hN : t.val < 6 := lt_of_lt_of_eq t.isLt (show cfg1.N = 6 from N_1)
  rw [Dat.before_out_kept _ 5 rfl t (by omega) (Bool.eq_false_iff.mpr fun h => by have := (flush1_5 _).mp h; dsimp only at this; omega)
    (fun _ => rfl) (fun _ _ => rfl)]
  dsimp only [dat1]

/-! ## The body's two runs -/

set_option maxHeartbeats 1000000 in
/-- The body at the first position, on whole staging memrefs holding the five input blocks and the cell at
    anything: it zeroes the cell, then runs to the continuation with the inputs as they were and the cell at the
    block's partial sum added to zero. -/
theorem run1_first (c : Dev nD) (E : Set ℕ) (i : grid1.Coords)
    (arg1 : Memref sig .tc .vmem S200x6000 .f32) (harg1 : arg1.IsWhole) (arg2 : Memref sig .tc .vmem S200x3 .f32) (harg2 : arg2.IsWhole)
    (arg3 : Memref sig .tc .vmem S3x6000 .f32) (harg3 : arg3.IsWhole) (arg4 : Memref sig .tc .vmem S1x6000 .f32) (harg4 : arg4.IsWhole)
    (arg5 : Memref sig .tc .vmem S200x1 .f32) (harg5 : arg5.IsWhole) (arg6 : Memref sig .tc .vmem S1x1 .f32) (harg6 : arg6.IsWhole)
    (hc : cond1 i)
    (x0 : Vec F S200x6000 .f32) (x1 : Vec F S200x3 .f32) (x2 : Vec F S3x6000 .f32) (x3 : Vec F S1x6000 .f32) (x4 : Vec F S200x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k1_pay2 x1 x2 x0 x3 x4 k1_pay1)) -∗ K ⟨⟩))
      ⊢ wp frame (wpE (defs₀ (F := F)) Variants.none c none) E (cc1__se_kernel i arg1 harg1 arg2 harg2 arg3 harg3 arg4 harg4 arg5 harg5 arg6 harg6) K := by
  simp only [cc1__se_kernel_eq_skeleton]; unfold cc1__se_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  unfold run1_first.sl.v26 run1_first.sl.H5_1
  have hz : (![0, 0] : Fin 2 → ℕ) = fun _ => 0 := by funext a; fin_cases a <;> rfl
  rw [View.read_writes_eq_canon _ _ _ (fun y => ⟨_, List.mem_cons.mpr (Or.inl rfl), View.mem_set_unit_zero (S := S1x1) hz inb_S1x1_S1x1_0_0 y⟩),
    View.canon_cons_unit_zero (S := S1x1) hz, View.readCov_unit_zero (S := S1x1) _ hz]
  simp only [View.readAt_eq_ld, View.ld_unit_zero (S := S200x3) hz, View.ld_unit_zero (S := S3x6000) hz,
    View.ld_unit_zero (S := S200x6000) hz, View.ld_unit_zero (S := S1x6000) hz, View.ld_unit_zero (S := S200x1) hz]

set_option maxHeartbeats 1000000 in
/-- The body at a later position, on whole staging memrefs holding the five input blocks and the cell at its
    running contents `xo`: it runs to the continuation with the inputs as they were and the cell at the block's
    partial sum added to `xo`. -/
theorem run1_later (c : Dev nD) (E : Set ℕ) (i : grid1.Coords)
    (arg1 : Memref sig .tc .vmem S200x6000 .f32) (harg1 : arg1.IsWhole) (arg2 : Memref sig .tc .vmem S200x3 .f32) (harg2 : arg2.IsWhole)
    (arg3 : Memref sig .tc .vmem S3x6000 .f32) (harg3 : arg3.IsWhole) (arg4 : Memref sig .tc .vmem S1x6000 .f32) (harg4 : arg4.IsWhole)
    (arg5 : Memref sig .tc .vmem S200x1 .f32) (harg5 : arg5.IsWhole) (arg6 : Memref sig .tc .vmem S1x1 .f32) (harg6 : arg6.IsWhole)
    (hc : ¬cond1 i)
    (x0 : Vec F S200x6000 .f32) (x1 : Vec F S200x3 .f32) (x2 : Vec F S3x6000 .f32) (x3 : Vec F S1x6000 .f32) (x4 : Vec F S200x1 .f32)
    (xo : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare xo
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k1_pay2 x1 x2 x0 x3 x4 xo)) -∗ K ⟨⟩))
      ⊢ wp frame (wpE (defs₀ (F := F)) Variants.none c none) E (cc1__se_kernel i arg1 harg1 arg2 harg2 arg3 harg3 arg4 harg4 arg5 harg5 arg6 harg6) K := by
  simp only [cc1__se_kernel_eq_skeleton]; unfold cc1__se_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0 hf1 hf2 hf3 hf4 hf5
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  have hz : (![0, 0] : Fin 2 → ℕ) = fun _ => 0 := by funext a; fin_cases a <;> rfl
  rw [View.read_writes_eq_canon _ _ _ (fun y => ⟨_, List.mem_cons.mpr (Or.inl rfl), View.mem_set_unit_zero (S := S1x1) hz inb_S1x1_S1x1_0_0 y⟩),
    View.canon_unit_zero (S := S1x1) hz]
  simp only [View.readAt_eq_ld, View.ld_unit_zero (S := S200x3) hz, View.ld_unit_zero (S := S3x6000) hz,
    View.ld_unit_zero (S := S200x6000) hz, View.ld_unit_zero (S := S1x6000) hz, View.ld_unit_zero (S := S200x1) hz,
    View.ld_unit_zero (S := S1x1) hz]

/-! ## The body obligation, at a generic position -/

/-- What the body is called with at position `t`: the invariant, nothing owed, and each window's current
    staging buffer at what it holds there. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it returns: the same, each buffer at what the proof data say the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 800000 in
/-- The body at any position: the inputs' buffers hold their blocks; at the first position the cell holds anything
    and is zeroed before the sum is added, at a later one it holds the running sum the position before left. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  by_cases h0 : t.val % 6 = 0
  · rw [acc1_first V c t h0]
    iintro ⟨HΦ, Ho, ⟨%d0, H0⟩, ⟨%d1, H1⟩, ⟨%d2, H2⟩, ⟨%d3, H3⟩, ⟨%d4, H4⟩, ⟨%d5, H5⟩⟩
    iapply (run1_first c Set.univ (grid1.coords t) _ _ _ _ _ _ _ _ _ _ _ _ ((hcond1 t).mpr h0) (iblk1 V c 0 t) (iblk1 V c 1 t) (iblk1 V c 2 t) (iblk1 V c 3 t) (iblk1 V c 4 t) _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc1_later V c t h0]
    simp only [before1_5_later V c t h0]
    iintro ⟨HΦ, Ho, ⟨%d0, H0⟩, ⟨%d1, H1⟩, ⟨%d2, H2⟩, ⟨%d3, H3⟩, ⟨%d4, H4⟩, ⟨%d5, H5⟩⟩
    iapply (run1_later c Set.univ (grid1.coords t) _ _ _ _ _ _ _ _ _ _ _ _ (fun h => h0 ((hcond1 t).mp h)) (iblk1 V c 0 t) (iblk1 V c 1 t) (iblk1 V c 2 t) (iblk1 V c 3 t) (iblk1 V c 4 t)
      (acc1 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The pipeline's body obligation, at every position. -/
theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.KI.Region2.lean ====
import proofs.«125036_j5205500362863_1_alg».proof.Proof.Gen.KernelIdeal.Launch
import proofs.«125036_j5205500362863_1_alg».proof.Proof.Gen.KernelIdeal.Skeleton
import proofs.«125036_j5205500362863_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the output cell holds after the body at position `n`: the zero cell plus the partial sums of the
    blocks at positions `0 … n`, one block's sum added per position. -/
def acc2 (c : Dev nD) : (n : ℕ) → n < cfg2.N → Vec F S1x1 .f32
  | 0, hn => k2_pay2 (iblk2 V c 0 ⟨0, hn⟩) (iblk2 V c 2 ⟨0, hn⟩) (iblk2 V c 1 ⟨0, hn⟩) k2_pay1
  | n + 1, hn => k2_pay2 (iblk2 V c 0 ⟨n + 1, hn⟩) (iblk2 V c 2 ⟨n + 1, hn⟩) (iblk2 V c 1 ⟨n + 1, hn⟩) (acc2 c n (Nat.lt_of_succ_lt hn))

/-- The pipeline's proof data on core `c`: the arrays as the region finds them; after the body at a point each
    input's buffer at its block and the output cell at the running sum; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => acc2 V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = acc2 V c t.val t.isLt := by dsimp only [dat2]

/-! ## The body's branch condition -/

/-- The body's one conditional, from the grid coordinates: "this is the first position". -/
abbrev cond2 (i : grid2.Coords) : Prop := (Scalar.cmpi .ne (Scalar.extui (Scalar.cmpi .eq (BitVec.ofNat 32 (i 0).val) 0#32)) 0#32) = 1#1
/-- It holds at the first position only: decided over the six points. -/
theorem hcond2 : ∀ t : Fin cfg2.N, cond2 (grid2.coords t) ↔ t.val % 6 = 0 :=
  (by decide +kernel : ∀ t : Fin grid2.N, cond2 (grid2.coords t) ↔ t.val % 6 = 0)

/-- The running sum at the first position: the block's sum over the zero cell. -/
theorem acc2_first (c : Dev nD) (t : Fin cfg2.N) (h0 : t.val % 6 = 0) :
    acc2 V c t.val t.isLt = k2_pay2 (iblk2 V c 0 t) (iblk2 V c 2 t) (iblk2 V c 1 t) k2_pay1 := by
  obtain ⟨n, hn⟩ := t
  have hN : n < 6 := lt_of_lt_of_eq hn (show cfg2.N = 6 from N_2)
  cases n with
  | zero => exact rfl
  | succ n => exact absurd h0 (by dsimp only; omega)

/-- The running sum at a later position: the block's sum over what the position before left. -/
theorem acc2_later (c : Dev nD) (t : Fin cfg2.N) (h0 : ¬t.val % 6 = 0) :
    acc2 V c t.val t.isLt = k2_pay2 (iblk2 V c 0 t) (iblk2 V c 2 t) (iblk2 V c 1 t)
      (acc2 V c (t.val - 1) (Nat.lt_of_le_of_lt (Nat.sub_le _ _) t.isLt)) := by
  obtain ⟨n, hn⟩ := t
  cases n with
  | zero => exact absurd (Nat.zero_mod _) h0
  | succ n => exact rfl

/-! ## What each window's staging buffer holds when the body is called -/

/-- Input window 0's current staging buffer holds its block at every position, fetched there or not. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)

/-- Input window 1's current staging buffer holds its block at every position, fetched there or not. -/
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

/-- Input window 2's current staging buffer holds its block at every position, fetched there or not. -/
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)

/-- At a later position the output cell's staging buffer holds what the body left at the position before: the
    cell is written back after the last position only. -/
theorem before2_3_later (c : Dev nD) (t : Fin cfg2.N) (h0 : ¬t.val % 6 = 0) (d) :
    (dat2 V c).before 3 t d = acc2 V c (t.val - 1) (Nat.lt_of_le_of_lt (Nat.sub_le _ _) t.isLt) := by
  have hN : t.val < 6 := lt_of_lt_of_eq t.isLt (show cfg2.N = 6 from N_2)
  rw [Dat.before_out_kept _ 3 rfl t (by omega) (Bool.eq_false_iff.mpr fun h => by have := (flush2_3 _).mp h; dsimp only at this; omega)
    (fun _ => rfl) (fun _ _ => rfl)]
  dsimp only [dat2]

/-! ## The body's two runs -/

set_option maxHeartbeats 1000000 in
/-- The body at the first position, on whole staging memrefs holding the three input blocks and the cell at
    anything: it zeroes the cell, then runs to the continuation with the inputs as they were and the cell at the
    block's partial sum added to zero. -/
theorem run2_first (c : Dev nD) (E : Set ℕ) (i : grid2.Coords)
    (arg1 : Memref sig .tc .vmem S400x6000 .f32) (harg1 : arg1.IsWhole) (arg2 : Memref sig .tc .vmem S400x3 .f32) (harg2 : arg2.IsWhole)
    (arg3 : Memref sig .tc .vmem S6000x3 .f32) (harg3 : arg3.IsWhole) (arg4 : Memref sig .tc .vmem S1x1 .f32) (harg4 : arg4.IsWhole)
    (hc : cond2 i)
    (x0 : Vec F S400x6000 .f32) (x1 : Vec F S400x3 .f32) (x2 : Vec F S6000x3 .f32)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k2_pay2 x0 x2 x1 k2_pay1)) -∗ K ⟨⟩))
      ⊢ wp frame (wpE (defs₀ (F := F)) Variants.none c none) E (cc2__trace_kernel i arg1 harg1 arg2 harg2 arg3 harg3 arg4 harg4) K := by
  simp only [cc2__trace_kernel_eq_skeleton]; unfold cc2__trace_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  unfold run2_first.sl.v17 run2_first.sl.H3_1
  have hz : (![0, 0] : Fin 2 → ℕ) = fun _ => 0 := by funext a; fin_cases a <;> rfl
  rw [View.read_writes_eq_canon _ _ _ (fun y => ⟨_, List.mem_cons.mpr (Or.inl rfl), View.mem_set_unit_zero (S := S1x1) hz inb_S1x1_S1x1_0_0 y⟩),
    View.canon_cons_unit_zero (S := S1x1) hz, View.readCov_unit_zero (S := S1x1) _ hz]
  simp only [View.readAt_eq_ld, View.ld_unit_zero (S := S400x6000) hz, View.ld_unit_zero (S := S6000x3) hz,
    View.ld_unit_zero (S := S400x3) hz]

set_option maxHeartbeats 1000000 in
/-- The body at a later position, on whole staging memrefs holding the three input blocks and the cell at its
    running contents `xo`: it runs to the continuation with the inputs as they were and the cell at the block's
    partial sum added to `xo`. -/
theorem run2_later (c : Dev nD) (E : Set ℕ) (i : grid2.Coords)
    (arg1 : Memref sig .tc .vmem S400x6000 .f32) (harg1 : arg1.IsWhole) (arg2 : Memref sig .tc .vmem S400x3 .f32) (harg2 : arg2.IsWhole)
    (arg3 : Memref sig .tc .vmem S6000x3 .f32) (harg3 : arg3.IsWhole) (arg4 : Memref sig .tc .vmem S1x1 .f32) (harg4 : arg4.IsWhole)
    (hc : ¬cond2 i)
    (x0 : Vec F S400x6000 .f32) (x1 : Vec F S400x3 .f32) (x2 : Vec F S6000x3 .f32) (xo : Vec F S1x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xo
        ∗ (iprop(owns (c : Thread nD τ) arg1 fullShare x0 ∗ owns (c : Thread nD τ) arg2 fullShare x1 ∗ owns (c : Thread nD τ) arg3 fullShare x2
            ∗ owns (c : Thread nD τ) arg4 fullShare (k2_pay2 x0 x2 x1 xo)) -∗ K ⟨⟩))
      ⊢ wp frame (wpE (defs₀ (F := F)) Variants.none c none) E (cc2__trace_kernel i arg1 harg1 arg2 harg2 arg3 harg3 arg4 harg4) K := by
  simp only [cc2__trace_kernel_eq_skeleton]; unfold cc2__trace_kernel_skel
  unfold owns
  iintro ⟨⟨%f0, %hf0, H0⟩, ⟨%f1, %hf1, H1⟩, ⟨%f2, %hf2, H2⟩, ⟨%f3, %hf3, H3⟩, Hk⟩
  subst hf0 hf1 hf2 hf3
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  have hz : (![0, 0] : Fin 2 → ℕ) = fun _ => 0 := by funext a; fin_cases a <;> rfl
  rw [View.read_writes_eq_canon _ _ _ (fun y => ⟨_, List.mem_cons.mpr (Or.inl rfl), View.mem_set_unit_zero (S := S1x1) hz inb_S1x1_S1x1_0_0 y⟩),
    View.canon_unit_zero (S := S1x1) hz]
  simp only [View.readAt_eq_ld, View.ld_unit_zero (S := S400x6000) hz, View.ld_unit_zero (S := S6000x3) hz,
    View.ld_unit_zero (S := S400x3) hz, View.ld_unit_zero (S := S1x1) hz]

/-! ## The body obligation, at a generic position -/

/-- What the body is called with at position `t`: the invariant, nothing owed, and each window's current
    staging buffer at what it holds there. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- What it returns: the same, each buffer at what the proof data say the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

set_option maxHeartbeats 800000 in
/-- The body at any position: the inputs' buffers hold their blocks; at the first position the cell holds anything
    and is zeroed before the sum is added, at a later one it holds the running sum the position before left. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  by_cases h0 : t.val % 6 = 0
  · rw [acc2_first V c t h0]
    iintro ⟨HΦ, Ho, ⟨%d0, H0⟩, ⟨%d1, H1⟩, ⟨%d2, H2⟩, ⟨%d3, H3⟩⟩
    iapply (run2_first c Set.univ (grid2.coords t) _ _ _ _ _ _ _ _ ((hcond2 t).mpr h0) (iblk2 V c 0 t) (iblk2 V c 1 t) (iblk2 V c 2 t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [acc2_later V c t h0]
    simp only [before2_3_later V c t h0]
    iintro ⟨HΦ, Ho, ⟨%d0, H0⟩, ⟨%d1, H1⟩, ⟨%d2, H2⟩, ⟨%d3, H3⟩⟩
    iapply (run2_later c Set.univ (grid2.coords t) _ _ _ _ _ _ _ _ (fun h => h0 ((hcond2 t).mp h)) (iblk2 V c 0 t) (iblk2 V c 1 t) (iblk2 V c 2 t)
      (acc2 V c (t.val - 1) (Nat.lt_of_le_of_lt (Nat.sub_le _ _) t.isLt)) _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The pipeline's body obligation, at every position. -/
theorem body_obligation2 (c : Dev nD) : BodyObligation (dat2 (F := F) V c) (defs₀ (F := F)) Variants.none () Set.univ := fun t => by
  rw [bigSep_W2, bigSep_W2]
  exact sound_body2 V c t

end

end Cert.KernelIdeal.Hand

end
-- ==== Proof.KI.Exits.lean ====
/- The buffer contents at the exits of @main's three regions and at its end: each region's arrays at what its pipeline
   leaves, every other buffer as the region found it; then what the closing host stretch leaves. -/
import proofs.«125036_j5205500362863_1_alg».proof.Proof.KI.Fold
import proofs.«125036_j5205500362863_1_alg».proof.Proof.KI.Region0
import proofs.«125036_j5205500362863_1_alg».proof.Proof.KI.Region1
import proofs.«125036_j5205500362863_1_alg».proof.Proof.KI.Region2
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At region 0's exit: its arrays at what the pipeline leaves (the inputs as entered, the output cell's write-back
    folded), every other buffer as entered. -/
def W5 (c : Dev nD) : Valuation τ sig (Elt F) :=
  Pipeline.withArrays spec0 c (W4 m ρ c) fun w => (dat0 (V4 m ρ) c).arrAt w cfg0.N
theorem W5_arr (c : Dev nD) (w : Fin cfg0.W) :
    W5 m ρ c (Proc.devRef .tc (Pipeline.arrRef spec0 w)) = (dat0 (V4 m ρ) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m ρ c (Proc.devRef .tc b) = W4 m ρ c (Proc.devRef .tc b) := by
  unfold W5; exact Pipeline.withArrays_of_ne spec0 c _ _ b hb
/-- The same read at the TensorCore's references (region 0's exit contents). -/
abbrev V5 : (c : Dev nD) → (b : Ref sig .tc) → Buf (Elt F) ((c : Thread nD τ).loc b) := fun c b => W5 m ρ c b
/-- At region 0's exit each of its arrays holds what the pipeline leaves and every other buffer what it held at entry. -/
theorem hF0 (c : Dev nD) (w : Fin cfg0.W) : (dat0 (V4 m ρ) c).arrAt w cfg0.N = V5 m ρ c (Pipeline.arrRef spec0 w) :=
  (W5_arr m ρ c w).symm
theorem hrest0 (c : Dev nD) : ∀ b, b ∉ Finset.univ.image (Pipeline.arrRef spec0) → V5 m ρ c b = V4 m ρ c b :=
  fun b hb => W5_of_ne m ρ c b fun w e => hb (Finset.mem_image.mpr ⟨w, Finset.mem_univ _, e⟩)

/-- At region 1's exit: its arrays at what the pipeline leaves (the inputs as entered, the output cell's write-back
    folded), every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same read at the TensorCore's references (region 1's exit contents). -/
abbrev V6 : (c : Dev nD) → (b : Ref sig .tc) → Buf (Elt F) ((c : Thread nD τ).loc b) := fun c b => W6 m ρ c b
/-- At region 1's exit each of its arrays holds what the pipeline leaves and every other buffer what it held at entry. -/
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- At region 2's exit: its arrays at what the pipeline leaves (the inputs as entered, the output cell's write-back
    folded), every other buffer as entered. -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
/-- The same read at the TensorCore's references (region 2's exit contents). -/
abbrev V7 : (c : Dev nD) → (b : Ref sig .tc) → Buf (Elt F) ((c : Thread nD τ).loc b) := fun c b => W7 m ρ c b
/-- At region 2's exit each of its arrays holds what the pipeline leaves and every other buffer what it held at entry. -/
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)

/-- After the closing host stretch: the final contents. -/
abbrev W8 : Dev nD → Valuation τ sig (Elt F) := fun c => StableHlo.after hostOps3 (W7 m ρ c)

end Cert.KernelIdeal.Hand

end
-- ==== Proof.KI.Host.lean ====
/- What @main's host stretches write: every operation writes one buffer, none of them an argument array, and none
   allocates; so an argument array is through every stretch what it was before it. -/
import proofs.«125036_j5205500362863_1_alg».proof.Proof.Gen.KernelIdeal.Launch
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A reference that is not one of @main's sixteen argument arrays (those are the first sixteen buffers of HBM). -/
abbrev notArg (y : Ref sig .tc) : Prop := y.space ≠ .hbm ∨ 16 ≤ y.idx.val

/-- A line whose every operation writes exactly one buffer, each satisfying `P`, leaves a buffer not satisfying
    `P` as it was. -/
theorem after_keep (P : Ref sig .tc → Prop) (ops : List (HloOp τ sig (Elt F)))
    (h : ops.Forall fun op => ∃ y : Ref sig .tc, P y ∧ op.writes = {Proc.devRef .tc y})
    (V : Valuation τ sig (Elt F)) (r : Ref sig .tc) (hr : ¬ P r) :
    StableHlo.after ops V (Proc.devRef .tc r) = V (Proc.devRef .tc r) :=
  StableHlo.after_of_forall_not_mem ops V fun op hop hb => by
    obtain ⟨y, hy, he⟩ := (List.forall_iff_forall_mem.mp h) op hop
    rw [he, Finset.mem_singleton] at hb
    exact hr (Proc.devRef_injective _ hb ▸ hy)

set_option maxHeartbeats 4000000 in
/-- Each operation of `hostOps0` writes one buffer, not an argument array. -/
theorem hostOps0_keep : (hostOps0 : List (HloOp τ sig (Elt F))).Forall fun op => ∃ y : Ref sig .tc, notArg y ∧ op.writes = {Proc.devRef .tc y} :=
  ⟨⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩⟩
set_option maxHeartbeats 4000000 in
/-- No operation of `hostOps0` allocates a buffer. -/
theorem hostOps0_fresh : (hostOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 4000000 in
/-- Each operation of `hostOps0_1` writes one buffer, not an argument array. -/
theorem hostOps0_1_keep : (hostOps0_1 : List (HloOp τ sig (Elt F))).Forall fun op => ∃ y : Ref sig .tc, notArg y ∧ op.writes = {Proc.devRef .tc y} :=
  ⟨⟨_, by decide, rfl⟩, ⟨_, by decide, rfl⟩, ⟨_, by decide, rfl⟩, ⟨_, by decide, rfl⟩⟩
set_option maxHeartbeats 4000000 in
/-- No operation of `hostOps0_1` allocates a buffer. -/
theorem hostOps0_1_fresh : (hostOps0_1 : List (HloOp τ sig (Elt F))).Forall fun op => op.fresh = ∅ :=
  ⟨rfl, rfl, rfl, rfl⟩

set_option maxHeartbeats 4000000 in
/-- Each operation of `hostOps0_2` writes one buffer, not an argument array. -/
theorem hostOps0_2_keep : (hostOps0_2 : List (HloOp τ sig (Elt F))).Forall fun op => ∃ y : Ref sig .tc, notArg y ∧ op.writes = {Proc.devRef .tc y} :=
  ⟨⟨_, by decide, rfl⟩, ⟨_, by decide, rfl⟩, ⟨_, by decide, rfl⟩, ⟨_, by decide, rfl⟩⟩
set_option maxHeartbeats 4000000 in
/-- No operation of `hostOps0_2` allocates a buffer. -/
theorem hostOps0_2_fresh : (hostOps0_2 : List (HloOp τ sig (Elt F))).Forall fun op => op.fresh = ∅ :=
  ⟨rfl, rfl, rfl, rfl⟩

set_option maxHeartbeats 4000000 in
/-- Each operation of `hostOps0_3` writes one buffer, not an argument array. -/
theorem hostOps0_3_keep : (hostOps0_3 : List (HloOp τ sig (Elt F))).Forall fun op => ∃ y : Ref sig .tc, notArg y ∧ op.writes = {Proc.devRef .tc y} :=
  ⟨⟨_, by decide, rfl⟩, ⟨_, by decide, rfl⟩, ⟨_, by decide, rfl⟩, ⟨_, by decide, rfl⟩⟩
set_option maxHeartbeats 4000000 in
/-- No operation of `hostOps0_3` allocates a buffer. -/
theorem hostOps0_3_fresh : (hostOps0_3 : List (HloOp τ sig (Elt F))).Forall fun op => op.fresh = ∅ :=
  ⟨rfl, rfl, rfl, rfl⟩

set_option maxHeartbeats 4000000 in
/-- Each operation of `hostOps3` writes one buffer, not an argument array. -/
theorem hostOps3_keep : (hostOps3 : List (HloOp τ sig (Elt F))).Forall fun op => ∃ y : Ref sig .tc, notArg y ∧ op.writes = {Proc.devRef .tc y} :=
  ⟨⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩⟩
set_option maxHeartbeats 4000000 in
/-- No operation of `hostOps3` allocates a buffer. -/
theorem hostOps3_fresh : (hostOps3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

end Cert.KernelIdeal.Hand

end
-- ==== Proof.KI.Run.lean ====
/- The run of @main over its eight segments — four host stretches, the three regions back to back, the closing host
   stretch — from the launch memory to the final contents: every unscoped buffer ends at what the fold through the
   segments computes. -/
import proofs.«125036_j5205500362863_1_alg».proof.Proof.KI.Exits
import proofs.«125036_j5205500362863_1_alg».proof.Proof.KI.Host
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V4 m ρ) c
  | ⟨1, _⟩ => fun c => dat1 (V5 m ρ) c
  | ⟨2, _⟩ => fun c => dat2 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it runs to
    those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the final contents, the generator register
    at some state. -/
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- REGION 0 over the thread state: entered from every unscoped buffer at `W4`, left at `W5`. Its arrays are
    split out of the unscoped buffers and put back at the exit contents; the generator register goes into the
    class invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V4 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec0 c (V4 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V4 m ρ c) (V5 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W5`, left at `W6`. Its arrays are
    split out of the unscoped buffers and put back at the exit contents; the generator register goes into the
    class invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W6`, left at `W7`. Its arrays are
    split out of the unscoped buffers and put back at the exit contents; the generator register goes into the
    class invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's eight segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .region (reg0 m ρ),
    .region (reg1 m ρ),
    .region (reg2 m ρ),
    .host (hseg hostOps3 hostOps3_sub hostOps3_fresh (W7 m ρ)) ]
/-- @main IS the run of the segments. -/
theorem main_run (c : Dev nD) : main (F := F) c = Pipeline.Seg.run (segs m ρ) := (main_chain c).trans (by chain_rfl)

set_option backward.isDefEq.respectTransparency.types false in
/-- The launch over the segments: from any memory with zero counters every weakly fair execution of @main on the
    TensorCores terminates, nothing faulting, and every final state satisfies whatever follows from its unscoped
    buffers holding the final contents `W8`. -/
theorem run_of {Q : PUnit × MemSt nD τ sig (Elt F) → Prop}
    (hQ : ∀ s : MemSt nD τ sig (Elt F), (∀ c : Dev nD, ∀ b ∈ Pipeline.ucRefs τ sig, s.mem (((c : Thread nD τ)).1, b) = W8 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W8 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := hQ)

/-- Every unscoped buffer ends at `W8`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W8 m ρ c b) :=
  run_of m ρ fun s h => h

end Cert.KernelIdeal.Hand

end
-- ==== Proof.KI.Args.lean ====
/- The argument arrays end as launched: no host operation writes one and no region has one among its arrays, so the
   fold through @main's segments at an argument's buffer walks back to the launch memory. -/
import proofs.«125036_j5205500362863_1_alg».proof.Proof.KI.Exits
import proofs.«125036_j5205500362863_1_alg».proof.Proof.KI.Host

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At region 0's entry an argument array is as launched: none of the four leading host stretches writes it. -/
theorem W4_arg (c : Dev nD) (r : Ref sig .tc) (hr : ¬ notArg r) :
    W4 m ρ c (Proc.devRef .tc r) = m ((c : Thread nD τ).loc r) :=
  calc W4 m ρ c (Proc.devRef .tc r)
    _ = W3 m ρ c (Proc.devRef .tc r) := after_keep notArg hostOps0_3 hostOps0_3_keep _ r hr
    _ = W2 m ρ c (Proc.devRef .tc r) := after_keep notArg hostOps0_2 hostOps0_2_keep _ r hr
    _ = W1 m ρ c (Proc.devRef .tc r) := after_keep notArg hostOps0_1 hostOps0_1_keep _ r hr
    _ = W0 m ρ c (Proc.devRef .tc r) := after_keep notArg hostOps0 hostOps0_keep _ r hr
    _ = m ((c : Thread nD τ).loc r) := rfl

theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := after_keep notArg hostOps3 hostOps3_keep _ main_arg0 (by decide)
    _ = W6 m ρ c (Proc.devRef .tc main_arg0) := W7_of_ne m ρ c main_arg0 (by decide)
    _ = W5 m ρ c (Proc.devRef .tc main_arg0) := W6_of_ne m ρ c main_arg0 (by decide)
    _ = W4 m ρ c (Proc.devRef .tc main_arg0) := W5_of_ne m ρ c main_arg0 (by decide)
    _ = m ((c : Thread nD τ).loc main_arg0) := W4_arg m ρ c main_arg0 (by decide)

theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := after_keep notArg hostOps3 hostOps3_keep _ main_arg1 (by decide)
    _ = W6 m ρ c (Proc.devRef .tc main_arg1) := W7_of_ne m ρ c main_arg1 (by decide)
    _ = W5 m ρ c (Proc.devRef .tc main_arg1) := W6_of_ne m ρ c main_arg1 (by decide)
    _ = W4 m ρ c (Proc.devRef .tc main_arg1) := W5_of_ne m ρ c main_arg1 (by decide)
    _ = m ((c : Thread nD τ).loc main_arg1) := W4_arg m ρ c main_arg1 (by decide)

theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := after_keep notArg hostOps3 hostOps3_keep _ main_arg2 (by decide)
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := W5_of_ne m ρ c main_arg2 (by decide)
    _ = m ((c : Thread nD τ).loc main_arg2) := W4_arg m ρ c main_arg2 (by decide)

theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := after_keep notArg hostOps3 hostOps3_keep _ main_arg3 (by decide)
    _ = W6 m ρ c (Proc.devRef .tc main_arg3) := W7_of_ne m ρ c main_arg3 (by decide)
    _ = W5 m ρ c (Proc.devRef .tc main_arg3) := W6_of_ne m ρ c main_arg3 (by decide)
    _ = W4 m ρ c (Proc.devRef .tc main_arg3) := W5_of_ne m ρ c main_arg3 (by decide)
    _ = m ((c : Thread nD τ).loc main_arg3) := W4_arg m ρ c main_arg3 (by decide)

theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := after_keep notArg hostOps3 hostOps3_keep _ main_arg4 (by decide)
    _ = W6 m ρ c (Proc.devRef .tc main_arg4) := W7_of_ne m ρ c main_arg4 (by decide)
    _ = W5 m ρ c (Proc.devRef .tc main_arg4) := W6_of_ne m ρ c main_arg4 (by decide)
    _ = W4 m ρ c (Proc.devRef .tc main_arg4) := W5_of_ne m ρ c main_arg4 (by decide)
    _ = m ((c : Thread nD τ).loc main_arg4) := W4_arg m ρ c main_arg4 (by decide)

theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := after_keep notArg hostOps3 hostOps3_keep _ main_arg5 (by decide)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := W5_of_ne m ρ c main_arg5 (by decide)
    _ = m ((c : Thread nD τ).loc main_arg5) := W4_arg m ρ c main_arg5 (by decide)

theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) := after_keep notArg hostOps3 hostOps3_keep _ main_arg6 (by decide)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := W5_of_ne m ρ c main_arg6 (by decide)
    _ = m ((c : Thread nD τ).loc main_arg6) := W4_arg m ρ c main_arg6 (by decide)

theorem W8_main_arg7 (c : Dev nD) : W8 m ρ c (Proc.devRef .tc main_arg7) = m ((c : Thread nD τ).loc main_arg7) :=
  calc W8 m ρ c (Proc.devRef .tc main_arg7)
    _ = W7 m ρ c (Proc.devRef .tc main_arg7) := after_keep notArg hostOps3 hostOps3_keep _ main_arg7 (by decide)
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := W5_of_ne m ρ c main_arg7 (by decide)
    _ = m ((c : Thread nD τ).loc main_arg7) := W4_arg m ρ c main_arg7 (by decide)

theorem W8_main_arg8 (c : Dev nD) : W8 m ρ c (Proc.devRef .tc main_arg8) = m ((c : Thread nD τ).loc main_arg8) :=
  calc W8 m ρ c (Proc.devRef .tc main_arg8)
    _ = W7 m ρ c (Proc.devRef .tc main_arg8) := after_keep notArg hostOps3 hostOps3_keep _ main_arg8 (by decide)
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := W5_of_ne m ρ c main_arg8 (by decide)
    _ = m ((c : Thread nD τ).loc main_arg8) := W4_arg m ρ c main_arg8 (by decide)

theorem W8_main_arg9 (c : Dev nD) : W8 m ρ c (Proc.devRef .tc main_arg9) = m ((c : Thread nD τ).loc main_arg9) :=
  calc W8 m ρ c (Proc.devRef .tc main_arg9)
    _ = W7 m ρ c (Proc.devRef .tc main_arg9) := after_keep notArg hostOps3 hostOps3_keep _ main_arg9 (by decide)
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := W5_of_ne m ρ c main_arg9 (by decide)
    _ = m ((c : Thread nD τ).loc main_arg9) := W4_arg m ρ c main_arg9 (by decide)

theorem W8_main_arg10 (c : Dev nD) : W8 m ρ c (Proc.devRef .tc main_arg10) = m ((c : Thread nD τ).loc main_arg10) :=
  calc W8 m ρ c (Proc.devRef .tc main_arg10)
    _ = W7 m ρ c (Proc.devRef .tc main_arg10) := after_keep notArg hostOps3 hostOps3_keep _ main_arg10 (by decide)
    _ = W6 m ρ c (Proc.devRef .tc main_arg10) := W7_of_ne m ρ c main_arg10 (by decide)
    _ = W5 m ρ c (Proc.devRef .tc main_arg10) := W6_of_ne m ρ c main_arg10 (by decide)
    _ = W4 m ρ c (Proc.devRef .tc main_arg10) := W5_of_ne m ρ c main_arg10 (by decide)
    _ = m ((c : Thread nD τ).loc main_arg10) := W4_arg m ρ c main_arg10 (by decide)

theorem W8_main_arg11 (c : Dev nD) : W8 m ρ c (Proc.devRef .tc main_arg11) = m ((c : Thread nD τ).loc main_arg11) :=
  calc W8 m ρ c (Proc.devRef .tc main_arg11)
    _ = W7 m ρ c (Proc.devRef .tc main_arg11) := after_keep notArg hostOps3 hostOps3_keep _ main_arg11 (by decide)
    _ = W6 m ρ c (Proc.devRef .tc main_arg11) := W7_of_ne m ρ c main_arg11 (by decide)
    _ = W5 m ρ c (Proc.devRef .tc main_arg11) := W6_of_ne m ρ c main_arg11 (by decide)
    _ = W4 m ρ c (Proc.devRef .tc main_arg11) := W5_of_ne m ρ c main_arg11 (by decide)
    _ = m ((c : Thread nD τ).loc main_arg11) := W4_arg m ρ c main_arg11 (by decide)

theorem W8_main_arg12 (c : Dev nD) : W8 m ρ c (Proc.devRef .tc main_arg12) = m ((c : Thread nD τ).loc main_arg12) :=
  calc W8 m ρ c (Proc.devRef .tc main_arg12)
    _ = W7 m ρ c (Proc.devRef .tc main_arg12) := after_keep notArg hostOps3 hostOps3_keep _ main_arg12 (by decide)
    _ = W6 m ρ c (Proc.devRef .tc main_arg12) := W7_of_ne m ρ c main_arg12 (by decide)
    _ = W5 m ρ c (Proc.devRef .tc main_arg12) := W6_of_ne m ρ c main_arg12 (by decide)
    _ = W4 m ρ c (Proc.devRef .tc main_arg12) := W5_of_ne m ρ c main_arg12 (by decide)
    _ = m ((c : Thread nD τ).loc main_arg12) := W4_arg m ρ c main_arg12 (by decide)

theorem W8_main_arg13 (c : Dev nD) : W8 m ρ c (Proc.devRef .tc main_arg13) = m ((c : Thread nD τ).loc main_arg13) :=
  calc W8 m ρ c (Proc.devRef .tc main_arg13)
    _ = W7 m ρ c (Proc.devRef .tc main_arg13) := after_keep notArg hostOps3 hostOps3_keep _ main_arg13 (by decide)
    _ = W6 m ρ c (Proc.devRef .tc main_arg13) := W7_of_ne m ρ c main_arg13 (by decide)
    _ = W5 m ρ c (Proc.devRef .tc main_arg13) := W6_of_ne m ρ c main_arg13 (by decide)
    _ = W4 m ρ c (Proc.devRef .tc main_arg13) := W5_of_ne m ρ c main_arg13 (by decide)
    _ = m ((c : Thread nD τ).loc main_arg13) := W4_arg m ρ c main_arg13 (by decide)

theorem W8_main_arg14 (c : Dev nD) : W8 m ρ c (Proc.devRef .tc main_arg14) = m ((c : Thread nD τ).loc main_arg14) :=
  calc W8 m ρ c (Proc.devRef .tc main_arg14)
    _ = W7 m ρ c (Proc.devRef .tc main_arg14) := after_keep notArg hostOps3 hostOps3_keep _ main_arg14 (by decide)
    _ = W6 m ρ c (Proc.devRef .tc main_arg14) := W7_of_ne m ρ c main_arg14 (by decide)
    _ = W5 m ρ c (Proc.devRef .tc main_arg14) := W6_of_ne m ρ c main_arg14 (by decide)
    _ = W4 m ρ c (Proc.devRef .tc main_arg14) := W5_of_ne m ρ c main_arg14 (by decide)
    _ = m ((c : Thread nD τ).loc main_arg14) := W4_arg m ρ c main_arg14 (by decide)

theorem W8_main_arg15 (c : Dev nD) : W8 m ρ c (Proc.devRef .tc main_arg15) = m ((c : Thread nD τ).loc main_arg15) :=
  calc W8 m ρ c (Proc.devRef .tc main_arg15)
    _ = W7 m ρ c (Proc.devRef .tc main_arg15) := after_keep notArg hostOps3 hostOps3_keep _ main_arg15 (by decide)
    _ = W6 m ρ c (Proc.devRef .tc main_arg15) := W7_of_ne m ρ c main_arg15 (by decide)
    _ = W5 m ρ c (Proc.devRef .tc main_arg15) := W6_of_ne m ρ c main_arg15 (by decide)
    _ = W4 m ρ c (Proc.devRef .tc main_arg15) := W5_of_ne m ρ c main_arg15 (by decide)
    _ = m ((c : Thread nD τ).loc main_arg15) := W4_arg m ρ c main_arg15 (by decide)

end Cert.KernelIdeal.Hand

end
-- ==== Proof.KI.Frame.lean ====
/- The frame of @main at any float instance: from any memory with zero counters every weakly fair execution on the
   TensorCores terminates, nothing faulting, and every final state has the sixteen argument arrays as launched; and
   the same run with the result array named. -/
import proofs.«125036_j5205500362863_1_alg».proof.Proof.KI.Run
import proofs.«125036_j5205500362863_1_alg».proof.Proof.KI.Args

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  run_of m ρ fun s h c => ⟨
    (h c _ (mem_uc main_arg0 (by decide))).trans (W8_main_arg0 m ρ c),
    (h c _ (mem_uc main_arg1 (by decide))).trans (W8_main_arg1 m ρ c),
    (h c _ (mem_uc main_arg2 (by decide))).trans (W8_main_arg2 m ρ c),
    (h c _ (mem_uc main_arg3 (by decide))).trans (W8_main_arg3 m ρ c),
    (h c _ (mem_uc main_arg4 (by decide))).trans (W8_main_arg4 m ρ c),
    (h c _ (mem_uc main_arg5 (by decide))).trans (W8_main_arg5 m ρ c),
    (h c _ (mem_uc main_arg6 (by decide))).trans (W8_main_arg6 m ρ c),
    (h c _ (mem_uc main_arg7 (by decide))).trans (W8_main_arg7 m ρ c),
    (h c _ (mem_uc main_arg8 (by decide))).trans (W8_main_arg8 m ρ c),
    (h c _ (mem_uc main_arg9 (by decide))).trans (W8_main_arg9 m ρ c),
    (h c _ (mem_uc main_arg10 (by decide))).trans (W8_main_arg10 m ρ c),
    (h c _ (mem_uc main_arg11 (by decide))).trans (W8_main_arg11 m ρ c),
    (h c _ (mem_uc main_arg12 (by decide))).trans (W8_main_arg12 m ρ c),
    (h c _ (mem_uc main_arg13 (by decide))).trans (W8_main_arg13 m ρ c),
    (h c _ (mem_uc main_arg14 (by decide))).trans (W8_main_arg14 m ρ c),
    (h c _ (mem_uc main_arg15 (by decide))).trans (W8_main_arg15 m ρ c)⟩

/-- The same run with the result array at the final contents. -/
theorem run_val : θ_run defs (onTc (τ := τ) (main (F := F))) ⟨m, fun _ => 0, ρ⟩ (fun r => ∀ c : Dev nD,
      r.2.mem ((c.tc : Thread nD τ).loc main_v172) = W8 m ρ c (Proc.devRef .tc main_v172)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  run_of m ρ fun s h c => ⟨h c _ (mem_uc main_v172 (by decide)),
    (h c _ (mem_uc main_arg0 (by decide))).trans (W8_main_arg0 m ρ c),
    (h c _ (mem_uc main_arg1 (by decide))).trans (W8_main_arg1 m ρ c),
    (h c _ (mem_uc main_arg2 (by decide))).trans (W8_main_arg2 m ρ c),
    (h c _ (mem_uc main_arg3 (by decide))).trans (W8_main_arg3 m ρ c),
    (h c _ (mem_uc main_arg4 (by decide))).trans (W8_main_arg4 m ρ c),
    (h c _ (mem_uc main_arg5 (by decide))).trans (W8_main_arg5 m ρ c),
    (h c _ (mem_uc main_arg6 (by decide))).trans (W8_main_arg6 m ρ c),
    (h c _ (mem_uc main_arg7 (by decide))).trans (W8_main_arg7 m ρ c),
    (h c _ (mem_uc main_arg8 (by decide))).trans (W8_main_arg8 m ρ c),
    (h c _ (mem_uc main_arg9 (by decide))).trans (W8_main_arg9 m ρ c),
    (h c _ (mem_uc main_arg10 (by decide))).trans (W8_main_arg10 m ρ c),
    (h c _ (mem_uc main_arg11 (by decide))).trans (W8_main_arg11 m ρ c),
    (h c _ (mem_uc main_arg12 (by decide))).trans (W8_main_arg12 m ρ c),
    (h c _ (mem_uc main_arg13 (by decide))).trans (W8_main_arg13 m ρ c),
    (h c _ (mem_uc main_arg14 (by decide))).trans (W8_main_arg14 m ρ c),
    (h c _ (mem_uc main_arg15 (by decide))).trans (W8_main_arg15 m ρ c)⟩

end Cert.KernelIdeal.Hand

end
-- ==== Proof.Spec.lean ====
/-
  The mathematics both programs compute, stated once over extended-real arrays.

  For an M × N data matrix X, a rank-3 factorisation PA · BT, a row of column biases BC and a column of row
  biases BR, the squared-error sum is  Σ_i Σ_j (X i j − Σ_k PA i k · BT k j − BC 0 j − BR i 0)².
  For a matrix A and two 3-column factors PG, PR the trace sum is  Σ_i Σ_k (Σ_j A i j · PR j k) · PG i k.
  The result vector has five entries: the weighted total, the three weighted losses, and a last entry z that is
  also added to the total;  l1 = 1000 · (s1 / 2 880 000),  l2 = 1000 · (s2 / 7 200 000),  l3 = 100 · (−s3).
-/
import Idealize.ShloMosaic.PureOps.Ideal
import Idealize.ShloMosaic.PureOps.Ideal.Laws
import Idealize.ShloMosaic.Lib.ValueIdx

noncomputable section

namespace Cert.Loss

open Idealize.ShloMosaic Idealize.ShloMosaic.ValueIdx

/-- The rank-0 shape, a vector of one entry, a vector of five, an a × b matrix. -/
abbrev Sc : Shape := ⟨0, ![]⟩
abbrev V1 : Shape := ⟨1, ![1]⟩
abbrev V5 : Shape := ⟨1, ![5]⟩
abbrev Mat (a b : ℕ) : Shape := ⟨2, ![a, b]⟩

/-- The residual at (i, j): the entry less the rank-3 prediction, less the column's bias, less the row's bias. -/
def resid {M N : ℕ} (X : (Mat M N).Idx → EReal) (PA : (Mat M 3).Idx → EReal) (BT : (Mat 3 N).Idx → EReal)
    (BC : (Mat 1 N).Idx → EReal) (BR : (Mat M 1).Idx → EReal) (i : Fin M) (j : Fin N) : EReal :=
  X (ix2 i j) - (∑ k : Fin 3, PA (ix2 i k) * BT (ix2 k j)) - BC (ix2 (0 : Fin 1) j) - BR (ix2 i (0 : Fin 1))

/-- The sum of the squared residuals over the whole matrix. -/
def sqSum {M N : ℕ} (X : (Mat M N).Idx → EReal) (PA : (Mat M 3).Idx → EReal) (BT : (Mat 3 N).Idx → EReal)
    (BC : (Mat 1 N).Idx → EReal) (BR : (Mat M 1).Idx → EReal) : EReal :=
  ∑ i : Fin M, ∑ j : Fin N, resid X PA BT BC BR i j * resid X PA BT BC BR i j

/-- The trace of PGᵀ · A · PR, as the sum over rows i and factors k of (A · PR) i k · PG i k. -/
def trSum {M K : ℕ} (A : (Mat M K).Idx → EReal) (PG : (Mat M 3).Idx → EReal) (PR : (Mat K 3).Idx → EReal) : EReal :=
  ∑ i : Fin M, ∑ k : Fin 3, (∑ j : Fin K, A (ix2 i j) * PR (ix2 j k)) * PG (ix2 i k)

/-- The five results from the three sums and the last entry. -/
def tail (hb : Sc.BroadcastsInDim V1 (![] : Fin 0 → Fin V1.rank)) (hc : Shape.Concatenates [V1, V1, V1, V1, V1] V5 0)
    (s1 s2 s3 z : FVec Ideal Sc .f32) : FVec Ideal V5 .f32 :=
  let l1 : FVec Ideal Sc .f32 := mulf (constant (F := Ideal) Sc .f32 0x447A0000#32) (Host.divf (F := Ideal) s1 (constant (F := Ideal) Sc .f32 0x4A2FC800#32))
  let l2 : FVec Ideal Sc .f32 := mulf (constant (F := Ideal) Sc .f32 0x447A0000#32) (Host.divf (F := Ideal) s2 (constant (F := Ideal) Sc .f32 0x4ADBBA00#32))
  let l3 : FVec Ideal Sc .f32 := mulf (constant (F := Ideal) Sc .f32 0x42C80000#32) (Host.negf (F := Ideal) s3)
  concatenate V5 0 [⟨V1, broadcastInDim V1 ![] hb (addf (addf (addf l1 l2) l3) z)⟩, ⟨V1, broadcastInDim V1 ![] hb l1⟩,
    ⟨V1, broadcastInDim V1 ![] hb l2⟩, ⟨V1, broadcastInDim V1 ![] hb l3⟩, ⟨V1, broadcastInDim V1 ![] hb z⟩] hc

/-- On the extended reals zero times anything is zero, the infinities included: a term weighted by the literal zero is the
    literal zero. -/
theorem zero_mulf (x : FVec Ideal Sc .f32) :
    mulf (constant (F := Ideal) Sc .f32 0x00000000#32) x = constant (F := Ideal) Sc .f32 0x00000000#32 := by
  funext i
  simp only [mulf, constant, Ideal.mulf_def, Ideal.ofBits_def, Ideal.ofBits_zero_f32, zero_mul]

end Cert.Loss

end
-- ==== Proof.LibColumnCasts.lean ====
import Idealize.ShloMosaic.Lib.Pipeline.Value
import Idealize.ShloMosaic.Lib.ValueIdx

/-! # Column casts read at an index

A vector of length `a` seen as an `a × 1` column (what a sum along the last axis that keeps the axis produces),
and an `a × 1` column seen as a vector again. Both casts keep the row-major position: entry `i` of the vector is
entry `(i, 0)` of the column. Stated for any extent `a` and any element type, over indices written with
`ix1` / `ix2`, so that they apply to a printed cast by unification. -/

namespace ColumnCasts

open Idealize.ShloMosaic Idealize.ShloMosaic.ValueIdx

variable {α : Type}

/-- A length-`a` vector cast to an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column cast to a length-`a` vector reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end ColumnCasts
-- ==== Proof.LibColumnBroadcast.lean ====
import Idealize.ShloMosaic.Lib.Pipeline.Value
import Idealize.ShloMosaic.Lib.ValueIdx

/-! # A column broadcast along the last axis, read at an index

An `a × 1` column broadcast to `a × b` (what a row statistic kept as a column becomes when it is combined with the
whole row again) repeats entry `(i, 0)` along row `i`. Stated for any extents and any element type, over indices
written with `ix2`, so that it applies to a printed broadcast by unification. -/

namespace ColumnBroadcast

open Idealize.ShloMosaic Idealize.ShloMosaic.ValueIdx

variable {α : Type}

/-- An `a × 1` column broadcast to `a × b` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end ColumnBroadcast
-- ==== Proof.KI.Pay0.lean ====
/-
  The squared-error kernel's block payload read at its one index: the running value plus the block's sum of squared
  residuals.

  On a 200 × N block the payload forms PA · BT (a product accumulated into zero), subtracts it, the column bias row
  and the row bias column from the data block, squares, sums along each row, then down the column of row sums, and adds
  the result to the running 1 × 1 value. Over the extended reals each of these steps reads at an index as the plain
  arithmetic, so the whole is  running + Σ_r Σ_j resid(r, j)².
-/
import proofs.«125036_j5205500362863_1_alg».proof.Proof.Gen.KernelIdeal.Skeleton
import proofs.«125036_j5205500362863_1_alg».proof.Proof.Spec
import proofs.«125036_j5205500362863_1_alg».proof.Proof.LibColumnCasts
import proofs.«125036_j5205500362863_1_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx

/-- The left operand's index of the product at output (r, j): its row coordinate is the output's row; -/
theorem mm0_lhs_0 (i : S200x2400.Idx) (q : dot_S200x3_S3x2400_S200x2400_1_0_0_1_n_n.contr.Idx) :
    (dot_S200x3_S3x2400_S200x2400_1_0_0_1_n_n.lhsIdx i q 0).val = (i 0).val := by
  unfold DotDims.lhsIdx
  rw [dif_neg (show ¬(0 : Fin S200x3.rank) ∈ dot_S200x3_S3x2400_S200x2400_1_0_0_1_n_n.lhsBatch by decide),
    dif_pos (show (0 : Fin S200x3.rank) ∈ dot_S200x3_S3x2400_S200x2400_1_0_0_1_n_n.lhsNonContracting by decide)]
  rfl
/-- its column coordinate is the contraction index; -/
theorem mm0_lhs_1 (i : S200x2400.Idx) (q : dot_S200x3_S3x2400_S200x2400_1_0_0_1_n_n.contr.Idx) :
    (dot_S200x3_S3x2400_S200x2400_1_0_0_1_n_n.lhsIdx i q 1).val = (q ⟨0, by decide⟩).val :=
  dot_S200x3_S3x2400_S200x2400_1_0_0_1_n_n.lhsIdx_val_of_single rfl i q
/-- the right operand's row coordinate is the contraction index; -/
theorem mm0_rhs_0 (i : S200x2400.Idx) (q : dot_S200x3_S3x2400_S200x2400_1_0_0_1_n_n.contr.Idx) :
    (dot_S200x3_S3x2400_S200x2400_1_0_0_1_n_n.rhsIdx i q 0).val = (q ⟨0, by decide⟩).val :=
  dot_S200x3_S3x2400_S200x2400_1_0_0_1_n_n.rhsIdx_val_of_single rfl i q
/-- and its column coordinate is the output's column. -/
theorem mm0_rhs_1 (i : S200x2400.Idx) (q : dot_S200x3_S3x2400_S200x2400_1_0_0_1_n_n.contr.Idx) :
    (dot_S200x3_S3x2400_S200x2400_1_0_0_1_n_n.rhsIdx i q 1).val = (i 1).val := by
  unfold DotDims.rhsIdx
  rw [dif_neg (show ¬(1 : Fin S3x2400.rank) ∈ dot_S200x3_S3x2400_S200x2400_1_0_0_1_n_n.rhsBatch by decide),
    dif_pos (show (1 : Fin S3x2400.rank) ∈ dot_S200x3_S3x2400_S200x2400_1_0_0_1_n_n.rhsNonContracting by decide)]
  rfl

/-- A product of a 200 × 3 by a 3 × N matrix accumulated into zero reads, at (r, j), Σ_k a(r, k) · b(k, j). -/
theorem mm0_apply (a : FVec Ideal S200x3 .bf16) (b : FVec Ideal S3x2400 .bf16) (r : Fin 200) (j : Fin 2400) :
    matmul dot_S200x3_S3x2400_S200x2400_1_0_0_1_n_n none a b (constant (F := Ideal) S200x2400 .f32 0x00000000#32) (ix2 r j)
      = ∑ k : Fin 3, a (ix2 r k) * b (ix2 k j) := by
  simp only [matmul]
  rw [Ideal.matmul_constant_zero_apply,
    ← Equiv.sum_comp (ValueIdx.contrEquiv1 dot_S200x3_S3x2400_S200x2400_1_0_0_1_n_n 3 rfl rfl).symm]
  refine Finset.sum_congr rfl fun k _ => ?_
  have hk := ValueIdx.contrEquiv1_symm_val dot_S200x3_S3x2400_S200x2400_1_0_0_1_n_n 3 rfl rfl k
  have el : dot_S200x3_S3x2400_S200x2400_1_0_0_1_n_n.lhsIdx (ix2 r j)
      ((ValueIdx.contrEquiv1 dot_S200x3_S3x2400_S200x2400_1_0_0_1_n_n 3 rfl rfl).symm k) = ix2 r k :=
    funext fun ax => Fin.ext (by
      match ax with
      | ⟨0, _⟩ => exact mm0_lhs_0 _ _
      | ⟨1, _⟩ => exact (mm0_lhs_1 _ _).trans hk)
  have er : dot_S200x3_S3x2400_S200x2400_1_0_0_1_n_n.rhsIdx (ix2 r j)
      ((ValueIdx.contrEquiv1 dot_S200x3_S3x2400_S200x2400_1_0_0_1_n_n 3 rfl rfl).symm k) = ix2 k j :=
    funext fun ax => Fin.ext (by
      match ax with
      | ⟨0, _⟩ => exact (mm0_rhs_0 _ _).trans hk
      | ⟨1, _⟩ => exact mm0_rhs_1 _ _)
  rw [el, er]

/-- The sum along each row of a 200 × N block reads, at r, Σ_j v(r, j). -/
theorem laneSum0_apply (v : FVec Ideal S200x2400 .f32) (hφ : FKind.Formats .f32)
    (hacc : (0x00000000#32 : BitVec 32) = 0x00000000#32) (r : Fin 200) :
    multiReduction .add [1] S200 v 0x00000000#32 reduces_S200x2400_S200 hφ hacc (ix1 r) = ∑ j : Fin 2400, v (ix2 r j) := by
  refine (Ideal.multiReduction_add_single v 0x00000000#32 reduces_S200x2400_S200 hφ hacc (ix1 r)).trans ?_
  refine Finset.sum_congr rfl fun j _ => congrArg v (funext fun ax => Fin.ext ?_)
  match ax with
  | ⟨0, _⟩ => rfl
  | ⟨1, _⟩ => rfl

/-- The sum down a 200 × 1 column reads, at its one index, Σ_r v(r, 0). -/
theorem colSum200_apply (v : FVec Ideal S200x1 .f32) (hφ : FKind.Formats .f32)
    (hacc : (0x00000000#32 : BitVec 32) = 0x00000000#32) (u : Fin 1) :
    multiReduction .add [0] S1 v 0x00000000#32 reduces_S200x1_S1 hφ hacc (ix1 u) = ∑ r : Fin 200, v (ix2 r (0 : Fin 1)) := by
  refine (Ideal.multiReduction_add_single v 0x00000000#32 reduces_S200x1_S1 hφ hacc (ix1 u)).trans ?_
  refine Finset.sum_congr rfl fun r _ => congrArg v (funext fun ax => Fin.ext ?_)
  match ax with
  | ⟨0, _⟩ => rfl
  | ⟨1, _⟩ => show u.val = 0; omega

/-- The block's partial sum: the payload at the one index of the 1 × 1 shape is the running value plus the sum of the
    squared residuals over the block. -/
theorem pay0_apply (x3 : Vec Ideal S200x3 .f32) (x6 : Vec Ideal S3x2400 .f32) (x10 : Vec Ideal S200x2400 .f32)
    (x13 : Vec Ideal S1x2400 .f32) (x17 : Vec Ideal S200x1 .f32) (x26 : Vec Ideal S1x1 .f32) (y : S1x1.Idx) :
    k0_pay2 (F := Ideal) x3 x6 x10 x13 x17 x26 y
      = x26 y + ∑ r : Fin 200, ∑ j : Fin 2400,
          Cert.Loss.resid (M := 200) (N := 2400) x10 x3 x6 x13 x17 r j * Cert.Loss.resid (M := 200) (N := 2400) x10 x3 x6 x13 x17 r j := by
  obtain ⟨p, q, rfl⟩ : ∃ (p : Fin 1) (q : Fin 1), y = ix2 p q := ⟨y 0, y 1, eq_ix2 y⟩
  unfold k0_pay2
  simp only [shapeCast_self]
  rw [addf_apply, ColumnCasts.shapeCast_a_a1_apply, colSum200_apply]
  refine congrArg (x26 (ix2 p q) + ·) (Finset.sum_congr rfl fun r _ => ?_)
  rw [ColumnCasts.shapeCast_a_a1_apply, laneSum0_apply]
  refine Finset.sum_congr rfl fun j _ => ?_
  rw [mulf_apply, subf_apply, subf_apply, subf_apply, ColumnBroadcast.broadcastTo_a1_ab_apply,
    broadcastTo_1b_ab_apply, mm0_apply]
  rfl

end Cert.KernelIdeal.Hand

end
-- ==== Proof.KI.Value0.lean ====
/-
  What the first squared-error region leaves in its 1 × 1 result array: the sum of the squared residuals over the whole
  1200 × 2400 matrix.

  The grid has six points; point t works on rows 200·t … 200·t + 199 of the data matrix, of the left factor and of the
  row biases, and on the whole right factor and column biases. The result cell starts at zero at the first point, each
  point adds its block's sum, and the cell is written back after the last point only. So the array ends holding
  Σ_t Σ_r Σ_j resid(200·t + r, j)², which is the sum over all 1200 rows regrouped in blocks of 200.
-/
import proofs.«125036_j5205500362863_1_alg».proof.Proof.KI.Region0
import proofs.«125036_j5205500362863_1_alg».proof.Proof.KI.Pay0
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-- Six blocks of 200 rows are the 1200 rows: a sum over the rows is the sum over the blocks of the sums inside each. -/
theorem sum_rows_6_200 (f : Fin 1200 → EReal) :
    ∑ i : Fin 1200, f i = ∑ t : Fin 6, ∑ r : Fin 200, f ⟨200 * t.val + r.val, by omega⟩ := by
  rw [← Equiv.sum_comp (finProdFinEquiv (m := 6) (n := 200)) f, Fintype.sum_prod_type]
  refine Finset.sum_congr rfl fun t _ => Finset.sum_congr rfl fun r _ => congrArg f (Fin.ext ?_)
  show r.val + 200 * t.val = 200 * t.val + r.val
  omega

section
variable (V : (c : Dev nD) → (b : Ref sig .tc) → Buf (Elt Ideal) ((c : Thread nD τ).loc b))

/-- The grid has six points. -/
theorem lt6_0 (t : Fin cfg0.N) : t.val < 6 := by
  have h := t.isLt
  have hN : cfg0.N = 6 := N_0
  omega

/-- Row r of the block at point t is row 200·t + r of the arrays. -/
abbrev row0 (t : Fin cfg0.N) (r : Fin 200) : Fin 1200 := ⟨200 * t.val + r.val, by have := lt6_0 t; omega⟩

/-! ## Where each window's block sits: the block index at every point -/

theorem idx0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx0_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx0_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx0_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx0_4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

/-! ## A block's entry is the array's entry -/

/-- The data block at point t, at (r, j), is the data matrix at (200·t + r, j). -/
theorem blk0_0 (c : Dev nD) (t : Fin cfg0.N) (r : Fin 200) (j : Fin 2400) :
    (iblk0 V c 0 t : Vec Ideal S200x2400 .f32) (ix2 r j) = V c main_v13 (ix2 (row0 t r) j) := by
  unfold iblk0
  rw [View.read_apply]
  show V c main_v13 _ = V c main_v13 _
  congr 1
  funext a
  apply Fin.ext
  match a with
  | ⟨0, _⟩ => show win0_0.index t (0 : Fin 2) * 200 + 1 * r.val = 200 * t.val + r.val; rw [(idx0_0 t).1]; omega
  | ⟨1, _⟩ => show win0_0.index t (1 : Fin 2) * 2400 + 1 * j.val = j.val; rw [(idx0_0 t).2]; omega

/-- The left factor's block at point t, at (r, k), is the left factor at (200·t + r, k). -/
theorem blk0_1 (c : Dev nD) (t : Fin cfg0.N) (r : Fin 200) (k : Fin 3) :
    (iblk0 V c 1 t : Vec Ideal S200x3 .f32) (ix2 r k) = V c main_v142 (ix2 (row0 t r) k) := by
  unfold iblk0
  rw [View.read_apply]
  show V c main_v142 _ = V c main_v142 _
  congr 1
  funext a
  apply Fin.ext
  match a with
  | ⟨0, _⟩ => show win0_1.index t (0 : Fin 2) * 200 + 1 * r.val = 200 * t.val + r.val; rw [(idx0_1 t).1]; omega
  | ⟨1, _⟩ => show win0_1.index t (1 : Fin 2) * 3 + 1 * k.val = k.val; rw [(idx0_1 t).2]; omega

/-- The right factor's block is the whole right factor at every point. -/
theorem blk0_2 (c : Dev nD) (t : Fin cfg0.N) (k : Fin 3) (j : Fin 2400) :
    (iblk0 V c 2 t : Vec Ideal S3x2400 .f32) (ix2 k j) = V c main_v144 (ix2 k j) := by
  unfold iblk0
  rw [View.read_apply]
  show V c main_v144 _ = V c main_v144 _
  congr 1
  funext a
  apply Fin.ext
  match a with
  | ⟨0, _⟩ => show win0_2.index t (0 : Fin 2) * 3 + 1 * k.val = k.val; rw [(idx0_2 t).1]; omega
  | ⟨1, _⟩ => show win0_2.index t (1 : Fin 2) * 2400 + 1 * j.val = j.val; rw [(idx0_2 t).2]; omega

/-- The column biases' block is the whole row of column biases at every point. -/
theorem blk0_3 (c : Dev nD) (t : Fin cfg0.N) (u : Fin 1) (j : Fin 2400) :
    (iblk0 V c 3 t : Vec Ideal S1x2400 .f32) (ix2 u j) = V c main_v76 (ix2 u j) := by
  unfold iblk0
  rw [View.read_apply]
  show V c main_v76 _ = V c main_v76 _
  congr 1
  funext a
  apply Fin.ext
  match a with
  | ⟨0, _⟩ => show win0_3.index t (0 : Fin 2) * 1 + 1 * u.val = u.val; rw [(idx0_3 t).1]; omega
  | ⟨1, _⟩ => show win0_3.index t (1 : Fin 2) * 2400 + 1 * j.val = j.val; rw [(idx0_3 t).2]; omega

/-- The row biases' block at point t, at (r, 0), is the column of row biases at (200·t + r, 0). -/
theorem blk0_4 (c : Dev nD) (t : Fin cfg0.N) (r : Fin 200) (u : Fin 1) :
    (iblk0 V c 4 t : Vec Ideal S200x1 .f32) (ix2 r u) = V c main_v90 (ix2 (row0 t r) u) := by
  unfold iblk0
  rw [View.read_apply]
  show V c main_v90 _ = V c main_v90 _
  congr 1
  funext a
  apply Fin.ext
  match a with
  | ⟨0, _⟩ => show win0_4.index t (0 : Fin 2) * 200 + 1 * r.val = 200 * t.val + r.val; rw [(idx0_4 t).1]; omega
  | ⟨1, _⟩ => show win0_4.index t (1 : Fin 2) * 1 + 1 * u.val = u.val; rw [(idx0_4 t).2]; omega

/-- So the residual formed from the blocks at point t, at (r, j), is the matrix's residual at (200·t + r, j). -/
theorem resid_blk0 (c : Dev nD) (t : Fin cfg0.N) (r : Fin 200) (j : Fin 2400) :
    Cert.Loss.resid (M := 200) (N := 2400) (iblk0 V c 0 t) (iblk0 V c 1 t) (iblk0 V c 2 t) (iblk0 V c 3 t) (iblk0 V c 4 t) r j
      = Cert.Loss.resid (M := 1200) (N := 2400) (V c main_v13) (V c main_v142) (V c main_v144) (V c main_v76) (V c main_v90)
          (row0 t r) j := by
  unfold Cert.Loss.resid
  rw [blk0_0 V c t r j, blk0_3 V c t 0 j, blk0_4 V c t r 0]
  refine congrArg (fun s : EReal => (_ : EReal) - s - (_ : EReal) - (_ : EReal)) (Finset.sum_congr rfl fun k _ => ?_)
  rw [blk0_1 V c t r k, blk0_2 V c t k j]

/-! ## The running sum -/

/-- The sum of the squared residuals over the rows of the block at point t. -/
def part0 (c : Dev nD) (t : Fin cfg0.N) : EReal :=
  ∑ r : Fin 200, ∑ j : Fin 2400,
    Cert.Loss.resid (M := 1200) (N := 2400) (V c main_v13) (V c main_v142) (V c main_v144) (V c main_v76) (V c main_v90) (row0 t r) j
      * Cert.Loss.resid (M := 1200) (N := 2400) (V c main_v13) (V c main_v142) (V c main_v144) (V c main_v76) (V c main_v90) (row0 t r) j

/-- The sum over a block formed from the blocks at point t is that part. -/
theorem blockSum0 (c : Dev nD) (t : Fin cfg0.N) :
    (∑ r : Fin 200, ∑ j : Fin 2400,
      Cert.Loss.resid (M := 200) (N := 2400) (iblk0 V c 0 t) (iblk0 V c 1 t) (iblk0 V c 2 t) (iblk0 V c 3 t) (iblk0 V c 4 t) r j
        * Cert.Loss.resid (M := 200) (N := 2400) (iblk0 V c 0 t) (iblk0 V c 1 t) (iblk0 V c 2 t) (iblk0 V c 3 t) (iblk0 V c 4 t) r j)
      = part0 V c t :=
  Finset.sum_congr rfl fun r _ => Finset.sum_congr rfl fun j _ => by rw [resid_blk0 V c t r j]

/-- The cell the first point resets to reads zero. -/
theorem pay0_zero (y : S1x1.Idx) : (k0_pay1 (F := Ideal)) y = 0 := by
  unfold k0_pay1
  exact Ideal.ofBits_zero_f32

/-- After the body at position n the result cell holds the sum of the parts of the points 0 … n. -/
theorem acc0_eq (c : Dev nD) : ∀ (n : ℕ) (hn : n < cfg0.N) (y : S1x1.Idx),
    acc0 V c n hn y = ∑ t : Fin (n + 1), part0 V c ⟨t.val, Nat.lt_of_lt_of_le t.isLt hn⟩
  | 0, hn, y => by
    rw [Fin.sum_univ_one]
    show k0_pay2 (F := Ideal) (iblk0 V c 1 ⟨0, hn⟩) (iblk0 V c 2 ⟨0, hn⟩) (iblk0 V c 0 ⟨0, hn⟩) (iblk0 V c 3 ⟨0, hn⟩)
      (iblk0 V c 4 ⟨0, hn⟩) (k0_pay1 (F := Ideal)) y = part0 V c ⟨0, hn⟩
    refine (pay0_apply (iblk0 V c 1 ⟨0, hn⟩) (iblk0 V c 2 ⟨0, hn⟩) (iblk0 V c 0 ⟨0, hn⟩) (iblk0 V c 3 ⟨0, hn⟩)
      (iblk0 V c 4 ⟨0, hn⟩) (k0_pay1 (F := Ideal)) y).trans ?_
    rw [pay0_zero, zero_add]
    exact blockSum0 V c ⟨0, hn⟩
  | n + 1, hn, y => by
    rw [Fin.sum_univ_castSucc]
    show k0_pay2 (F := Ideal) (iblk0 V c 1 ⟨n + 1, hn⟩) (iblk0 V c 2 ⟨n + 1, hn⟩) (iblk0 V c 0 ⟨n + 1, hn⟩)
      (iblk0 V c 3 ⟨n + 1, hn⟩) (iblk0 V c 4 ⟨n + 1, hn⟩) (acc0 V c n (Nat.lt_of_succ_lt hn)) y = _
    refine (pay0_apply (iblk0 V c 1 ⟨n + 1, hn⟩) (iblk0 V c 2 ⟨n + 1, hn⟩) (iblk0 V c 0 ⟨n + 1, hn⟩)
      (iblk0 V c 3 ⟨n + 1, hn⟩) (iblk0 V c 4 ⟨n + 1, hn⟩) (acc0 V c n (Nat.lt_of_succ_lt hn)) y).trans ?_
    rw [acc0_eq c n (Nat.lt_of_succ_lt hn) y]
    exact congrArg _ (blockSum0 V c ⟨n + 1, hn⟩)

/-! ## The result array -/

/-- The last position. -/
theorem five_lt0 : 5 < cfg0.N := by rw [show cfg0.N = 6 from N_0]; decide

/-- The one write-back, after the last point, writes the cell: the 1 × 1 block at offsets zero is the whole array. -/
theorem flushed0_eq (c : Dev nD) (t : Fin cfg0.N) (hf : (cfg0.win 5).flush t = true) :
    (dat0 V c).flushed 5 t = ((cfg0.win 5).blk t).view.read (Elt Ideal) (acc0 V c 5 five_lt0) := by
  have h5 : t.val = 5 := by have := (flush0_5 t).mp hf; have := lt6_0 t; omega
  obtain rfl : t = t0_5 := Fin.ext h5
  show (cfg0.win 5).cut (grid0.coords t0_5) ((dat0 V c).after 5 t0_5) = _
  rw [after0_5]
  have hz' : (fun a => win0_5.index t0_5 a * main_v152.ty.shape.size a) = fun _ => 0 :=
    funext fun a => by fin_cases a <;> decide
  exact (Memref.read_access_unit_zero (Elt Ideal) main_v152 hz' (fun a => by rw [congrFun hz' a]; simp)
    (acc0 V c 5 five_lt0)).symm

/-- So the result array ends holding the cell after the last point. -/
theorem out0_arr (c : Dev nD) : (dat0 V c).arrAt 5 cfg0.N = acc0 V c 5 five_lt0 :=
  (dat0 V c).arrAt_eq_of_cover 5 (acc0 V c 5 five_lt0) (flushed0_eq V c) fun i =>
    ⟨t0_5, (flush0_5 t0_5).mpr rfl, by
      show i ∈ ((View.whole main_v152).slice (win0_5.rect t0_5)).set
      rw [View.set_slice_whole, Rect.mem_set_unit]
      intro a
      have h0 : (i 0 : Nat) < 1 := (i 0).isLt
      have h1 : (i 1 : Nat) < 1 := (i 1).isLt
      match a with
      | ⟨0, _⟩ =>
        show win0_5.index t0_5 0 * win0_5.size 0 ≤ (i 0 : Nat)
          ∧ (i 0 : Nat) < win0_5.index t0_5 0 * win0_5.size 0 + win0_5.xsize (grid0.coords t0_5) 0
        rw [show win0_5.index t0_5 0 * win0_5.size 0 = 0 from by decide +kernel,
          show win0_5.xsize (grid0.coords t0_5) 0 = 1 from by decide +kernel]
        omega
      | ⟨1, _⟩ =>
        show win0_5.index t0_5 1 * win0_5.size 1 ≤ (i 1 : Nat)
          ∧ (i 1 : Nat) < win0_5.index t0_5 1 * win0_5.size 1 + win0_5.xsize (grid0.coords t0_5) 1
        rw [show win0_5.index t0_5 1 * win0_5.size 1 = 0 from by decide +kernel,
          show win0_5.xsize (grid0.coords t0_5) 1 = 1 from by decide +kernel]
        omega⟩

/-- The array the region leaves in its result: the sum of the squared residuals over the whole matrix. -/
theorem out0_eq (c : Dev nD) (y : S1x1.Idx) : (dat0 (F := Ideal) V c).arrAt 5 cfg0.N y
    = Cert.Loss.sqSum (M := 1200) (N := 2400) (V c main_v13) (V c main_v142) (V c main_v144) (V c main_v76) (V c main_v90) := by
  refine (congrFun (out0_arr V c) y).trans ?_
  rw [acc0_eq V c 5 five_lt0 y]
  unfold Cert.Loss.sqSum
  rw [sum_rows_6_200]
  rfl

end

end Cert.KernelIdeal.Hand

end
-- ==== Proof.KI.Pay1.lean ====
/-
  The squared-error kernel's block payload on the wider matrix (200 × 6000 blocks), read at its one index: the running
  value plus the block's sum of squared residuals. The same reading as on the 200 × 2400 blocks, at the other width.
-/
import proofs.«125036_j5205500362863_1_alg».proof.Proof.KI.Pay0
import proofs.«125036_j5205500362863_1_alg».proof.Proof.Spec
import proofs.«125036_j5205500362863_1_alg».proof.Proof.LibColumnCasts
import proofs.«125036_j5205500362863_1_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx

/-- The left operand's index of the product at output (r, j): its row coordinate is the output's row; -/
theorem mm1_lhs_0 (i : S200x6000.Idx) (q : dot_S200x3_S3x6000_S200x6000_1_0_0_1_n_n.contr.Idx) :
    (dot_S200x3_S3x6000_S200x6000_1_0_0_1_n_n.lhsIdx i q 0).val = (i 0).val := by
  unfold DotDims.lhsIdx
  rw [dif_neg (show ¬(0 : Fin S200x3.rank) ∈ dot_S200x3_S3x6000_S200x6000_1_0_0_1_n_n.lhsBatch by decide),
    dif_pos (show (0 : Fin S200x3.rank) ∈ dot_S200x3_S3x6000_S200x6000_1_0_0_1_n_n.lhsNonContracting by decide)]
  rfl
/-- its column coordinate is the contraction index; -/
theorem mm1_lhs_1 (i : S200x6000.Idx) (q : dot_S200x3_S3x6000_S200x6000_1_0_0_1_n_n.contr.Idx) :
    (dot_S200x3_S3x6000_S200x6000_1_0_0_1_n_n.lhsIdx i q 1).val = (q ⟨0, by decide⟩).val :=
  dot_S200x3_S3x6000_S200x6000_1_0_0_1_n_n.lhsIdx_val_of_single rfl i q
/-- the right operand's row coordinate is the contraction index; -/
theorem mm1_rhs_0 (i : S200x6000.Idx) (q : dot_S200x3_S3x6000_S200x6000_1_0_0_1_n_n.contr.Idx) :
    (dot_S200x3_S3x6000_S200x6000_1_0_0_1_n_n.rhsIdx i q 0).val = (q ⟨0, by decide⟩).val :=
  dot_S200x3_S3x6000_S200x6000_1_0_0_1_n_n.rhsIdx_val_of_single rfl i q
/-- and its column coordinate is the output's column. -/
theorem mm1_rhs_1 (i : S200x6000.Idx) (q : dot_S200x3_S3x6000_S200x6000_1_0_0_1_n_n.contr.Idx) :
    (dot_S200x3_S3x6000_S200x6000_1_0_0_1_n_n.rhsIdx i q 1).val = (i 1).val := by
  unfold DotDims.rhsIdx
  rw [dif_neg (show ¬(1 : Fin S3x6000.rank) ∈ dot_S200x3_S3x6000_S200x6000_1_0_0_1_n_n.rhsBatch by decide),
    dif_pos (show (1 : Fin S3x6000.rank) ∈ dot_S200x3_S3x6000_S200x6000_1_0_0_1_n_n.rhsNonContracting by decide)]
  rfl

/-- A product of a 200 × 3 by a 3 × N matrix accumulated into zero reads, at (r, j), Σ_k a(r, k) · b(k, j). -/
theorem mm1_apply (a : FVec Ideal S200x3 .bf16) (b : FVec Ideal S3x6000 .bf16) (r : Fin 200) (j : Fin 6000) :
    matmul dot_S200x3_S3x6000_S200x6000_1_0_0_1_n_n none a b (constant (F := Ideal) S200x6000 .f32 0x00000000#32) (ix2 r j)
      = ∑ k : Fin 3, a (ix2 r k) * b (ix2 k j) := by
  simp only [matmul]
  rw [Ideal.matmul_constant_zero_apply,
    ← Equiv.sum_comp (ValueIdx.contrEquiv1 dot_S200x3_S3x6000_S200x6000_1_0_0_1_n_n 3 rfl rfl).symm]
  refine Finset.sum_congr rfl fun k _ => ?_
  have hk := ValueIdx.contrEquiv1_symm_val dot_S200x3_S3x6000_S200x6000_1_0_0_1_n_n 3 rfl rfl k
  have el : dot_S200x3_S3x6000_S200x6000_1_0_0_1_n_n.lhsIdx (ix2 r j)
      ((ValueIdx.contrEquiv1 dot_S200x3_S3x6000_S200x6000_1_0_0_1_n_n 3 rfl rfl).symm k) = ix2 r k :=
    funext fun ax => Fin.ext (by
      match ax with
      | ⟨0, _⟩ => exact mm1_lhs_0 _ _
      | ⟨1, _⟩ => exact (mm1_lhs_1 _ _).trans hk)
  have er : dot_S200x3_S3x6000_S200x6000_1_0_0_1_n_n.rhsIdx (ix2 r j)
      ((ValueIdx.contrEquiv1 dot_S200x3_S3x6000_S200x6000_1_0_0_1_n_n 3 rfl rfl).symm k) = ix2 k j :=
    funext fun ax => Fin.ext (by
      match ax with
      | ⟨0, _⟩ => exact (mm1_rhs_0 _ _).trans hk
      | ⟨1, _⟩ => exact mm1_rhs_1 _ _)
  rw [el, er]

/-- The sum along each row of a 200 × N block reads, at r, Σ_j v(r, j). -/
theorem laneSum1_apply (v : FVec Ideal S200x6000 .f32) (hφ : FKind.Formats .f32)
    (hacc : (0x00000000#32 : BitVec 32) = 0x00000000#32) (r : Fin 200) :
    multiReduction .add [1] S200 v 0x00000000#32 reduces_S200x6000_S200 hφ hacc (ix1 r) = ∑ j : Fin 6000, v (ix2 r j) := by
  refine (Ideal.multiReduction_add_single v 0x00000000#32 reduces_S200x6000_S200 hφ hacc (ix1 r)).trans ?_
  refine Finset.sum_congr rfl fun j _ => congrArg v (funext fun ax => Fin.ext ?_)
  match ax with
  | ⟨0, _⟩ => rfl
  | ⟨1, _⟩ => rfl

/-- The block's partial sum: the payload at the one index of the 1 × 1 shape is the running value plus the sum of the
    squared residuals over the block. -/
theorem pay1_apply (x3 : Vec Ideal S200x3 .f32) (x6 : Vec Ideal S3x6000 .f32) (x10 : Vec Ideal S200x6000 .f32)
    (x13 : Vec Ideal S1x6000 .f32) (x17 : Vec Ideal S200x1 .f32) (x26 : Vec Ideal S1x1 .f32) (y : S1x1.Idx) :
    k1_pay2 (F := Ideal) x3 x6 x10 x13 x17 x26 y
      = x26 y + ∑ r : Fin 200, ∑ j : Fin 6000,
          Cert.Loss.resid (M := 200) (N := 6000) x10 x3 x6 x13 x17 r j * Cert.Loss.resid (M := 200) (N := 6000) x10 x3 x6 x13 x17 r j := by
  obtain ⟨p, q, rfl⟩ : ∃ (p : Fin 1) (q : Fin 1), y = ix2 p q := ⟨y 0, y 1, eq_ix2 y⟩
  unfold k1_pay2
  simp only [shapeCast_self]
  rw [addf_apply, ColumnCasts.shapeCast_a_a1_apply, colSum200_apply]
  refine congrArg (x26 (ix2 p q) + ·) (Finset.sum_congr rfl fun r _ => ?_)
  rw [ColumnCasts.shapeCast_a_a1_apply, laneSum1_apply]
  refine Finset.sum_congr rfl fun j _ => ?_
  rw [mulf_apply, subf_apply, subf_apply, subf_apply, ColumnBroadcast.broadcastTo_a1_ab_apply,
    broadcastTo_1b_ab_apply, mm1_apply]
  rfl

end Cert.KernelIdeal.Hand

end
-- ==== Proof.KI.Value1.lean ====
/-
  What the second squared-error region leaves in its 1 × 1 result array: the sum of the squared residuals over the whole
  1200 × 6000 matrix. The same grid of six points over blocks of 200 rows as the first region, on the wider matrix.
-/
import proofs.«125036_j5205500362863_1_alg».proof.Proof.KI.Region1
import proofs.«125036_j5205500362863_1_alg».proof.Proof.KI.Pay1
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-- Six blocks of 200 rows are the 1200 rows: a sum over the rows is the sum over the blocks of the sums inside each. -/
theorem sum_rows_6_200' (f : Fin 1200 → EReal) :
    ∑ i : Fin 1200, f i = ∑ t : Fin 6, ∑ r : Fin 200, f ⟨200 * t.val + r.val, by omega⟩ := by
  rw [← Equiv.sum_comp (finProdFinEquiv (m := 6) (n := 200)) f, Fintype.sum_prod_type]
  refine Finset.sum_congr rfl fun t _ => Finset.sum_congr rfl fun r _ => congrArg f (Fin.ext ?_)
  show r.val + 200 * t.val = 200 * t.val + r.val
  omega

section
variable (V : (c : Dev nD) → (b : Ref sig .tc) → Buf (Elt Ideal) ((c : Thread nD τ).loc b))

/-- The grid has six points. -/
theorem lt6_1 (t : Fin cfg1.N) : t.val < 6 := by
  have h := t.isLt
  have hN : cfg1.N = 6 := N_1
  omega

/-- Row r of the block at point t is row 200·t + r of the arrays. -/
abbrev row1 (t : Fin cfg1.N) (r : Fin 200) : Fin 1200 := ⟨200 * t.val + r.val, by have := lt6_1 t; omega⟩

/-! ## Where each window's block sits: the block index at every point -/

theorem idx1_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
theorem idx1_1 : ∀ t : Fin cfg1.N, win1_1.index t (0 : Fin 2) = t.val ∧ win1_1.index t (1 : Fin 2) = 0 :=
  (by decide +kernel : ∀ t : Fin grid1.N, win1_1.index t (0 : Fin 2) = t.val ∧ win1_1.index t (1 : Fin 2) = 0)
theorem idx1_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
theorem idx1_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
theorem idx1_4 : ∀ t : Fin cfg1.N, win1_4.index t (0 : Fin 2) = t.val ∧ win1_4.index t (1 : Fin 2) = 0 :=
  (by decide +kernel : ∀ t : Fin grid1.N, win1_4.index t (0 : Fin 2) = t.val ∧ win1_4.index t (1 : Fin 2) = 0)

/-! ## A block's entry is the array's entry -/

/-- The data block at point t, at (r, j), is the data matrix at (200·t + r, j). -/
theorem blk1_0 (c : Dev nD) (t : Fin cfg1.N) (r : Fin 200) (j : Fin 6000) :
    (iblk1 V c 0 t : Vec Ideal S200x6000 .f32) (ix2 r j) = V c main_v27 (ix2 (row1 t r) j) := by
  unfold iblk1
  rw [View.read_apply]
  show V c main_v27 _ = V c main_v27 _
  congr 1
  funext a
  apply Fin.ext
  match a with
  | ⟨0, _⟩ => show win1_0.index t (0 : Fin 2) * 200 + 1 * r.val = 200 * t.val + r.val; rw [(idx1_0 t).1]; omega
  | ⟨1, _⟩ => show win1_0.index t (1 : Fin 2) * 6000 + 1 * j.val = j.val; rw [(idx1_0 t).2]; omega

/-- The left factor's block at point t, at (r, k), is the left factor at (200·t + r, k). -/
theorem blk1_1 (c : Dev nD) (t : Fin cfg1.N) (r : Fin 200) (k : Fin 3) :
    (iblk1 V c 1 t : Vec Ideal S200x3 .f32) (ix2 r k) = V c main_v143 (ix2 (row1 t r) k) := by
  unfold iblk1
  rw [View.read_apply]
  show V c main_v143 _ = V c main_v143 _
  congr 1
  funext a
  apply Fin.ext
  match a with
  | ⟨0, _⟩ => show win1_1.index t (0 : Fin 2) * 200 + 1 * r.val = 200 * t.val + r.val; rw [(idx1_1 t).1]; omega
  | ⟨1, _⟩ => show win1_1.index t (1 : Fin 2) * 3 + 1 * k.val = k.val; rw [(idx1_1 t).2]; omega

/-- The right factor's block is the whole right factor at every point. -/
theorem blk1_2 (c : Dev nD) (t : Fin cfg1.N) (k : Fin 3) (j : Fin 6000) :
    (iblk1 V c 2 t : Vec Ideal S3x6000 .f32) (ix2 k j) = V c main_v145 (ix2 k j) := by
  unfold iblk1
  rw [View.read_apply]
  show V c main_v145 _ = V c main_v145 _
  congr 1
  funext a
  apply Fin.ext
  match a with
  | ⟨0, _⟩ => show win1_2.index t (0 : Fin 2) * 3 + 1 * k.val = k.val; rw [(idx1_2 t).1]; omega
  | ⟨1, _⟩ => show win1_2.index t (1 : Fin 2) * 6000 + 1 * j.val = j.val; rw [(idx1_2 t).2]; omega

/-- The column biases' block is the whole row of column biases at every point. -/
theorem blk1_3 (c : Dev nD) (t : Fin cfg1.N) (u : Fin 1) (j : Fin 6000) :
    (iblk1 V c 3 t : Vec Ideal S1x6000 .f32) (ix2 u j) = V c main_v83 (ix2 u j) := by
  unfold iblk1
  rw [View.read_apply]
  show V c main_v83 _ = V c main_v83 _
  congr 1
  funext a
  apply Fin.ext
  match a with
  | ⟨0, _⟩ => show win1_3.index t (0 : Fin 2) * 1 + 1 * u.val = u.val; rw [(idx1_3 t).1]; omega
  | ⟨1, _⟩ => show win1_3.index t (1 : Fin 2) * 6000 + 1 * j.val = j.val; rw [(idx1_3 t).2]; omega

/-- The row biases' block at point t, at (r, 0), is the column of row biases at (200·t + r, 0). -/
theorem blk1_4 (c : Dev nD) (t : Fin cfg1.N) (r : Fin 200) (u : Fin 1) :
    (iblk1 V c 4 t : Vec Ideal S200x1 .f32) (ix2 r u) = V c main_v97 (ix2 (row1 t r) u) := by
  unfold iblk1
  rw [View.read_apply]
  show V c main_v97 _ = V c main_v97 _
  congr 1
  funext a
  apply Fin.ext
  match a with
  | ⟨0, _⟩ => show win1_4.index t (0 : Fin 2) * 200 + 1 * r.val = 200 * t.val + r.val; rw [(idx1_4 t).1]; omega
  | ⟨1, _⟩ => show win1_4.index t (1 : Fin 2) * 1 + 1 * u.val = u.val; rw [(idx1_4 t).2]; omega

/-- So the residual formed from the blocks at point t, at (r, j), is the matrix's residual at (200·t + r, j). -/
theorem resid_blk1 (c : Dev nD) (t : Fin cfg1.N) (r : Fin 200) (j : Fin 6000) :
    Cert.Loss.resid (M := 200) (N := 6000) (iblk1 V c 0 t) (iblk1 V c 1 t) (iblk1 V c 2 t) (iblk1 V c 3 t) (iblk1 V c 4 t) r j
      = Cert.Loss.resid (M := 1200) (N := 6000) (V c main_v27) (V c main_v143) (V c main_v145) (V c main_v83) (V c main_v97)
          (row1 t r) j := by
  unfold Cert.Loss.resid
  rw [blk1_0 V c t r j, blk1_3 V c t 0 j, blk1_4 V c t r 0]
  refine congrArg (fun s : EReal => (_ : EReal) - s - (_ : EReal) - (_ : EReal)) (Finset.sum_congr rfl fun k _ => ?_)
  rw [blk1_1 V c t r k, blk1_2 V c t k j]

/-! ## The running sum -/

/-- The sum of the squared residuals over the rows of the block at point t. -/
def part1 (c : Dev nD) (t : Fin cfg1.N) : EReal :=
  ∑ r : Fin 200, ∑ j : Fin 6000,
    Cert.Loss.resid (M := 1200) (N := 6000) (V c main_v27) (V c main_v143) (V c main_v145) (V c main_v83) (V c main_v97) (row1 t r) j
      * Cert.Loss.resid (M := 1200) (N := 6000) (V c main_v27) (V c main_v143) (V c main_v145) (V c main_v83) (V c main_v97) (row1 t r) j

/-- The sum over a block formed from the blocks at point t is that part. -/
theorem blockSum1 (c : Dev nD) (t : Fin cfg1.N) :
    (∑ r : Fin 200, ∑ j : Fin 6000,
      Cert.Loss.resid (M := 200) (N := 6000) (iblk1 V c 0 t) (iblk1 V c 1 t) (iblk1 V c 2 t) (iblk1 V c 3 t) (iblk1 V c 4 t) r j
        * Cert.Loss.resid (M := 200) (N := 6000) (iblk1 V c 0 t) (iblk1 V c 1 t) (iblk1 V c 2 t) (iblk1 V c 3 t) (iblk1 V c 4 t) r j)
      = part1 V c t :=
  Finset.sum_congr rfl fun r _ => Finset.sum_congr rfl fun j _ => by rw [resid_blk1 V c t r j]

/-- The cell the first point resets to reads zero. -/
theorem pay1_zero (y : S1x1.Idx) : (k1_pay1 (F := Ideal)) y = 0 := by
  unfold k1_pay1
  exact Ideal.ofBits_zero_f32

/-- After the body at position n the result cell holds the sum of the parts of the points 0 … n. -/
theorem acc1_eq (c : Dev nD) : ∀ (n : ℕ) (hn : n < cfg1.N) (y : S1x1.Idx),
    acc1 V c n hn y = ∑ t : Fin (n + 1), part1 V c ⟨t.val, Nat.lt_of_lt_of_le t.isLt hn⟩
  | 0, hn, y => by
    rw [Fin.sum_univ_one]
    show k1_pay2 (F := Ideal) (iblk1 V c 1 ⟨0, hn⟩) (iblk1 V c 2 ⟨0, hn⟩) (iblk1 V c 0 ⟨0, hn⟩) (iblk1 V c 3 ⟨0, hn⟩)
      (iblk1 V c 4 ⟨0, hn⟩) (k1_pay1 (F := Ideal)) y = part1 V c ⟨0, hn⟩
    refine (pay1_apply (iblk1 V c 1 ⟨0, hn⟩) (iblk1 V c 2 ⟨0, hn⟩) (iblk1 V c 0 ⟨0, hn⟩) (iblk1 V c 3 ⟨0, hn⟩)
      (iblk1 V c 4 ⟨0, hn⟩) (k1_pay1 (F := Ideal)) y).trans ?_
    rw [pay1_zero, zero_add]
    exact blockSum1 V c ⟨0, hn⟩
  | n + 1, hn, y => by
    rw [Fin.sum_univ_castSucc]
    show k1_pay2 (F := Ideal) (iblk1 V c 1 ⟨n + 1, hn⟩) (iblk1 V c 2 ⟨n + 1, hn⟩) (iblk1 V c 0 ⟨n + 1, hn⟩)
      (iblk1 V c 3 ⟨n + 1, hn⟩) (iblk1 V c 4 ⟨n + 1, hn⟩) (acc1 V c n (Nat.lt_of_succ_lt hn)) y = _
    refine (pay1_apply (iblk1 V c 1 ⟨n + 1, hn⟩) (iblk1 V c 2 ⟨n + 1, hn⟩) (iblk1 V c 0 ⟨n + 1, hn⟩)
      (iblk1 V c 3 ⟨n + 1, hn⟩) (iblk1 V c 4 ⟨n + 1, hn⟩) (acc1 V c n (Nat.lt_of_succ_lt hn)) y).trans ?_
    rw [acc1_eq c n (Nat.lt_of_succ_lt hn) y]
    exact congrArg _ (blockSum1 V c ⟨n + 1, hn⟩)

/-! ## The result array -/

/-- The last position. -/
theorem five_lt1 : 5 < cfg1.N := by rw [show cfg1.N = 6 from N_1]; decide

/-- The one write-back, after the last point, writes the cell: the 1 × 1 block at offsets zero is the whole array. -/
theorem flushed1_eq (c : Dev nD) (t : Fin cfg1.N) (hf : (cfg1.win 5).flush t = true) :
    (dat1 V c).flushed 5 t = ((cfg1.win 5).blk t).view.read (Elt Ideal) (acc1 V c 5 five_lt1) := by
  have h5 : t.val = 5 := by have := (flush1_5 t).mp hf; have := lt6_1 t; omega
  obtain rfl : t = t1_5 := Fin.ext h5
  show (cfg1.win 5).cut (grid1.coords t1_5) ((dat1 V c).after 5 t1_5) = _
  rw [after1_5]
  have hz' : (fun a => win1_5.index t1_5 a * main_v153.ty.shape.size a) = fun _ => 0 :=
    funext fun a => by fin_cases a <;> decide
  exact (Memref.read_access_unit_zero (Elt Ideal) main_v153 hz' (fun a => by rw [congrFun hz' a]; simp)
    (acc1 V c 5 five_lt1)).symm

/-- So the result array ends holding the cell after the last point. -/
theorem out1_arr (c : Dev nD) : (dat1 V c).arrAt 5 cfg1.N = acc1 V c 5 five_lt1 :=
  (dat1 V c).arrAt_eq_of_cover 5 (acc1 V c 5 five_lt1) (flushed1_eq V c) fun i =>
    ⟨t1_5, (flush1_5 t1_5).mpr rfl, by
      show i ∈ ((View.whole main_v153).slice (win1_5.rect t1_5)).set
      rw [View.set_slice_whole, Rect.mem_set_unit]
      intro a
      have h0 : (i 0 : Nat) < 1 := (i 0).isLt
      have h1 : (i 1 : Nat) < 1 := (i 1).isLt
      match a with
      | ⟨0, _⟩ =>
        show win1_5.index t1_5 0 * win1_5.size 0 ≤ (i 0 : Nat)
          ∧ (i 0 : Nat) < win1_5.index t1_5 0 * win1_5.size 0 + win1_5.xsize (grid1.coords t1_5) 0
        rw [show win1_5.index t1_5 0 * win1_5.size 0 = 0 from by decide +kernel,
          show win1_5.xsize (grid1.coords t1_5) 0 = 1 from by decide +kernel]
        omega
      | ⟨1, _⟩ =>
        show win1_5.index t1_5 1 * win1_5.size 1 ≤ (i 1 : Nat)
          ∧ (i 1 : Nat) < win1_5.index t1_5 1 * win1_5.size 1 + win1_5.xsize (grid1.coords t1_5) 1
        rw [show win1_5.index t1_5 1 * win1_5.size 1 = 0 from by decide +kernel,
          show win1_5.xsize (grid1.coords t1_5) 1 = 1 from by decide +kernel]
        omega⟩

/-- The array the region leaves in its result: the sum of the squared residuals over the whole matrix. -/
theorem out1_eq (c : Dev nD) (y : S1x1.Idx) : (dat1 (F := Ideal) V c).arrAt 5 cfg1.N y
    = Cert.Loss.sqSum (M := 1200) (N := 6000) (V c main_v27) (V c main_v143) (V c main_v145) (V c main_v83) (V c main_v97) := by
  refine (congrFun (out1_arr V c) y).trans ?_
  rw [acc1_eq V c 5 five_lt1 y]
  unfold Cert.Loss.sqSum
  rw [sum_rows_6_200']
  rfl

end

end Cert.KernelIdeal.Hand

end
-- ==== Proof.KI.Pay2.lean ====
/-
  The trace kernel's block payload read at its one index: the running value plus the block's part of the trace.

  On a 400 × 6000 block A of the matrix, with the whole 6000 × 3 right factor PR and the block's 400 × 3 rows PG of the
  left factor, the payload forms A · PR (a product accumulated into zero), multiplies it entrywise by PG, sums along each
  row, then down the column of row sums, and adds the result to the running 1 × 1 value:
  running + Σ_i Σ_k (Σ_j A(i, j) · PR(j, k)) · PG(i, k).
-/
import proofs.«125036_j5205500362863_1_alg».proof.Proof.Gen.KernelIdeal.Skeleton
import proofs.«125036_j5205500362863_1_alg».proof.Proof.Spec
import proofs.«125036_j5205500362863_1_alg».proof.Proof.LibColumnCasts
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx

/-- The left operand's index of the product at output (i, k): its row coordinate is the output's row; -/
theorem mm2_lhs_0 (i : S400x3.Idx) (q : dot_S400x6000_S6000x3_S400x3_1_0_0_1_n_n.contr.Idx) :
    (dot_S400x6000_S6000x3_S400x3_1_0_0_1_n_n.lhsIdx i q 0).val = (i 0).val := by
  unfold DotDims.lhsIdx
  rw [dif_neg (show ¬(0 : Fin S400x6000.rank) ∈ dot_S400x6000_S6000x3_S400x3_1_0_0_1_n_n.lhsBatch by decide),
    dif_pos (show (0 : Fin S400x6000.rank) ∈ dot_S400x6000_S6000x3_S400x3_1_0_0_1_n_n.lhsNonContracting by decide)]
  rfl
/-- its column coordinate is the contraction index; -/
theorem mm2_lhs_1 (i : S400x3.Idx) (q : dot_S400x6000_S6000x3_S400x3_1_0_0_1_n_n.contr.Idx) :
    (dot_S400x6000_S6000x3_S400x3_1_0_0_1_n_n.lhsIdx i q 1).val = (q ⟨0, by decide⟩).val :=
  dot_S400x6000_S6000x3_S400x3_1_0_0_1_n_n.lhsIdx_val_of_single rfl i q
/-- the right operand's row coordinate is the contraction index; -/
theorem mm2_rhs_0 (i : S400x3.Idx) (q : dot_S400x6000_S6000x3_S400x3_1_0_0_1_n_n.contr.Idx) :
    (dot_S400x6000_S6000x3_S400x3_1_0_0_1_n_n.rhsIdx i q 0).val = (q ⟨0, by decide⟩).val :=
  dot_S400x6000_S6000x3_S400x3_1_0_0_1_n_n.rhsIdx_val_of_single rfl i q
/-- and its column coordinate is the output's column. -/
theorem mm2_rhs_1 (i : S400x3.Idx) (q : dot_S400x6000_S6000x3_S400x3_1_0_0_1_n_n.contr.Idx) :
    (dot_S400x6000_S6000x3_S400x3_1_0_0_1_n_n.rhsIdx i q 1).val = (i 1).val := by
  unfold DotDims.rhsIdx
  rw [dif_neg (show ¬(1 : Fin S6000x3.rank) ∈ dot_S400x6000_S6000x3_S400x3_1_0_0_1_n_n.rhsBatch by decide),
    dif_pos (show (1 : Fin S6000x3.rank) ∈ dot_S400x6000_S6000x3_S400x3_1_0_0_1_n_n.rhsNonContracting by decide)]
  rfl

/-- A product of a 400 × 6000 by a 6000 × 3 matrix accumulated into zero reads, at (i, k), Σ_j a(i, j) · b(j, k). -/
theorem mm2_apply (a : FVec Ideal S400x6000 .bf16) (b : FVec Ideal S6000x3 .bf16) (i : Fin 400) (k : Fin 3) :
    matmul dot_S400x6000_S6000x3_S400x3_1_0_0_1_n_n none a b (constant (F := Ideal) S400x3 .f32 0x00000000#32) (ix2 i k)
      = ∑ j : Fin 6000, a (ix2 i j) * b (ix2 j k) := by
  simp only [matmul]
  rw [Ideal.matmul_constant_zero_apply,
    ← Equiv.sum_comp (ValueIdx.contrEquiv1 dot_S400x6000_S6000x3_S400x3_1_0_0_1_n_n 6000 rfl rfl).symm]
  refine Finset.sum_congr rfl fun j _ => ?_
  have hj := ValueIdx.contrEquiv1_symm_val dot_S400x6000_S6000x3_S400x3_1_0_0_1_n_n 6000 rfl rfl j
  have el : dot_S400x6000_S6000x3_S400x3_1_0_0_1_n_n.lhsIdx (ix2 i k)
      ((ValueIdx.contrEquiv1 dot_S400x6000_S6000x3_S400x3_1_0_0_1_n_n 6000 rfl rfl).symm j) = ix2 i j :=
    funext fun ax => Fin.ext (by
      match ax with
      | ⟨0, _⟩ => exact mm2_lhs_0 _ _
      | ⟨1, _⟩ => exact (mm2_lhs_1 _ _).trans hj)
  have er : dot_S400x6000_S6000x3_S400x3_1_0_0_1_n_n.rhsIdx (ix2 i k)
      ((ValueIdx.contrEquiv1 dot_S400x6000_S6000x3_S400x3_1_0_0_1_n_n 6000 rfl rfl).symm j) = ix2 j k :=
    funext fun ax => Fin.ext (by
      match ax with
      | ⟨0, _⟩ => exact (mm2_rhs_0 _ _).trans hj
      | ⟨1, _⟩ => exact mm2_rhs_1 _ _)
  rw [el, er]

/-- The sum along each row of a 400 × 3 block reads, at i, Σ_k v(i, k). -/
theorem laneSum2_apply (v : FVec Ideal S400x3 .f32) (hφ : FKind.Formats .f32)
    (hacc : (0x00000000#32 : BitVec 32) = 0x00000000#32) (i : Fin 400) :
    multiReduction .add [1] S400 v 0x00000000#32 reduces_S400x3_S400 hφ hacc (ix1 i) = ∑ k : Fin 3, v (ix2 i k) := by
  refine (Ideal.multiReduction_add_single v 0x00000000#32 reduces_S400x3_S400 hφ hacc (ix1 i)).trans ?_
  refine Finset.sum_congr rfl fun k _ => congrArg v (funext fun ax => Fin.ext ?_)
  match ax with
  | ⟨0, _⟩ => rfl
  | ⟨1, _⟩ => rfl

/-- The sum down a 400 × 1 column reads, at its one index, Σ_i v(i, 0). -/
theorem colSum400_apply (v : FVec Ideal S400x1 .f32) (hφ : FKind.Formats .f32)
    (hacc : (0x00000000#32 : BitVec 32) = 0x00000000#32) (u : Fin 1) :
    multiReduction .add [0] S1 v 0x00000000#32 reduces_S400x1_S1 hφ hacc (ix1 u) = ∑ i : Fin 400, v (ix2 i (0 : Fin 1)) := by
  refine (Ideal.multiReduction_add_single v 0x00000000#32 reduces_S400x1_S1 hφ hacc (ix1 u)).trans ?_
  refine Finset.sum_congr rfl fun i _ => congrArg v (funext fun ax => Fin.ext ?_)
  match ax with
  | ⟨0, _⟩ => rfl
  | ⟨1, _⟩ => show u.val = 0; omega

/-- The block's part of the trace: the payload at the one index of the 1 × 1 shape is the running value plus
    Σ_i Σ_k (Σ_j A(i, j) · PR(j, k)) · PG(i, k) over the block's rows. -/
theorem pay2_apply (x3 : Vec Ideal S400x6000 .f32) (x6 : Vec Ideal S6000x3 .f32) (x10 : Vec Ideal S400x3 .f32)
    (x17 : Vec Ideal S1x1 .f32) (y : S1x1.Idx) :
    k2_pay2 (F := Ideal) x3 x6 x10 x17 y
      = x17 y + ∑ i : Fin 400, ∑ k : Fin 3, (∑ j : Fin 6000, x3 (ix2 i j) * x6 (ix2 j k)) * x10 (ix2 i k) := by
  obtain ⟨p, q, rfl⟩ : ∃ (p : Fin 1) (q : Fin 1), y = ix2 p q := ⟨y 0, y 1, eq_ix2 y⟩
  unfold k2_pay2
  simp only [shapeCast_self]
  rw [addf_apply, ColumnCasts.shapeCast_a_a1_apply, colSum400_apply]
  refine congrArg (x17 (ix2 p q) + ·) (Finset.sum_congr rfl fun i _ => ?_)
  rw [ColumnCasts.shapeCast_a_a1_apply, laneSum2_apply]
  refine Finset.sum_congr rfl fun k _ => ?_
  rw [mulf_apply, mm2_apply]
  rfl

end Cert.KernelIdeal.Hand

end
-- ==== Proof.KI.Value2.lean ====
/-
  What the trace region leaves in its 1 × 1 result array: the trace sum over the whole 2400 × 6000 matrix.

  The grid has six points; point t works on rows 400·t … 400·t + 399 of the matrix and of the left factor, and on the
  whole right factor. The result cell starts at zero at the first point, each point adds its block's part of the trace,
  and the cell is written back after the last point only. So the array ends holding
  Σ_t Σ_i Σ_k (Σ_j A(400·t + i, j) · PR(j, k)) · PG(400·t + i, k), which is the sum over all 2400 rows regrouped in blocks
  of 400.
-/
import proofs.«125036_j5205500362863_1_alg».proof.Proof.KI.Region2
import proofs.«125036_j5205500362863_1_alg».proof.Proof.KI.Pay2
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-- Six blocks of 400 rows are the 2400 rows: a sum over the rows is the sum over the blocks of the sums inside each. -/
theorem sum_rows_6_400 (f : Fin 2400 → EReal) :
    ∑ i : Fin 2400, f i = ∑ t : Fin 6, ∑ r : Fin 400, f ⟨400 * t.val + r.val, by omega⟩ := by
  rw [← Equiv.sum_comp (finProdFinEquiv (m := 6) (n := 400)) f, Fintype.sum_prod_type]
  refine Finset.sum_congr rfl fun t _ => Finset.sum_congr rfl fun r _ => congrArg f (Fin.ext ?_)
  show r.val + 400 * t.val = 400 * t.val + r.val
  omega

section
variable (V : (c : Dev nD) → (b : Ref sig .tc) → Buf (Elt Ideal) ((c : Thread nD τ).loc b))

/-- The grid has six points. -/
theorem lt6_2 (t : Fin cfg2.N) : t.val < 6 := by
  have h := t.isLt
  have hN : cfg2.N = 6 := N_2
  omega

/-- Row i of the block at point t is row 400·t + i of the arrays. -/
abbrev row2 (t : Fin cfg2.N) (i : Fin 400) : Fin 2400 := ⟨400 * t.val + i.val, by have := lt6_2 t; omega⟩

/-! ## Where each window's block sits: the block index at every point -/

theorem idx2_0 : ∀ t : Fin cfg2.N, win2_0.index t (0 : Fin 2) = t.val ∧ win2_0.index t (1 : Fin 2) = 0 :=
  (by decide +kernel : ∀ t : Fin grid2.N, win2_0.index t (0 : Fin 2) = t.val ∧ win2_0.index t (1 : Fin 2) = 0)
theorem idx2_1 : ∀ t : Fin cfg2.N, win2_1.index t (0 : Fin 2) = t.val ∧ win2_1.index t (1 : Fin 2) = 0 :=
  (by decide +kernel : ∀ t : Fin grid2.N, win2_1.index t (0 : Fin 2) = t.val ∧ win2_1.index t (1 : Fin 2) = 0)
theorem idx2_2 : ∀ t : Fin cfg2.N, win2_2.index t (0 : Fin 2) = 0 ∧ win2_2.index t (1 : Fin 2) = 0 :=
  (by decide +kernel : ∀ t : Fin grid2.N, win2_2.index t (0 : Fin 2) = 0 ∧ win2_2.index t (1 : Fin 2) = 0)

/-! ## A block's entry is the array's entry -/

/-- The matrix block at point t, at (i, j), is the matrix at (400·t + i, j). -/
theorem blk2_0 (c : Dev nD) (t : Fin cfg2.N) (i : Fin 400) (j : Fin 6000) :
    (iblk2 V c 0 t : Vec Ideal S400x6000 .f32) (ix2 i j) = V c main_v41 (ix2 (row2 t i) j) := by
  unfold iblk2
  rw [View.read_apply]
  show V c main_v41 _ = V c main_v41 _
  congr 1
  funext a
  apply Fin.ext
  match a with
  | ⟨0, _⟩ => show win2_0.index t (0 : Fin 2) * 400 + 1 * i.val = 400 * t.val + i.val; rw [(idx2_0 t).1]; omega
  | ⟨1, _⟩ => show win2_0.index t (1 : Fin 2) * 6000 + 1 * j.val = j.val; rw [(idx2_0 t).2]; omega

/-- The left factor's block at point t, at (i, k), is the left factor at (400·t + i, k). -/
theorem blk2_1 (c : Dev nD) (t : Fin cfg2.N) (i : Fin 400) (k : Fin 3) :
    (iblk2 V c 1 t : Vec Ideal S400x3 .f32) (ix2 i k) = V c main_v149 (ix2 (row2 t i) k) := by
  unfold iblk2
  rw [View.read_apply]
  show V c main_v149 _ = V c main_v149 _
  congr 1
  funext a
  apply Fin.ext
  match a with
  | ⟨0, _⟩ => show win2_1.index t (0 : Fin 2) * 400 + 1 * i.val = 400 * t.val + i.val; rw [(idx2_1 t).1]; omega
  | ⟨1, _⟩ => show win2_1.index t (1 : Fin 2) * 3 + 1 * k.val = k.val; rw [(idx2_1 t).2]; omega

/-- The right factor's block is the whole right factor at every point. -/
theorem blk2_2 (c : Dev nD) (t : Fin cfg2.N) (j : Fin 6000) (k : Fin 3) :
    (iblk2 V c 2 t : Vec Ideal S6000x3 .f32) (ix2 j k) = V c main_v151 (ix2 j k) := by
  unfold iblk2
  rw [View.read_apply]
  show V c main_v151 _ = V c main_v151 _
  congr 1
  funext a
  apply Fin.ext
  match a with
  | ⟨0, _⟩ => show win2_2.index t (0 : Fin 2) * 6000 + 1 * j.val = j.val; rw [(idx2_2 t).1]; omega
  | ⟨1, _⟩ => show win2_2.index t (1 : Fin 2) * 3 + 1 * k.val = k.val; rw [(idx2_2 t).2]; omega

/-! ## The running sum -/

/-- One row's part of the trace: Σ_k (Σ_j A(i, j) · PR(j, k)) · PG(i, k). -/
def trRow {M K : ℕ} (A : (Cert.Loss.Mat M K).Idx → EReal) (PG : (Cert.Loss.Mat M 3).Idx → EReal)
    (PR : (Cert.Loss.Mat K 3).Idx → EReal) (i : Fin M) : EReal :=
  ∑ k : Fin 3, (∑ j : Fin K, A (ix2 i j) * PR (ix2 j k)) * PG (ix2 i k)

/-- The trace sum is the sum of the rows' parts. -/
theorem trSum_eq_rows {M K : ℕ} (A : (Cert.Loss.Mat M K).Idx → EReal) (PG : (Cert.Loss.Mat M 3).Idx → EReal)
    (PR : (Cert.Loss.Mat K 3).Idx → EReal) : Cert.Loss.trSum A PG PR = ∑ i : Fin M, trRow A PG PR i := rfl

/-- The block payload in the rows' parts: the running value plus the sum of the block's rows' parts. -/
theorem pay2_rows (x3 : Vec Ideal S400x6000 .f32) (x6 : Vec Ideal S6000x3 .f32) (x10 : Vec Ideal S400x3 .f32)
    (x17 : Vec Ideal S1x1 .f32) (y : S1x1.Idx) :
    k2_pay2 (F := Ideal) x3 x6 x10 x17 y = x17 y + ∑ i : Fin 400, trRow (M := 400) (K := 6000) x3 x10 x6 i :=
  pay2_apply x3 x6 x10 x17 y

/-- A row's part formed from the blocks at point t, at row i, is the arrays' row part at row 400·t + i. -/
theorem trRow_blk2 (c : Dev nD) (t : Fin cfg2.N) (i : Fin 400) :
    trRow (M := 400) (K := 6000) (iblk2 V c 0 t) (iblk2 V c 1 t) (iblk2 V c 2 t) i
      = trRow (M := 2400) (K := 6000) (V c main_v41) (V c main_v149) (V c main_v151) (row2 t i) := by
  unfold trRow
  refine Finset.sum_congr rfl fun k _ => ?_
  rw [blk2_1 V c t i k]
  refine congrArg (fun s : EReal => s * (_ : EReal)) (Finset.sum_congr rfl fun j _ => ?_)
  rw [blk2_0 V c t i j, blk2_2 V c t j k]

/-- The part of the trace over the rows of the block at point t. -/
def part2 (c : Dev nD) (t : Fin cfg2.N) : EReal :=
  ∑ i : Fin 400, trRow (M := 2400) (K := 6000) (V c main_v41) (V c main_v149) (V c main_v151) (row2 t i)

/-- The sum over a block formed from the blocks at point t is that part. -/
theorem blockSum2 (c : Dev nD) (t : Fin cfg2.N) :
    (∑ i : Fin 400, trRow (M := 400) (K := 6000) (iblk2 V c 0 t) (iblk2 V c 1 t) (iblk2 V c 2 t) i) = part2 V c t :=
  Finset.sum_congr rfl fun i _ => trRow_blk2 V c t i

/-- The cell the first point resets to reads zero. -/
theorem pay2_zero (y : S1x1.Idx) : (k2_pay1 (F := Ideal)) y = 0 := by
  unfold k2_pay1
  exact Ideal.ofBits_zero_f32

/-- After the body at position n the result cell holds the sum of the parts of the points 0 … n. -/
theorem acc2_eq (c : Dev nD) : ∀ (n : ℕ) (hn : n < cfg2.N) (y : S1x1.Idx),
    acc2 V c n hn y = ∑ t : Fin (n + 1), part2 V c ⟨t.val, Nat.lt_of_lt_of_le t.isLt hn⟩
  | 0, hn, y => by
    rw [Fin.sum_univ_one]
    show k2_pay2 (F := Ideal) (iblk2 V c 0 ⟨0, hn⟩) (iblk2 V c 2 ⟨0, hn⟩) (iblk2 V c 1 ⟨0, hn⟩) (k2_pay1 (F := Ideal)) y
      = part2 V c ⟨0, hn⟩
    refine (pay2_rows (iblk2 V c 0 ⟨0, hn⟩) (iblk2 V c 2 ⟨0, hn⟩) (iblk2 V c 1 ⟨0, hn⟩) (k2_pay1 (F := Ideal)) y).trans ?_
    rw [pay2_zero, zero_add]
    exact blockSum2 V c ⟨0, hn⟩
  | n + 1, hn, y => by
    rw [Fin.sum_univ_castSucc]
    show k2_pay2 (F := Ideal) (iblk2 V c 0 ⟨n + 1, hn⟩) (iblk2 V c 2 ⟨n + 1, hn⟩) (iblk2 V c 1 ⟨n + 1, hn⟩)
      (acc2 V c n (Nat.lt_of_succ_lt hn)) y = _
    refine (pay2_rows (iblk2 V c 0 ⟨n + 1, hn⟩) (iblk2 V c 2 ⟨n + 1, hn⟩) (iblk2 V c 1 ⟨n + 1, hn⟩)
      (acc2 V c n (Nat.lt_of_succ_lt hn)) y).trans ?_
    rw [acc2_eq c n (Nat.lt_of_succ_lt hn) y]
    exact congrArg _ (blockSum2 V c ⟨n + 1, hn⟩)

/-! ## The result array -/

/-- The last position. -/
theorem five_lt2 : 5 < cfg2.N := by rw [show cfg2.N = 6 from N_2]; decide

/-- The one write-back, after the last point, writes the cell: the 1 × 1 block at offsets zero is the whole array. -/
theorem flushed2_eq (c : Dev nD) (t : Fin cfg2.N) (hf : (cfg2.win 3).flush t = true) :
    (dat2 V c).flushed 3 t = ((cfg2.win 3).blk t).view.read (Elt Ideal) (acc2 V c 5 five_lt2) := by
  have h5 : t.val = 5 := by have := (flush2_3 t).mp hf; have := lt6_2 t; omega
  obtain rfl : t = t2_5 := Fin.ext h5
  show (cfg2.win 3).cut (grid2.coords t2_5) ((dat2 V c).after 3 t2_5) = _
  rw [after2_3]
  have hz' : (fun a => win2_3.index t2_5 a * main_v154.ty.shape.size a) = fun _ => 0 :=
    funext fun a => by fin_cases a <;> decide
  exact (Memref.read_access_unit_zero (Elt Ideal) main_v154 hz' (fun a => by rw [congrFun hz' a]; simp)
    (acc2 V c 5 five_lt2)).symm

/-- So the result array ends holding the cell after the last point. -/
theorem out2_arr (c : Dev nD) : (dat2 V c).arrAt 3 cfg2.N = acc2 V c 5 five_lt2 :=
  (dat2 V c).arrAt_eq_of_cover 3 (acc2 V c 5 five_lt2) (flushed2_eq V c) fun i =>
    ⟨t2_5, (flush2_3 t2_5).mpr rfl, by
      show i ∈ ((View.whole main_v154).slice (win2_3.rect t2_5)).set
      rw [View.set_slice_whole, Rect.mem_set_unit]
      intro a
      have h0 : (i 0 : Nat) < 1 := (i 0).isLt
      have h1 : (i 1 : Nat) < 1 := (i 1).isLt
      match a with
      | ⟨0, _⟩ =>
        show win2_3.index t2_5 0 * win2_3.size 0 ≤ (i 0 : Nat)
          ∧ (i 0 : Nat) < win2_3.index t2_5 0 * win2_3.size 0 + win2_3.xsize (grid2.coords t2_5) 0
        rw [show win2_3.index t2_5 0 * win2_3.size 0 = 0 from by decide +kernel,
          show win2_3.xsize (grid2.coords t2_5) 0 = 1 from by decide +kernel]
        omega
      | ⟨1, _⟩ =>
        show win2_3.index t2_5 1 * win2_3.size 1 ≤ (i 1 : Nat)
          ∧ (i 1 : Nat) < win2_3.index t2_5 1 * win2_3.size 1 + win2_3.xsize (grid2.coords t2_5) 1
        rw [show win2_3.index t2_5 1 * win2_3.size 1 = 0 from by decide +kernel,
          show win2_3.xsize (grid2.coords t2_5) 1 = 1 from by decide +kernel]
        omega⟩

/-- The array the region leaves in its result: the trace sum over the whole matrix. -/
theorem out2_eq (c : Dev nD) (y : S1x1.Idx) : (dat2 (F := Ideal) V c).arrAt 3 cfg2.N y
    = Cert.Loss.trSum (M := 2400) (K := 6000) (V c main_v41) (V c main_v149) (V c main_v151) := by
  refine (congrFun (out2_arr V c) y).trans ?_
  rw [acc2_eq V c 5 five_lt2 y]
  rw [trSum_eq_rows, sum_rows_6_400]
  rfl

end

end Cert.KernelIdeal.Hand

end
-- ==== Proof.KI.Tail.lean ====
/-
  The program's result from the arrays the first region enters with.

  After the three regions the host takes the three 1 × 1 results as scalars s1, s2, s3, forms
  l1 = 1000 · (s1 / 2 880 000), l2 = 1000 · (s2 / 7 200 000), l3 = 100 · (−s3), the total ((l1 + l2) + l3) + 0, and
  stacks the total, l1, l2, l3 and 0 into a vector of five. The three results are the two squared-error sums and the
  trace sum of the arrays each region read; no region writes another's inputs, so those arrays are the ones the first
  region enters with.
-/
import proofs.«125036_j5205500362863_1_alg».proof.Proof.KI.Exits
import proofs.«125036_j5205500362863_1_alg».proof.Proof.KI.Value0
import proofs.«125036_j5205500362863_1_alg».proof.Proof.KI.Value1
import proofs.«125036_j5205500362863_1_alg».proof.Proof.KI.Value2
import proofs.«125036_j5205500362863_1_alg».proof.Proof.Spec
import Idealize.ShloMosaic.Lib.StableHlo.Run

noncomputable section

namespace Idealize.ShloMosaic

/-- A concatenation of five parts depends on the parts' values only: equal parts give equal concatenations, the side
    condition (which speaks of the parts' shapes alone) being the same. As a congruence rule it lets a simplification
    rewrite the five operands standing inside the list of parts. -/
theorem concatenate_five_congr {α : Type} {t : Shape} {ax : Fin t.rank} {s₁ s₂ s₃ s₄ s₅ : Shape}
    {a a' : s₁.Idx → α} {b b' : s₂.Idx → α} {c c' : s₃.Idx → α} {d d' : s₄.Idx → α} {e e' : s₅.Idx → α}
    (h : Shape.Concatenates [s₁, s₂, s₃, s₄, s₅] t ax) (ha : a = a') (hb : b = b') (hc : c = c') (hd : d = d')
    (he : e = e') :
    concatenate t ax [⟨s₁, a⟩, ⟨s₂, b⟩, ⟨s₃, c⟩, ⟨s₄, d⟩, ⟨s₅, e⟩] h
      = concatenate t ax [⟨s₁, a'⟩, ⟨s₂, b'⟩, ⟨s₃, c'⟩, ⟨s₄, d'⟩, ⟨s₅, e'⟩] h := by
  subst ha hb hc hd he; rfl

end Idealize.ShloMosaic

namespace Idealize.ShloMosaic.StableHlo

variable {nD : Nat} {τ : Topo} {sig : RefSig} {Val : EltTy → Type}

/-- An operation over a literal family of five references writes, at its result, its function of the five operands'
    contents, each read at its own reference. -/
theorem nary5_result' {x a b c e y : Ref sig .tc}
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) := by
  rw [nary_result]; congr 1; funext k; fin_cases k <;> rfl

end Idealize.ShloMosaic.StableHlo

namespace Cert.KernelIdeal.Hand

open Cert.KernelIdeal Cert.KernelIdeal.Gen
open Idealize.ShloMosaic Idealize.ShloMosaic.TcCoe Idealize.ShloMosaic.ValueIdx
open Idealize.ShloMosaic.Pipeline (Dat)

section Generic
variable {F : FTy → Type} [FloatOps F]

/-- The closing host stretch as one function of the three regions' 1 × 1 results: each taken as a scalar, the three
    weighted losses, their total plus zero, and the five entries stacked. -/
def tailG (x0 x1 x2 : (⟨S1x1, .f32⟩ : BufTy).Contents (Elt F)) : (⟨S5, .f32⟩ : BufTy).Contents (Elt F) :=
  let l1 : (⟨S_, .f32⟩ : BufTy).Contents (Elt F) :=
    mulf (constant S_ .f32 0x447A0000#32) (Host.divf (shapeCast S_ x0 shapeCasts_S1x1_S_) (constant S_ .f32 0x4A2FC800#32))
  let l2 : (⟨S_, .f32⟩ : BufTy).Contents (Elt F) :=
    mulf (constant S_ .f32 0x447A0000#32) (Host.divf (shapeCast S_ x1 shapeCasts_S1x1_S_) (constant S_ .f32 0x4ADBBA00#32))
  let l3 : (⟨S_, .f32⟩ : BufTy).Contents (Elt F) :=
    mulf (constant S_ .f32 0x42C80000#32) (Host.negf (shapeCast S_ x2 shapeCasts_S1x1_S_))
  concatenate S5 0 [⟨S1, broadcastInDim S1 ![] bcast_S_S1 (addf (addf (addf l1 l2) l3) (constant S_ .f32 0x00000000#32))⟩,
    ⟨S1, broadcastInDim S1 ![] bcast_S_S1 l1⟩, ⟨S1, broadcastInDim S1 ![] bcast_S_S1 l2⟩,
    ⟨S1, broadcastInDim S1 ![] bcast_S_S1 l3⟩,
    ⟨S1, broadcastInDim S1 ![] bcast_S_S1 (constant S_ .f32 0x00000000#32)⟩] concatenates_S1_S1_S1_S1_S1_S5_d0

attribute [local congr] Idealize.ShloMosaic.concatenate_five_congr

open Idealize.ShloMosaic.StableHlo in
set_option maxHeartbeats 400000 in
/-- From any contents, the closing host stretch leaves in the result that function of the three regions' results. -/
theorem tail_read (V : Valuation τ sig (Elt F)) :
    StableHlo.after hostOps3 V (Proc.devRef .tc main_v172)
      = tailG (V (Proc.devRef .tc main_v152)) (V (Proc.devRef .tc main_v153)) (V (Proc.devRef .tc main_v154)) := by
  simp (disch := decide) only [after_cons, after_nil, nullary_result', unary_result', binary_result', reshape_result',
    nary5_result', nullary_result_ne', unary_result_ne', binary_result_ne', reshape_result_ne']
  rfl

end Generic

variable (m : (ℓ : Loc nD τ sig) → Buf (Elt Ideal) ℓ) (ρ : Dev nD → PrngReg)

/-- The first region's result array after all three regions: the squared-error sum of the arrays it entered with. -/
theorem res0_eq (c : Dev nD) : W7 (F := Ideal) m ρ c (Proc.devRef .tc main_v152)
    = fun _ => Cert.Loss.sqSum (M := 1200) (N := 2400) (W4 m ρ c (Proc.devRef .tc main_v13)) (W4 m ρ c (Proc.devRef .tc main_v142))
        (W4 m ρ c (Proc.devRef .tc main_v144)) (W4 m ρ c (Proc.devRef .tc main_v76)) (W4 m ρ c (Proc.devRef .tc main_v90)) :=
  funext fun y =>
    (congrFun ((W7_of_ne m ρ c main_v152 (by decide)).trans ((W6_of_ne m ρ c main_v152 (by decide)).trans
      (W5_arr m ρ c 5))) y).trans (out0_eq (V4 m ρ) c y)

/-- The second region's result array after all three regions: the squared-error sum of its arrays, which the first
    region does not write. -/
theorem res1_eq (c : Dev nD) : W7 (F := Ideal) m ρ c (Proc.devRef .tc main_v153)
    = fun _ => Cert.Loss.sqSum (M := 1200) (N := 6000) (W4 m ρ c (Proc.devRef .tc main_v27)) (W4 m ρ c (Proc.devRef .tc main_v143))
        (W4 m ρ c (Proc.devRef .tc main_v145)) (W4 m ρ c (Proc.devRef .tc main_v83)) (W4 m ρ c (Proc.devRef .tc main_v97)) :=
  funext fun y => by
    refine (congrFun ((W7_of_ne m ρ c main_v153 (by decide)).trans (W6_arr m ρ c 5)) y).trans ?_
    refine (out1_eq (V5 m ρ) c y).trans ?_
    have h1 : V5 m ρ c main_v27 = W4 m ρ c (Proc.devRef .tc main_v27) := W5_of_ne m ρ c main_v27 (by decide)
    have h2 : V5 m ρ c main_v143 = W4 m ρ c (Proc.devRef .tc main_v143) := W5_of_ne m ρ c main_v143 (by decide)
    have h3 : V5 m ρ c main_v145 = W4 m ρ c (Proc.devRef .tc main_v145) := W5_of_ne m ρ c main_v145 (by decide)
    have h4 : V5 m ρ c main_v83 = W4 m ρ c (Proc.devRef .tc main_v83) := W5_of_ne m ρ c main_v83 (by decide)
    have h5 : V5 m ρ c main_v97 = W4 m ρ c (Proc.devRef .tc main_v97) := W5_of_ne m ρ c main_v97 (by decide)
    rw [h1, h2, h3, h4, h5]

/-- The third region's result array: the trace sum of its arrays, which neither earlier region writes. -/
theorem res2_eq (c : Dev nD) : W7 (F := Ideal) m ρ c (Proc.devRef .tc main_v154)
    = fun _ => Cert.Loss.trSum (M := 2400) (K := 6000) (W4 m ρ c (Proc.devRef .tc main_v41)) (W4 m ρ c (Proc.devRef .tc main_v149))
        (W4 m ρ c (Proc.devRef .tc main_v151)) :=
  funext fun y => by
    refine (congrFun (W7_arr m ρ c 3) y).trans ?_
    refine (out2_eq (V6 m ρ) c y).trans ?_
    have h1 : V6 m ρ c main_v41 = W4 m ρ c (Proc.devRef .tc main_v41) :=
      (W6_of_ne m ρ c main_v41 (by decide)).trans (W5_of_ne m ρ c main_v41 (by decide))
    have h2 : V6 m ρ c main_v149 = W4 m ρ c (Proc.devRef .tc main_v149) :=
      (W6_of_ne m ρ c main_v149 (by decide)).trans (W5_of_ne m ρ c main_v149 (by decide))
    have h3 : V6 m ρ c main_v151 = W4 m ρ c (Proc.devRef .tc main_v151) :=
      (W6_of_ne m ρ c main_v151 (by decide)).trans (W5_of_ne m ρ c main_v151 (by decide))
    rw [h1, h2, h3]

set_option maxHeartbeats 400000 in
/-- The program's result: the five-entry vector of the weighted total, the three weighted losses and zero, from the
    two squared-error sums and the trace sum of the arrays the first region enters with. -/
theorem result_eq (hb : Cert.Loss.Sc.BroadcastsInDim Cert.Loss.V1 (![] : Fin 0 → Fin Cert.Loss.V1.rank))
    (hc : Shape.Concatenates [Cert.Loss.V1, Cert.Loss.V1, Cert.Loss.V1, Cert.Loss.V1, Cert.Loss.V1] Cert.Loss.V5 0)
    (c : Dev nD) : W8 (F := Ideal) m ρ c (Proc.devRef .tc main_v172)
    = Cert.Loss.tail hb hc
        (fun _ => Cert.Loss.sqSum (M := 1200) (N := 2400) (W4 m ρ c (Proc.devRef .tc main_v13)) (W4 m ρ c (Proc.devRef .tc main_v142))
          (W4 m ρ c (Proc.devRef .tc main_v144)) (W4 m ρ c (Proc.devRef .tc main_v76)) (W4 m ρ c (Proc.devRef .tc main_v90)))
        (fun _ => Cert.Loss.sqSum (M := 1200) (N := 6000) (W4 m ρ c (Proc.devRef .tc main_v27)) (W4 m ρ c (Proc.devRef .tc main_v143))
          (W4 m ρ c (Proc.devRef .tc main_v145)) (W4 m ρ c (Proc.devRef .tc main_v83)) (W4 m ρ c (Proc.devRef .tc main_v97)))
        (fun _ => Cert.Loss.trSum (M := 2400) (K := 6000) (W4 m ρ c (Proc.devRef .tc main_v41)) (W4 m ρ c (Proc.devRef .tc main_v149))
          (W4 m ρ c (Proc.devRef .tc main_v151)))
        (constant (F := Ideal) Cert.Loss.Sc .f32 0x00000000#32) := by
  show StableHlo.after (hostOps3 (F := Ideal)) (W7 m ρ c) (Proc.devRef .tc main_v172) = _
  rw [tail_read (F := Ideal) (W7 m ρ c), res0_eq m ρ c, res1_eq m ρ c, res2_eq m ρ c]
  rfl

end Cert.KernelIdeal.Hand

end
-- ==== Proof.KI.Pro0.lean ====
/- The first host stretch read at the seven arrays it gathers: each is the rows (then the columns) of an argument
   picked by index vectors whose negative entries are wrapped round, whatever the buffers held before. -/
import proofs.«125036_j5205500362863_1_alg».proof.Proof.Gen.KernelIdeal.Launch

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-- A vector of row numbers with the negative ones wrapped round (by adding the table's height), as a column. -/
def nidx1200 (x : (⟨S1200, .i32⟩ : BufTy).Contents (Elt F)) : (⟨S1200x1, .i32⟩ : BufTy).Contents (Elt F) :=
  broadcastInDim S1200x1 ![0] bcast_S1200_S1200x1_0
    (select (cmpi .slt x (broadcastInDim S1200 ![] bcast_S_S1200 (constantI S_ 32 0#32)))
      (addi x (broadcastInDim S1200 ![] bcast_S_S1200 (constantI S_ 32 4000#32))) x)
/-- A vector of row numbers with the negative ones wrapped round (by adding the table's height), as a column. -/
def nidx2400 (x : (⟨S2400, .i32⟩ : BufTy).Contents (Elt F)) : (⟨S2400x1, .i32⟩ : BufTy).Contents (Elt F) :=
  broadcastInDim S2400x1 ![0] bcast_S2400_S2400x1_0
    (select (cmpi .slt x (broadcastInDim S2400 ![] bcast_S_S2400 (constantI S_ 32 0#32)))
      (addi x (broadcastInDim S2400 ![] bcast_S_S2400 (constantI S_ 32 8000#32))) x)
/-- A vector of row numbers with the negative ones wrapped round (by adding the table's height), as a column. -/
def nidx6000 (x : (⟨S6000, .i32⟩ : BufTy).Contents (Elt F)) : (⟨S6000x1, .i32⟩ : BufTy).Contents (Elt F) :=
  broadcastInDim S6000x1 ![0] bcast_S6000_S6000x1_0
    (select (cmpi .slt x (broadcastInDim S6000 ![] bcast_S_S6000 (constantI S_ 32 0#32)))
      (addi x (broadcastInDim S6000 ![] bcast_S_S6000 (constantI S_ 32 20000#32))) x)

/-- The first data block: rows of argument 0 by argument 12, then columns by argument 14. -/
theorem h0_v13 (V : Valuation τ sig (Elt F)) :
    StableHlo.after hostOps0 V (Proc.devRef .tc main_v13)
      = (Host.gather gather_S1200x8000_S2400x1_S1200x2400_0_1_n_n_1_1_12001 (Host.gather gather_S4000x8000_S1200x1_S1200x8000_1_0_n_n_0_1_18000 (V (Proc.devRef .tc main_arg0)) (nidx1200 (V (Proc.devRef .tc main_arg12)))) (nidx2400 (V (Proc.devRef .tc main_arg14)))) := by
  after_results_simp
  rfl

/-- The second data block: rows of argument 1 by argument 13, then columns by argument 15. -/
theorem h0_v27 (V : Valuation τ sig (Elt F)) :
    StableHlo.after hostOps0 V (Proc.devRef .tc main_v27)
      = (Host.gather gather_S1200x20000_S6000x1_S1200x6000_0_1_n_n_1_1_12001 (Host.gather gather_S4000x20000_S1200x1_S1200x20000_1_0_n_n_0_1_120000 (V (Proc.devRef .tc main_arg1)) (nidx1200 (V (Proc.devRef .tc main_arg13)))) (nidx6000 (V (Proc.devRef .tc main_arg15)))) := by
  after_results_simp
  rfl

/-- The cross block: rows of argument 2 by argument 14, then columns by argument 15. -/
theorem h0_v41 (V : Valuation τ sig (Elt F)) :
    StableHlo.after hostOps0 V (Proc.devRef .tc main_v41)
      = (Host.gather gather_S2400x20000_S6000x1_S2400x6000_0_1_n_n_1_1_24001 (Host.gather gather_S8000x20000_S2400x1_S2400x20000_1_0_n_n_0_1_120000 (V (Proc.devRef .tc main_arg2)) (nidx2400 (V (Proc.devRef .tc main_arg14)))) (nidx6000 (V (Proc.devRef .tc main_arg15)))) := by
  after_results_simp
  rfl

/-- The first column bias: columns of argument 8 by argument 14. -/
theorem h0_v76 (V : Valuation τ sig (Elt F)) :
    StableHlo.after hostOps0 V (Proc.devRef .tc main_v76)
      = (Host.gather gather_S1x8000_S2400x1_S1x2400_0_1_n_n_1_1_11 (V (Proc.devRef .tc main_arg8)) (nidx2400 (V (Proc.devRef .tc main_arg14)))) := by
  after_results_simp
  rfl

/-- The second column bias: columns of argument 9 by argument 15. -/
theorem h0_v83 (V : Valuation τ sig (Elt F)) :
    StableHlo.after hostOps0 V (Proc.devRef .tc main_v83)
      = (Host.gather gather_S1x20000_S6000x1_S1x6000_0_1_n_n_1_1_11 (V (Proc.devRef .tc main_arg9)) (nidx6000 (V (Proc.devRef .tc main_arg15)))) := by
  after_results_simp
  rfl

/-- The first row bias: rows of argument 10 by argument 12. -/
theorem h0_v90 (V : Valuation τ sig (Elt F)) :
    StableHlo.after hostOps0 V (Proc.devRef .tc main_v90)
      = (Host.gather gather_S4000x1_S1200x1_S1200x1_1_0_n_n_0_1_11 (V (Proc.devRef .tc main_arg10)) (nidx1200 (V (Proc.devRef .tc main_arg12)))) := by
  after_results_simp
  rfl

/-- The second row bias: rows of argument 11 by argument 13. -/
theorem h0_v97 (V : Valuation τ sig (Elt F)) :
    StableHlo.after hostOps0 V (Proc.devRef .tc main_v97)
      = (Host.gather gather_S4000x1_S1200x1_S1200x1_1_0_n_n_0_1_11 (V (Proc.devRef .tc main_arg11)) (nidx1200 (V (Proc.devRef .tc main_arg13)))) := by
  after_results_simp
  rfl

end Cert.KernelIdeal.Hand

end
-- ==== Proof.KI.Pro1.lean ====
/- The first host stretch read at its softmaxes and at what it makes of them: two are multiplied by the 3×3 argument,
   two are transposed; the two transposed ones are also kept as they are for the norms that follow. -/
import proofs.«125036_j5205500362863_1_alg».proof.Proof.KI.Pro0

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-- The exponentials of a three-column array's entries, each row shifted by its maximum. -/
def sexp1200 (x : (⟨S1200x3, .f32⟩ : BufTy).Contents (Elt F)) : (⟨S1200x3, .f32⟩ : BufTy).Contents (Elt F) :=
  Host.exp (subf x (broadcastInDim S1200x3 ![0, 1] bcast_S1200x1_S1200x3_0_1 (broadcastInDim S1200x1 ![0] bcast_S1200_S1200x1_0
    (maximumf (broadcastInDim S1200 ![] bcast_S_S1200 (constant S_ .f32 0xFF800000#32))
      (Host.reduce FloatOps.maximumf x (constant S_ .f32 0xFF800000#32) reducesTo_S1200x3_S1200_d1 h_S_)))))
/-- The row-wise softmax of a three-column array. -/
def smax1200 (x : (⟨S1200x3, .f32⟩ : BufTy).Contents (Elt F)) : (⟨S1200x3, .f32⟩ : BufTy).Contents (Elt F) :=
  Host.divf (sexp1200 x) (broadcastInDim S1200x3 ![0, 1] bcast_S1200x1_S1200x3_0_1 (broadcastInDim S1200x1 ![0] bcast_S1200_S1200x1_0
    (Host.reduceAdd (sexp1200 x) (constant S_ .f32 0x00000000#32) reducesTo_S1200x3_S1200_d1 h_S_)))
/-- The exponentials of a three-column array's entries, each row shifted by its maximum. -/
def sexp2400 (x : (⟨S2400x3, .f32⟩ : BufTy).Contents (Elt F)) : (⟨S2400x3, .f32⟩ : BufTy).Contents (Elt F) :=
  Host.exp (subf x (broadcastInDim S2400x3 ![0, 1] bcast_S2400x1_S2400x3_0_1 (broadcastInDim S2400x1 ![0] bcast_S2400_S2400x1_0
    (maximumf (broadcastInDim S2400 ![] bcast_S_S2400 (constant S_ .f32 0xFF800000#32))
      (Host.reduce FloatOps.maximumf x (constant S_ .f32 0xFF800000#32) reducesTo_S2400x3_S2400_d1 h_S_)))))
/-- The row-wise softmax of a three-column array. -/
def smax2400 (x : (⟨S2400x3, .f32⟩ : BufTy).Contents (Elt F)) : (⟨S2400x3, .f32⟩ : BufTy).Contents (Elt F) :=
  Host.divf (sexp2400 x) (broadcastInDim S2400x3 ![0, 1] bcast_S2400x1_S2400x3_0_1 (broadcastInDim S2400x1 ![0] bcast_S2400_S2400x1_0
    (Host.reduceAdd (sexp2400 x) (constant S_ .f32 0x00000000#32) reducesTo_S2400x3_S2400_d1 h_S_)))
/-- The exponentials of a three-column array's entries, each row shifted by its maximum. -/
def sexp6000 (x : (⟨S6000x3, .f32⟩ : BufTy).Contents (Elt F)) : (⟨S6000x3, .f32⟩ : BufTy).Contents (Elt F) :=
  Host.exp (subf x (broadcastInDim S6000x3 ![0, 1] bcast_S6000x1_S6000x3_0_1 (broadcastInDim S6000x1 ![0] bcast_S6000_S6000x1_0
    (maximumf (broadcastInDim S6000 ![] bcast_S_S6000 (constant S_ .f32 0xFF800000#32))
      (Host.reduce FloatOps.maximumf x (constant S_ .f32 0xFF800000#32) reducesTo_S6000x3_S6000_d1 h_S_)))))
/-- The row-wise softmax of a three-column array. -/
def smax6000 (x : (⟨S6000x3, .f32⟩ : BufTy).Contents (Elt F)) : (⟨S6000x3, .f32⟩ : BufTy).Contents (Elt F) :=
  Host.divf (sexp6000 x) (broadcastInDim S6000x3 ![0, 1] bcast_S6000x1_S6000x3_0_1 (broadcastInDim S6000x1 ![0] bcast_S6000_S6000x1_0
    (Host.reduceAdd (sexp6000 x) (constant S_ .f32 0x00000000#32) reducesTo_S6000x3_S6000_d1 h_S_)))

set_option maxHeartbeats 1000000 in
/-- The first row factor: the softmax of argument 3's rows picked by argument 12, times argument 7. -/
theorem h0_v142 (V : Valuation τ sig (Elt F)) :
    StableHlo.after hostOps0 V (Proc.devRef .tc main_v142)
      = Host.dotGeneral dot_S1200x3_S3x3_S1200x3_1_0_0_1_n_n none (smax1200 (Host.gather gather_S4000x3_S1200x1_S1200x3_1_0_n_n_0_1_13 (V (Proc.devRef .tc main_arg3)) (nidx1200 (V (Proc.devRef .tc main_arg12))))) (V (Proc.devRef .tc main_arg7)) := by
  after_results_simp
  rfl

set_option maxHeartbeats 1000000 in
/-- The second row factor: the softmax of argument 4's rows picked by argument 13, times argument 7. -/
theorem h0_v143 (V : Valuation τ sig (Elt F)) :
    StableHlo.after hostOps0 V (Proc.devRef .tc main_v143)
      = Host.dotGeneral dot_S1200x3_S3x3_S1200x3_1_0_0_1_n_n none (smax1200 (Host.gather gather_S4000x3_S1200x1_S1200x3_1_0_n_n_0_1_13 (V (Proc.devRef .tc main_arg4)) (nidx1200 (V (Proc.devRef .tc main_arg13))))) (V (Proc.devRef .tc main_arg7)) := by
  after_results_simp
  rfl

/-- The first column factor before transposition: the softmax of argument 5's rows picked by argument 14. -/
theorem h0_v130 (V : Valuation τ sig (Elt F)) :
    StableHlo.after hostOps0 V (Proc.devRef .tc main_v130)
      = smax2400 (Host.gather gather_S8000x3_S2400x1_S2400x3_1_0_n_n_0_1_13 (V (Proc.devRef .tc main_arg5)) (nidx2400 (V (Proc.devRef .tc main_arg14)))) := by
  after_results_simp
  rfl

/-- The second column factor before transposition: the softmax of argument 6's rows picked by argument 15. -/
theorem h0_v141 (V : Valuation τ sig (Elt F)) :
    StableHlo.after hostOps0 V (Proc.devRef .tc main_v141)
      = smax6000 (Host.gather gather_S20000x3_S6000x1_S6000x3_1_0_n_n_0_1_13 (V (Proc.devRef .tc main_arg6)) (nidx6000 (V (Proc.devRef .tc main_arg15)))) := by
  after_results_simp
  rfl

/-- The first column factor, transposed. -/
theorem h0_v144 (V : Valuation τ sig (Elt F)) :
    StableHlo.after hostOps0 V (Proc.devRef .tc main_v144)
      = transpose S3x2400 [1, 0] (smax2400 (Host.gather gather_S8000x3_S2400x1_S2400x3_1_0_n_n_0_1_13 (V (Proc.devRef .tc main_arg5)) (nidx2400 (V (Proc.devRef .tc main_arg14))))) transposes_S2400x3_S3x2400_1_0 := by
  after_results_simp
  rfl

/-- The second column factor, transposed. -/
theorem h0_v145 (V : Valuation τ sig (Elt F)) :
    StableHlo.after hostOps0 V (Proc.devRef .tc main_v145)
      = transpose S3x6000 [1, 0] (smax6000 (Host.gather gather_S20000x3_S6000x1_S6000x3_1_0_n_n_0_1_13 (V (Proc.devRef .tc main_arg6)) (nidx6000 (V (Proc.devRef .tc main_arg15))))) transposes_S6000x3_S3x6000_1_0 := by
  after_results_simp
  rfl

end Cert.KernelIdeal.Hand

end
-- ==== Proof.KI.Pro2.lean ====
/- The three short host stretches before the first region, from any contents: they norm the two column factors and
   divide each by its norm, and leave the eleven other arrays the regions read as they were. -/
import proofs.«125036_j5205500362863_1_alg».proof.Proof.Gen.KernelIdeal.Launch

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-- A three-column array divided by the square root of the sum of its squared entries. -/
def nrm2400 (x : (⟨S2400x3, .f32⟩ : BufTy).Contents (Elt F)) : (⟨S2400x3, .f32⟩ : BufTy).Contents (Elt F) :=
  Host.divf x (broadcastInDim S2400x3 ![] bcast_S_S2400x3
    (Host.sqrt (Host.reduceAdd (mulf x x) (constant S_ .f32 0x00000000#32) reducesTo_S2400x3_S_d0_1 h_S_)))
/-- A three-column array divided by the square root of the sum of its squared entries. -/
def nrm6000 (x : (⟨S6000x3, .f32⟩ : BufTy).Contents (Elt F)) : (⟨S6000x3, .f32⟩ : BufTy).Contents (Elt F) :=
  Host.divf x (broadcastInDim S6000x3 ![] bcast_S_S6000x3
    (Host.sqrt (Host.reduceAdd (mulf x x) (constant S_ .f32 0x00000000#32) reducesTo_S6000x3_S_d0_1 h_S_)))

/-- The first normed factor. -/
theorem t_v149 (X : Valuation τ sig (Elt F)) :
    StableHlo.after hostOps0_3 (StableHlo.after hostOps0_2 (StableHlo.after hostOps0_1 X)) (Proc.devRef .tc main_v149) = nrm2400 (X (Proc.devRef .tc main_v130)) := by
  after_results_simp
  rfl
/-- The second normed factor. -/
theorem t_v151 (X : Valuation τ sig (Elt F)) :
    StableHlo.after hostOps0_3 (StableHlo.after hostOps0_2 (StableHlo.after hostOps0_1 X)) (Proc.devRef .tc main_v151) = nrm6000 (X (Proc.devRef .tc main_v141)) := by
  after_results_simp
  rfl
theorem t_v13 (X : Valuation τ sig (Elt F)) :
    StableHlo.after hostOps0_3 (StableHlo.after hostOps0_2 (StableHlo.after hostOps0_1 X)) (Proc.devRef .tc main_v13) = (X (Proc.devRef .tc main_v13)) := by
  after_results_simp
theorem t_v142 (X : Valuation τ sig (Elt F)) :
    StableHlo.after hostOps0_3 (StableHlo.after hostOps0_2 (StableHlo.after hostOps0_1 X)) (Proc.devRef .tc main_v142) = (X (Proc.devRef .tc main_v142)) := by
  after_results_simp
theorem t_v144 (X : Valuation τ sig (Elt F)) :
    StableHlo.after hostOps0_3 (StableHlo.after hostOps0_2 (StableHlo.after hostOps0_1 X)) (Proc.devRef .tc main_v144) = (X (Proc.devRef .tc main_v144)) := by
  after_results_simp
theorem t_v76 (X : Valuation τ sig (Elt F)) :
    StableHlo.after hostOps0_3 (StableHlo.after hostOps0_2 (StableHlo.after hostOps0_1 X)) (Proc.devRef .tc main_v76) = (X (Proc.devRef .tc main_v76)) := by
  after_results_simp
theorem t_v90 (X : Valuation τ sig (Elt F)) :
    StableHlo.after hostOps0_3 (StableHlo.after hostOps0_2 (StableHlo.after hostOps0_1 X)) (Proc.devRef .tc main_v90) = (X (Proc.devRef .tc main_v90)) := by
  after_results_simp
theorem t_v27 (X : Valuation τ sig (Elt F)) :
    StableHlo.after hostOps0_3 (StableHlo.after hostOps0_2 (StableHlo.after hostOps0_1 X)) (Proc.devRef .tc main_v27) = (X (Proc.devRef .tc main_v27)) := by
  after_results_simp
theorem t_v143 (X : Valuation τ sig (Elt F)) :
    StableHlo.after hostOps0_3 (StableHlo.after hostOps0_2 (StableHlo.after hostOps0_1 X)) (Proc.devRef .tc main_v143) = (X (Proc.devRef .tc main_v143)) := by
  after_results_simp
theorem t_v145 (X : Valuation τ sig (Elt F)) :
    StableHlo.after hostOps0_3 (StableHlo.after hostOps0_2 (StableHlo.after hostOps0_1 X)) (Proc.devRef .tc main_v145) = (X (Proc.devRef .tc main_v145)) := by
  after_results_simp
theorem t_v83 (X : Valuation τ sig (Elt F)) :
    StableHlo.after hostOps0_3 (StableHlo.after hostOps0_2 (StableHlo.after hostOps0_1 X)) (Proc.devRef .tc main_v83) = (X (Proc.devRef .tc main_v83)) := by
  after_results_simp
theorem t_v97 (X : Valuation τ sig (Elt F)) :
    StableHlo.after hostOps0_3 (StableHlo.after hostOps0_2 (StableHlo.after hostOps0_1 X)) (Proc.devRef .tc main_v97) = (X (Proc.devRef .tc main_v97)) := by
  after_results_simp
theorem t_v41 (X : Valuation τ sig (Elt F)) :
    StableHlo.after hostOps0_3 (StableHlo.after hostOps0_2 (StableHlo.after hostOps0_1 X)) (Proc.devRef .tc main_v41) = (X (Proc.devRef .tc main_v41)) := by
  after_results_simp

end Cert.KernelIdeal.Hand

end
-- ==== Proof.KI.Prologue.lean ====
/- The thirteen arrays the three regions read are, at the first region's entry, what the reference's own stages compute
   from the same arguments: the host operations before the regions are the reference's operations on those arrays, one
   for one (index wrapping and gathers, four row-wise softmaxes, two products with the 3×3 argument, two transposes, two
   norms), and nothing in between overwrites them. -/
import proofs.«125036_j5205500362863_1_alg».proof.Proof.KI.Fold
import proofs.«125036_j5205500362863_1_alg».proof.Proof.KI.Pro1
import proofs.«125036_j5205500362863_1_alg».proof.Proof.KI.Pro2
import proofs.«125036_j5205500362863_1_alg».proof.Proof.Ref.Read

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

variable (m : (ℓ : Loc nD τ sig) → Buf (Elt Ideal) ℓ) (ρ : Dev nD → PrngReg)

/-- The first data block, as the reference computes it from the same arguments. -/
theorem entry_v13 (c : Dev nD) : W4 (F := Ideal) m ρ c (Proc.devRef .tc main_v13)
    = Cert.ReferenceIdeal.ReadP.val_main_v13 (F := Ideal) (m ((c.tc : Thread nD τ).loc main_arg0)) (m ((c.tc : Thread nD τ).loc main_arg12)) (m ((c.tc : Thread nD τ).loc main_arg14)) := by
  show StableHlo.after hostOps0_3 (StableHlo.after hostOps0_2 (StableHlo.after hostOps0_1 (StableHlo.after hostOps0 (W0 m ρ c))))
    (Proc.devRef .tc main_v13) = _
  rw [t_v13, h0_v13]
  rfl

/-- The first row factor, as the reference computes it from the same arguments. -/
theorem entry_v142 (c : Dev nD) : W4 (F := Ideal) m ρ c (Proc.devRef .tc main_v142)
    = Cert.ReferenceIdeal.ReadP.val_main_v114 (F := Ideal) (m ((c.tc : Thread nD τ).loc main_arg3)) (m ((c.tc : Thread nD τ).loc main_arg7)) (m ((c.tc : Thread nD τ).loc main_arg12)) := by
  show StableHlo.after hostOps0_3 (StableHlo.after hostOps0_2 (StableHlo.after hostOps0_1 (StableHlo.after hostOps0 (W0 m ρ c))))
    (Proc.devRef .tc main_v142) = _
  rw [t_v142, h0_v142]
  rfl

/-- The first column factor, transposed, as the reference computes it from the same arguments. -/
theorem entry_v144 (c : Dev nD) : W4 (F := Ideal) m ρ c (Proc.devRef .tc main_v144)
    = Cert.ReferenceIdeal.ReadP.val_main_v115 (F := Ideal) (m ((c.tc : Thread nD τ).loc main_arg5)) (m ((c.tc : Thread nD τ).loc main_arg14)) := by
  show StableHlo.after hostOps0_3 (StableHlo.after hostOps0_2 (StableHlo.after hostOps0_1 (StableHlo.after hostOps0 (W0 m ρ c))))
    (Proc.devRef .tc main_v144) = _
  rw [t_v144, h0_v144]
  rfl

/-- The first column bias, as the reference computes it from the same arguments. -/
theorem entry_v76 (c : Dev nD) : W4 (F := Ideal) m ρ c (Proc.devRef .tc main_v76)
    = Cert.ReferenceIdeal.ReadP.val_main_v124 (F := Ideal) (m ((c.tc : Thread nD τ).loc main_arg8)) (m ((c.tc : Thread nD τ).loc main_arg14)) := by
  show StableHlo.after hostOps0_3 (StableHlo.after hostOps0_2 (StableHlo.after hostOps0_1 (StableHlo.after hostOps0 (W0 m ρ c))))
    (Proc.devRef .tc main_v76) = _
  rw [t_v76, h0_v76]
  rfl

/-- The first row bias, as the reference computes it from the same arguments. -/
theorem entry_v90 (c : Dev nD) : W4 (F := Ideal) m ρ c (Proc.devRef .tc main_v90)
    = Cert.ReferenceIdeal.ReadP.val_main_v133 (F := Ideal) (m ((c.tc : Thread nD τ).loc main_arg10)) (m ((c.tc : Thread nD τ).loc main_arg12)) := by
  show StableHlo.after hostOps0_3 (StableHlo.after hostOps0_2 (StableHlo.after hostOps0_1 (StableHlo.after hostOps0 (W0 m ρ c))))
    (Proc.devRef .tc main_v90) = _
  rw [t_v90, h0_v90]
  rfl

/-- The second data block, as the reference computes it from the same arguments. -/
theorem entry_v27 (c : Dev nD) : W4 (F := Ideal) m ρ c (Proc.devRef .tc main_v27)
    = Cert.ReferenceIdeal.ReadP.val_main_v27 (F := Ideal) (m ((c.tc : Thread nD τ).loc main_arg1)) (m ((c.tc : Thread nD τ).loc main_arg13)) (m ((c.tc : Thread nD τ).loc main_arg15)) := by
  show StableHlo.after hostOps0_3 (StableHlo.after hostOps0_2 (StableHlo.after hostOps0_1 (StableHlo.after hostOps0 (W0 m ρ c))))
    (Proc.devRef .tc main_v27) = _
  rw [t_v27, h0_v27]
  rfl

/-- The second row factor, as the reference computes it from the same arguments. -/
theorem entry_v143 (c : Dev nD) : W4 (F := Ideal) m ρ c (Proc.devRef .tc main_v143)
    = Cert.ReferenceIdeal.ReadP.val_main_v139 (F := Ideal) (m ((c.tc : Thread nD τ).loc main_arg4)) (m ((c.tc : Thread nD τ).loc main_arg7)) (m ((c.tc : Thread nD τ).loc main_arg13)) := by
  show StableHlo.after hostOps0_3 (StableHlo.after hostOps0_2 (StableHlo.after hostOps0_1 (StableHlo.after hostOps0 (W0 m ρ c))))
    (Proc.devRef .tc main_v143) = _
  rw [t_v143, h0_v143]
  rfl

/-- The second column factor, transposed, as the reference computes it from the same arguments. -/
theorem entry_v145 (c : Dev nD) : W4 (F := Ideal) m ρ c (Proc.devRef .tc main_v145)
    = Cert.ReferenceIdeal.ReadP.val_main_v140 (F := Ideal) (m ((c.tc : Thread nD τ).loc main_arg6)) (m ((c.tc : Thread nD τ).loc main_arg15)) := by
  show StableHlo.after hostOps0_3 (StableHlo.after hostOps0_2 (StableHlo.after hostOps0_1 (StableHlo.after hostOps0 (W0 m ρ c))))
    (Proc.devRef .tc main_v145) = _
  rw [t_v145, h0_v145]
  rfl

/-- The second column bias, as the reference computes it from the same arguments. -/
theorem entry_v83 (c : Dev nD) : W4 (F := Ideal) m ρ c (Proc.devRef .tc main_v83)
    = Cert.ReferenceIdeal.ReadP.val_main_v149 (F := Ideal) (m ((c.tc : Thread nD τ).loc main_arg9)) (m ((c.tc : Thread nD τ).loc main_arg15)) := by
  show StableHlo.after hostOps0_3 (StableHlo.after hostOps0_2 (StableHlo.after hostOps0_1 (StableHlo.after hostOps0 (W0 m ρ c))))
    (Proc.devRef .tc main_v83) = _
  rw [t_v83, h0_v83]
  rfl

/-- The second row bias, as the reference computes it from the same arguments. -/
theorem entry_v97 (c : Dev nD) : W4 (F := Ideal) m ρ c (Proc.devRef .tc main_v97)
    = Cert.ReferenceIdeal.ReadP.val_main_v158 (F := Ideal) (m ((c.tc : Thread nD τ).loc main_arg11)) (m ((c.tc : Thread nD τ).loc main_arg13)) := by
  show StableHlo.after hostOps0_3 (StableHlo.after hostOps0_2 (StableHlo.after hostOps0_1 (StableHlo.after hostOps0 (W0 m ρ c))))
    (Proc.devRef .tc main_v97) = _
  rw [t_v97, h0_v97]
  rfl

/-- The cross block, as the reference computes it from the same arguments. -/
theorem entry_v41 (c : Dev nD) : W4 (F := Ideal) m ρ c (Proc.devRef .tc main_v41)
    = Cert.ReferenceIdeal.ReadP.val_main_v41 (F := Ideal) (m ((c.tc : Thread nD τ).loc main_arg2)) (m ((c.tc : Thread nD τ).loc main_arg14)) (m ((c.tc : Thread nD τ).loc main_arg15)) := by
  show StableHlo.after hostOps0_3 (StableHlo.after hostOps0_2 (StableHlo.after hostOps0_1 (StableHlo.after hostOps0 (W0 m ρ c))))
    (Proc.devRef .tc main_v41) = _
  rw [t_v41, h0_v41]
  rfl

/-- The first normed factor, as the reference computes it from the same arguments. -/
theorem entry_v149 (c : Dev nD) : W4 (F := Ideal) m ρ c (Proc.devRef .tc main_v149)
    = Cert.ReferenceIdeal.ReadP.val_main_v166 (F := Ideal) (m ((c.tc : Thread nD τ).loc main_arg5)) (m ((c.tc : Thread nD τ).loc main_arg14)) := by
  show StableHlo.after hostOps0_3 (StableHlo.after hostOps0_2 (StableHlo.after hostOps0_1 (StableHlo.after hostOps0 (W0 m ρ c))))
    (Proc.devRef .tc main_v149) = _
  rw [t_v149, h0_v130]
  rfl

/-- The second normed factor, as the reference computes it from the same arguments. -/
theorem entry_v151 (c : Dev nD) : W4 (F := Ideal) m ρ c (Proc.devRef .tc main_v151)
    = Cert.ReferenceIdeal.ReadP.val_main_v169 (F := Ideal) (m ((c.tc : Thread nD τ).loc main_arg6)) (m ((c.tc : Thread nD τ).loc main_arg15)) := by
  show StableHlo.after hostOps0_3 (StableHlo.after hostOps0_2 (StableHlo.after hostOps0_1 (StableHlo.after hostOps0 (W0 m ρ c))))
    (Proc.devRef .tc main_v151) = _
  rw [t_v151, h0_v141]
  rfl

end Cert.KernelIdeal.Hand

end
-- ==== Proof.Ref.Value.lean ====
/-
  The reference program's result in the specification's words.

  The reference's five results are the weighted total, the three weighted losses and a last entry, joined into one
  vector. Each of the first two losses is a float sum over a whole matrix of squared residuals: read at an index, the
  summand is (X − PA·BT − BC − BR)², the product PA·BT a three-term contraction, the column biases BC broadcast down the
  rows and the row biases BR along the columns; the sum over every index of the matrix is the double sum over rows and
  columns. The third loss is the sum over a 2400 × 3 array of (A·PR) ∘ PG, the product a contraction over 6000 terms.
  Each sum starts from the literal zero, which is the extended reals' zero. The last entry is the literal zero times
  the entropy loss, which on the extended reals is the literal zero; the same term is the total's last summand.
-/
import proofs.«125036_j5205500362863_1_alg».proof.Proof.Ref.RunOps
import proofs.«125036_j5205500362863_1_alg».proof.Proof.Ref.Read
import proofs.«125036_j5205500362863_1_alg».proof.Proof.Spec

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP
open Idealize.ShloMosaic.ValueIdx Cert.Loss

/-! ## The index functions of the layout operations and contractions, at a row and a column -/

/-- The first product's left operand is read at (row, k) … -/
theorem lidx116 (a : Fin 1200) (b : Fin 2400) (k : Fin 3) : lidx_main_v116 (ix2 a b) k = ix2 a k :=
  funext fun d => Fin.ext (by match d with | ⟨0, _⟩ => rfl | ⟨1, _⟩ => rfl)
/-- … and its right operand at (k, column). -/
theorem ridx116 (a : Fin 1200) (b : Fin 2400) (k : Fin 3) : ridx_main_v116 (ix2 a b) k = ix2 k b :=
  funext fun d => Fin.ext (by match d with | ⟨0, _⟩ => rfl | ⟨1, _⟩ => rfl)
/-- The column biases are read at (0, column) … -/
theorem idx125 (a : Fin 1200) (b : Fin 2400) : idx_main_v125 (ix2 a b) = ix2 (0 : Fin 1) b :=
  funext fun d => Fin.ext (by match d with | ⟨0, _⟩ => rfl | ⟨1, _⟩ => rfl)
/-- … and the row biases at (row, 0). -/
theorem idx134 (a : Fin 1200) (b : Fin 2400) : idx_main_v134 (ix2 a b) = ix2 a (0 : Fin 1) :=
  funext fun d => Fin.ext (by match d with | ⟨0, _⟩ => rfl | ⟨1, _⟩ => rfl)

/-- The same four for the second matrix, of 6000 columns. -/
theorem lidx141 (a : Fin 1200) (b : Fin 6000) (k : Fin 3) : lidx_main_v141 (ix2 a b) k = ix2 a k :=
  funext fun d => Fin.ext (by match d with | ⟨0, _⟩ => rfl | ⟨1, _⟩ => rfl)
theorem ridx141 (a : Fin 1200) (b : Fin 6000) (k : Fin 3) : ridx_main_v141 (ix2 a b) k = ix2 k b :=
  funext fun d => Fin.ext (by match d with | ⟨0, _⟩ => rfl | ⟨1, _⟩ => rfl)
theorem idx150 (a : Fin 1200) (b : Fin 6000) : idx_main_v150 (ix2 a b) = ix2 (0 : Fin 1) b :=
  funext fun d => Fin.ext (by match d with | ⟨0, _⟩ => rfl | ⟨1, _⟩ => rfl)
theorem idx159 (a : Fin 1200) (b : Fin 6000) : idx_main_v159 (ix2 a b) = ix2 a (0 : Fin 1) :=
  funext fun d => Fin.ext (by match d with | ⟨0, _⟩ => rfl | ⟨1, _⟩ => rfl)

/-- The third loss's product reads its left operand at (row, j) and its right operand at (j, factor). -/
theorem lidx170 (a : Fin 2400) (k : Fin 3) (j : Fin 6000) : lidx_main_v170 (ix2 a k) j = ix2 a j :=
  funext fun d => Fin.ext (by match d with | ⟨0, _⟩ => rfl | ⟨1, _⟩ => rfl)
theorem ridx170 (a : Fin 2400) (k : Fin 3) (j : Fin 6000) : ridx_main_v170 (ix2 a k) j = ix2 j k :=
  funext fun d => Fin.ext (by match d with | ⟨0, _⟩ => rfl | ⟨1, _⟩ => rfl)

/-! ## The three sums -/

variable (x0 : (⟨S4000x8000, .f32⟩ : BufTy).Contents (Elt Ideal))
  (x1 : (⟨S4000x20000, .f32⟩ : BufTy).Contents (Elt Ideal))
  (x2 : (⟨S8000x20000, .f32⟩ : BufTy).Contents (Elt Ideal))
  (x3 : (⟨S4000x3, .f32⟩ : BufTy).Contents (Elt Ideal))
  (x4 : (⟨S4000x3, .f32⟩ : BufTy).Contents (Elt Ideal))
  (x5 : (⟨S8000x3, .f32⟩ : BufTy).Contents (Elt Ideal))
  (x6 : (⟨S20000x3, .f32⟩ : BufTy).Contents (Elt Ideal))
  (x7 : (⟨S3x3, .f32⟩ : BufTy).Contents (Elt Ideal))
  (x8 : (⟨S1x8000, .f32⟩ : BufTy).Contents (Elt Ideal))
  (x9 : (⟨S1x20000, .f32⟩ : BufTy).Contents (Elt Ideal))
  (x10 : (⟨S4000x1, .f32⟩ : BufTy).Contents (Elt Ideal))
  (x11 : (⟨S4000x1, .f32⟩ : BufTy).Contents (Elt Ideal))
  (x12 : (⟨S1200, .i32⟩ : BufTy).Contents (Elt Ideal))
  (x13 : (⟨S1200, .i32⟩ : BufTy).Contents (Elt Ideal))
  (x14 : (⟨S2400, .i32⟩ : BufTy).Contents (Elt Ideal))
  (x15 : (⟨S6000, .i32⟩ : BufTy).Contents (Elt Ideal))

/-- The first loss's sum is the squared-error sum of the first data matrix and its factors and biases. -/
theorem sq1_eq : val_main_v137 (F := Ideal) x0 x3 x5 x7 x8 x10 x12 x14
    = fun _ => sqSum (M := 1200) (N := 2400) (val_main_v13 (F := Ideal) x0 x12 x14) (val_main_v114 (F := Ideal) x3 x7 x12) (val_main_v115 (F := Ideal) x5 x14) (val_main_v124 (F := Ideal) x8 x14) (val_main_v133 (F := Ideal) x10 x12) := by
  funext i
  rw [val_main_v137_apply, sum_idx2]
  have h0 : val_main_cst_34 (F := Ideal) (Shape.Idx.first h_S_) = (0 : EReal) := Ideal.ofBits_zero_f32
  rw [h0, zero_add]
  unfold sqSum
  refine Finset.sum_congr rfl fun a _ => Finset.sum_congr rfl fun b _ => ?_
  rw [val_main_v136_apply, val_main_v135_apply, val_main_v126_apply, val_main_v117_apply, val_main_v116_apply,
    val_main_v125_apply, val_main_v134_apply]
  simp only [Ideal.mulf_def, Ideal.subf_def, lidx116, ridx116, idx125, idx134]
  rfl

/-- The second loss's sum is the squared-error sum of the second data matrix and its factors and biases. -/
theorem sq2_eq : val_main_v162 (F := Ideal) x1 x4 x6 x7 x9 x11 x13 x15
    = fun _ => sqSum (M := 1200) (N := 6000) (val_main_v27 (F := Ideal) x1 x13 x15) (val_main_v139 (F := Ideal) x4 x7 x13) (val_main_v140 (F := Ideal) x6 x15) (val_main_v149 (F := Ideal) x9 x15) (val_main_v158 (F := Ideal) x11 x13) := by
  funext i
  rw [val_main_v162_apply, sum_idx2]
  have h0 : val_main_cst_40 (F := Ideal) (Shape.Idx.first h_S_) = (0 : EReal) := Ideal.ofBits_zero_f32
  rw [h0, zero_add]
  unfold sqSum
  refine Finset.sum_congr rfl fun a _ => Finset.sum_congr rfl fun b _ => ?_
  rw [val_main_v161_apply, val_main_v160_apply, val_main_v151_apply, val_main_v142_apply, val_main_v141_apply,
    val_main_v150_apply, val_main_v159_apply]
  simp only [Ideal.mulf_def, Ideal.subf_def, lidx141, ridx141, idx150, idx159]
  rfl

/-- The third loss's sum is the trace sum of the third data matrix and the two normalised factors. -/
theorem tr_eq : val_main_v172 (F := Ideal) x2 x5 x6 x14 x15
    = fun _ => trSum (M := 2400) (K := 6000) (val_main_v41 (F := Ideal) x2 x14 x15) (val_main_v166 (F := Ideal) x5 x14) (val_main_v169 (F := Ideal) x6 x15) := by
  funext i
  rw [val_main_v172_apply, sum_idx2]
  have h0 : val_main_cst_42 (F := Ideal) (Shape.Idx.first h_S_) = (0 : EReal) := Ideal.ofBits_zero_f32
  rw [h0, zero_add]
  unfold trSum
  refine Finset.sum_congr rfl fun a _ => Finset.sum_congr rfl fun k _ => ?_
  rw [val_main_v171_apply, val_main_v170_apply]
  simp only [Ideal.mulf_def, lidx170, ridx170]

/-! ## The five results -/

/-- The last stage, the concatenation, is the specification's five results at the three sums and zero times the entropy
    loss: the stages between are the specification's own operations, spelt alike. -/
theorem stage_tail : val_main_v289 (F := Ideal) x0 x1 x2 x3 x4 x5 x6 x7 x8 x9 x10 x11 x12 x13 x14 x15
    = Cert.Loss.tail bcast_S_S1 concatenates_S1_S1_S1_S1_S1_S5_d0 (val_main_v137 (F := Ideal) x0 x3 x5 x7 x8 x10 x12 x14) (val_main_v162 (F := Ideal) x1 x4 x6 x7 x9 x11 x13 x15) (val_main_v172 (F := Ideal) x2 x5 x6 x14 x15)
        (mulf (constant (F := Ideal) Cert.Loss.Sc .f32 0x00000000#32) (val_main_v272 (F := Ideal) x3 x4 x5 x6 x12 x13 x14 x15)) := rfl

/-- The reference's result is the specification's five results at the two squared-error sums, the trace sum and zero. -/
theorem result_eq (m : (ℓ : Loc nD τ sig) → Buf (Elt Ideal) ℓ) (c : Dev nD) : res_out0 (F := Ideal) m c
    = Cert.Loss.tail bcast_S_S1 concatenates_S1_S1_S1_S1_S1_S5_d0
        (fun _ => sqSum (M := 1200) (N := 2400) (val_main_v13 (F := Ideal) (m ((c.tc : Thread nD τ).loc main_arg0)) (m ((c.tc : Thread nD τ).loc main_arg12)) (m ((c.tc : Thread nD τ).loc main_arg14))) (val_main_v114 (F := Ideal) (m ((c.tc : Thread nD τ).loc main_arg3)) (m ((c.tc : Thread nD τ).loc main_arg7)) (m ((c.tc : Thread nD τ).loc main_arg12))) (val_main_v115 (F := Ideal) (m ((c.tc : Thread nD τ).loc main_arg5)) (m ((c.tc : Thread nD τ).loc main_arg14))) (val_main_v124 (F := Ideal) (m ((c.tc : Thread nD τ).loc main_arg8)) (m ((c.tc : Thread nD τ).loc main_arg14))) (val_main_v133 (F := Ideal) (m ((c.tc : Thread nD τ).loc main_arg10)) (m ((c.tc : Thread nD τ).loc main_arg12))))
        (fun _ => sqSum (M := 1200) (N := 6000) (val_main_v27 (F := Ideal) (m ((c.tc : Thread nD τ).loc main_arg1)) (m ((c.tc : Thread nD τ).loc main_arg13)) (m ((c.tc : Thread nD τ).loc main_arg15))) (val_main_v139 (F := Ideal) (m ((c.tc : Thread nD τ).loc main_arg4)) (m ((c.tc : Thread nD τ).loc main_arg7)) (m ((c.tc : Thread nD τ).loc main_arg13))) (val_main_v140 (F := Ideal) (m ((c.tc : Thread nD τ).loc main_arg6)) (m ((c.tc : Thread nD τ).loc main_arg15))) (val_main_v149 (F := Ideal) (m ((c.tc : Thread nD τ).loc main_arg9)) (m ((c.tc : Thread nD τ).loc main_arg15))) (val_main_v158 (F := Ideal) (m ((c.tc : Thread nD τ).loc main_arg11)) (m ((c.tc : Thread nD τ).loc main_arg13))))
        (fun _ => trSum (M := 2400) (K := 6000) (val_main_v41 (F := Ideal) (m ((c.tc : Thread nD τ).loc main_arg2)) (m ((c.tc : Thread nD τ).loc main_arg14)) (m ((c.tc : Thread nD τ).loc main_arg15))) (val_main_v166 (F := Ideal) (m ((c.tc : Thread nD τ).loc main_arg5)) (m ((c.tc : Thread nD τ).loc main_arg14))) (val_main_v169 (F := Ideal) (m ((c.tc : Thread nD τ).loc main_arg6)) (m ((c.tc : Thread nD τ).loc main_arg15))))
        (constant (F := Ideal) Cert.Loss.Sc .f32 0x00000000#32) := by
  have hres : res_out0 (F := Ideal) m c = val_main_v289 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
    show res_main_v289 (F := Ideal) m c = _
    unfold res_main_v289; rfl
  rw [hres, stage_tail, Cert.Loss.zero_mulf, sq1_eq, sq2_eq, tr_eq]

end Cert.ReferenceIdeal.Hand

end
-- ==== Proof.lean ====
/-
  The certificate of a masked low-rank-factor loss: three squared-error / trace sums over gathered sub-matrices,
  weighted and stacked into five numbers.

  The kernel program gathers the sub-matrices and the softmax factors on the host, then runs three accumulating
  kernels — each walks its matrix in six blocks of rows, adds the block's sum to one running cell that is cleared at
  the first block, and writes the cell back after the last — and finishes on the host: divide, scale, add, stack.
  The reference computes the same three sums as whole-array reductions, and a fourth, entropy, term that it multiplies by
  the literal zero.

  On the extended reals a sum over 1200 rows is the sum of its six 200-row block sums, a sum over lanes then rows is the
  double sum (addition there is commutative and associative, the infinities included), a matrix product into a zero
  accumulator is the plain contraction, and zero times anything is zero; so both programs end at the same five numbers
  (Spec.lean's `tail` of `sqSum`, `sqSum`, `trSum`). No step uses finiteness: the precondition is never opened.

  Frames. The reference is host operations only: its frame is its run with the result dropped. The kernel program's
  frame, at either float instance, is the run of its eight segments (four host stretches, three kernel regions, the
  host tail) read at the argument buffers, which no operation and no region writes.
-/
import proofs.«125036_j5205500362863_1_alg».proof.Defs
import proofs.«125036_j5205500362863_1_alg».proof.Proof.Gen.Kernel
import proofs.«125036_j5205500362863_1_alg».proof.Proof.Gen.KernelIdeal
import proofs.«125036_j5205500362863_1_alg».proof.Proof.Gen.ReferenceIdeal
import proofs.«125036_j5205500362863_1_alg».proof.Proof.Gen.Pre_finite_inputs
import proofs.«125036_j5205500362863_1_alg».proof.Proof.K.Frame
import proofs.«125036_j5205500362863_1_alg».proof.Proof.KI.Frame
import proofs.«125036_j5205500362863_1_alg».proof.Proof.KI.Tail
import proofs.«125036_j5205500362863_1_alg».proof.Proof.KI.Prologue
import proofs.«125036_j5205500362863_1_alg».proof.Proof.Ref.Run
import proofs.«125036_j5205500362863_1_alg».proof.Proof.Ref.Value
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel :=
  fun m ρ _ => Cert.Kernel.Hand.frame (F := Bits) m ρ

/-- So does its reading on the extended reals. -/
theorem frame_ki : Cert.frame_KernelIdeal :=
  fun m ρ _ => Cert.KernelIdeal.Hand.frame (F := Ideal) m ρ

/-- The reference's frame is its run with the result dropped. -/
theorem frame_ri : Cert.frame_ReferenceIdeal :=
  fun m ρ _ => (θ_run Cert.ReferenceIdeal.defs _ _).mono (fun _ h c => (h c).2) (Cert.ReferenceIdeal.ValueP.run (F := Ideal) m ρ)

/-- Both idealized programs end at the same five numbers. The kernel program's result is the tail of the three
    accumulated sums over the arrays its regions read; those arrays are the reference's own stages of the same
    arguments; the reference's result is the same tail of the same sums, its fifth entry zero times the entropy term,
    which is zero. -/
theorem algebraic : Cert.algebraic_KernelIdeal_ReferenceIdeal := by
  intro m ρ m' ρ' _ hagree
  refine ⟨fun c => Cert.KernelIdeal.Hand.W8 (F := Ideal) m ρ c (Proc.devRef .tc Cert.KernelIdeal.main_v172),
    Cert.KernelIdeal.Hand.run_val (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10, h11, h12, h13, h14, h15⟩ := hagree c
  refine (Cert.ReferenceIdeal.Hand.result_eq m' c).trans ?_
  show _ = Cert.KernelIdeal.Hand.W8 (F := Ideal) m ρ c (Proc.devRef .tc Cert.KernelIdeal.main_v172)
  rw [Cert.KernelIdeal.Hand.result_eq m ρ Cert.ReferenceIdeal.Facts₀.bcast_S_S1 Cert.ReferenceIdeal.Facts₀.concatenates_S1_S1_S1_S1_S1_S5_d0 c,
    Cert.KernelIdeal.Hand.entry_v13 m ρ c,
    Cert.KernelIdeal.Hand.entry_v142 m ρ c,
    Cert.KernelIdeal.Hand.entry_v144 m ρ c,
    Cert.KernelIdeal.Hand.entry_v76 m ρ c,
    Cert.KernelIdeal.Hand.entry_v90 m ρ c,
    Cert.KernelIdeal.Hand.entry_v27 m ρ c,
    Cert.KernelIdeal.Hand.entry_v143 m ρ c,
    Cert.KernelIdeal.Hand.entry_v145 m ρ c,
    Cert.KernelIdeal.Hand.entry_v83 m ρ c,
    Cert.KernelIdeal.Hand.entry_v97 m ρ c,
    Cert.KernelIdeal.Hand.entry_v41 m ρ c,
    Cert.KernelIdeal.Hand.entry_v149 m ρ c,
    Cert.KernelIdeal.Hand.entry_v151 m ρ c,
    h0, h1, h2, h3, h4, h5, h6, h7, h8, h9, h10, h11, h12, h13, h14, h15]

/-- The five claims, under the programs' stated facts. -/
theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
